-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S65536x1024 : Shape := ⟨2, ![65536, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_

variable [Facts]

def fn {F : FTy → Type} [FloatOps F] (main_arg0 : FVec F S1024x1024 .f32) (main_arg1 : FVec F S65536x1024 .f32) (main_arg2 : FVec F S65536x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536x1024 .f32 := Host.absf main_arg2
  let main_cst_2 : FVec F S_ .f32 := constant S_ .f32 0x7F800000#32
  let main_v10 : FVec F S65536x1024 .f32 := broadcastInDim S65536x1024 ![] bcast_S_S65536x1024 main_cst_2
  let main_v11 : IVec S65536x1024 1 := cmpf .olt main_v9 main_v10
  let main_c_3 : IVec S_ 1 := constantI S_ 1 1#1
  let main_v12 : IVec S_ 1 := (fun x v => Host.reduce IntOp.andi x v reducesTo_S65536x1024_S_d0_1 h_S_) main_v11 main_c_3
  let main_v13 : IVec S_ 1 := andi main_v8 main_v12
  main_v13
-- ==== Kernel.lean ====
abbrev S1024x1024 : Shape := ⟨2, ![1024, 1024]⟩
abbrev S65536x1024 : Shape := ⟨2, ![65536, 1024]⟩
abbrev S4096x16x1024 : Shape := ⟨3, ![4096, 16, 1024]⟩
abbrev S16x4096x1024 : Shape := ⟨3, ![16, 4096, 1024]⟩
abbrev S256x1024 : Shape := ⟨2, ![256, 1024]⟩
abbrev S16x64x1024 : Shape := ⟨3, ![16, 64, 1024]⟩
abbrev S256x16 : Shape := ⟨2, ![256, 16]⟩
abbrev S16x256x1024 : Shape := ⟨3, ![16, 256, 1024]⟩
abbrev S256x16x64 : Shape := ⟨3, ![256, 16, 64]⟩
abbrev S256x16x1 : Shape := ⟨3, ![256, 16, 1]⟩
abbrev S256x1x64 : Shape := ⟨3, ![256, 1, 64]⟩
abbrev S256x64 : Shape := ⟨2, ![256, 64]⟩
abbrev S1x64x1024 : Shape := ⟨3, ![1, 64, 1024]⟩
abbrev S64x1024 : Shape := ⟨2, ![64, 1024]⟩
abbrev S256x1 : Shape := ⟨2, ![256, 1]⟩
abbrev S1x256x1024 : Shape := ⟨3, ![1, 256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S65536x1024, .f32⟩
  | .hbm, ⟨2, _⟩ => ⟨S65536x1024, .f32⟩
  | .hbm, ⟨3, _⟩ => ⟨S4096x16x1024, .f32⟩
  | .hbm, ⟨4, _⟩ => ⟨S16x4096x1024, .f32⟩
  | .hbm, ⟨5, _⟩ => ⟨S16x4096x1024, .bf16⟩
  | .hbm, ⟨6, _⟩ => ⟨S4096x16x1024, .f32⟩
  | .hbm, ⟨7, _⟩ => ⟨S16x4096x1024, .f32⟩
  | .hbm, ⟨8, _⟩ => ⟨S16x4096x1024, .bf16⟩
  | .hbm, ⟨9, _⟩ => ⟨S1024x1024, .bf16⟩
  | .hbm, ⟨10, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S16x64x1024, .bf16⟩
  | .local _ .vmem, ⟨3, _⟩ => ⟨S16x64x1024, .bf16⟩
  | .local _ .vmem, ⟨4, _⟩ => ⟨S16x64x1024, .bf16⟩
  | .local _ .vmem, ⟨5, _⟩ => ⟨S16x64x1024, .bf16⟩
  | .local _ .vmem, ⟨6, _⟩ => ⟨S256x1024, .f32⟩
  | .local _ .vmem, ⟨7, _⟩ => ⟨S256x1024, .f32⟩
  | .local _ .vmem, ⟨8, _⟩ => ⟨S256x16, .f32⟩
  | .local _ .vmem, ⟨9, _⟩ => ⟨S256x16, .f32⟩
  | .local _ .vmem, ⟨10, _⟩ => ⟨S16x256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v275 : BitVec 1 := Scalar.cmpi .eq arg1 c63_i32
  let v276 : BitVec 32 := Scalar.extui v275
  let c0_i32_118 : BitVec 32 := 0#32
  let v277 : BitVec 1 := Scalar.cmpi .ne v276 c0_i32_118
  v277

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S65536x1024_S4096x16x1024 : S65536x1024.ShapeCasts S4096x16x1024
  transposes_S4096x16x1024_S16x4096x1024_1_0_2 : S4096x16x1024.Transposes [1, 0, 2] S16x4096x1024
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256x1024_S16x256x1024_0_0_0 : ∀ a, (![0, 0, 0] : Fin 3 → Nat) a + S16x256x1024.size a ≤ S16x256x1024.size a
  h_S16x256x1024 : 0 < S16x256x1024.numel
  shapeCasts_S16x256x1024_S16x256x1024 : S16x256x1024.ShapeCasts S16x256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S16x64x1024_S16x64x1024_0_0_0 : ∀ a, (![0, 0, 0] : Fin 3 → Nat) a + S16x64x1024.size a ≤ S16x64x1024.size a
  h_S16x64x1024 : 0 < S16x64x1024.numel
  shapeCasts_S16x64x1024_S16x64x1024 : S16x64x1024.ShapeCasts S16x64x1024
  shapeCasts_S16x64x1024_S1024x1024 : S16x64x1024.ShapeCasts S1024x1024
  transposes_S1024x1024_p1_0_S1024x1024 : S1024x1024.Transposes [1, 0] S1024x1024
  shapeCasts_S256x1024_S256x16x64 : S256x1024.ShapeCasts S256x16x64
  reduces_S256x16x64_S256x16 : S256x16x64.Reduces [2] S256x16
  shapeCasts_S256x16_S256x16x1 : S256x16.ShapeCasts S256x16x1
  broadcasts_S256x16x1_S256x16x64 : S256x16x1.Broadcasts S256x16x64
  slices_S256x16x64_o0_0_0_S256x1x64 : S256x16x64.Slices ![0, 0, 0] S256x1x64
  shapeCasts_S256x1x64_S256x64 : S256x1x64.ShapeCasts S256x64
  slices_S16x64x1024_o0_0_0_S1x64x1024 : S16x64x1024.Slices ![0, 0, 0] S1x64x1024
  shapeCasts_S1x64x1024_S64x1024 : S1x64x1024.ShapeCasts S64x1024
  slices_S256x16_o0_0_S256x1 : S256x16.Slices ![0, 0] S256x1
  inb_S16x256x1024_S1x256x1024_0_0_0 : ∀ a, (![0, 0, 0] : Fin 3 → Nat) a + S1x256x1024.size a ≤ S16x256x1024.size a
  h_S1x256x1024 : 0 < S1x256x1024.numel
  shapeCasts_S1x256x1024_S256x1024 : S1x256x1024.ShapeCasts S256x1024
  broadcasts_S256x1_S256x1024 : S256x1.Broadcasts S256x1024
  shapeCasts_S256x1024_S1x256x1024 : S256x1024.ShapeCasts S1x256x1024
  slices_S256x16x64_o0_1_0_S256x1x64 : S256x16x64.Slices ![0, 1, 0] S256x1x64
  slices_S16x64x1024_o1_0_0_S1x64x1024 : S16x64x1024.Slices ![1, 0, 0] S1x64x1024
  slices_S256x16_o0_1_S256x1 : S256x16.Slices ![0, 1] S256x1
  inb_S16x256x1024_S1x256x1024_1_0_0 : ∀ a, (![1, 0, 0] : Fin 3 → Nat) a + S1x256x1024.size a ≤ S16x256x1024.size a
  slices_S256x16x64_o0_2_0_S256x1x64 : S256x16x64.Slices ![0, 2, 0] S256x1x64
  slices_S16x64x1024_o2_0_0_S1x64x1024 : S16x64x1024.Slices ![2, 0, 0] S1x64x1024
  slices_S256x16_o0_2_S256x1 : S256x16.Slices ![0, 2] S256x1
  inb_S16x256x1024_S1x256x1024_2_0_0 : ∀ a, (![2, 0, 0] : Fin 3 → Nat) a + S1x256x1024.size a ≤ S16x256x1024.size a
  slices_S256x16x64_o0_3_0_S256x1x64 : S256x16x64.Slices ![0, 3, 0] S256x1x64
  slices_S16x64x1024_o3_0_0_S1x64x1024 : S16x64x1024.Slices ![3, 0, 0] S1x64x1024
  slices_S256x16_o0_3_S256x1 : S256x16.Slices ![0, 3] S256x1
  inb_S16x256x1024_S1x256x1024_3_0_0 : ∀ a, (![3, 0, 0] : Fin 3 → Nat) a + S1x256x1024.size a ≤ S16x256x1024.size a
  slices_S256x16x64_o0_4_0_S256x1x64 : S256x16x64.Slices ![0, 4, 0] S256x1x64
  slices_S16x64x1024_o4_0_0_S1x64x1024 : S16x64x1024.Slices ![4, 0, 0] S1x64x1024
  slices_S256x16_o0_4_S256x1 : S256x16.Slices ![0, 4] S256x1
  inb_S16x256x1024_S1x256x1024_4_0_0 : ∀ a, (![4, 0, 0] : Fin 3 → Nat) a + S1x256x1024.size a ≤ S16x256x1024.size a
  slices_S256x16x64_o0_5_0_S256x1x64 : S256x16x64.Slices ![0, 5, 0] S256x1x64
  slices_S16x64x1024_o5_0_0_S1x64x1024 : S16x64x1024.Slices ![5, 0, 0] S1x64x1024
  slices_S256x16_o0_5_S256x1 : S256x16.Slices ![0, 5] S256x1
  inb_S16x256x1024_S1x256x1024_5_0_0 : ∀ a, (![5, 0, 0] : Fin 3 → Nat) a + S1x256x1024.size a ≤ S16x256x1024.size a
  slices_S256x16x64_o0_6_0_S256x1x64 : S256x16x64.Slices ![0, 6, 0] S256x1x64
  slices_S16x64x1024_o6_0_0_S1x64x1024 : S16x64x1024.Slices ![6, 0, 0] S1x64x1024
  slices_S256x16_o0_6_S256x1 : S256x16.Slices ![0, 6] S256x1
  inb_S16x256x1024_S1x256x1024_6_0_0 : ∀ a, (![6, 0, 0] : Fin 3 → Nat) a + S1x256x1024.size a ≤ S16x256x1024.size a
  slices_S256x16x64_o0_7_0_S256x1x64 : S256x16x64.Slices ![0, 7, 0] S256x1x64
  slices_S16x64x1024_o7_0_0_S1x64x1024 : S16x64x1024.Slices ![7, 0, 0] S1x64x1024
  slices_S256x16_o0_7_S256x1 : S256x16.Slices ![0, 7] S256x1
  inb_S16x256x1024_S1x256x1024_7_0_0 : ∀ a, (![7, 0, 0] : Fin 3 → Nat) a + S1x256x1024.size a ≤ S16x256x1024.size a
  slices_S256x16x64_o0_8_0_S256x1x64 : S256x16x64.Slices ![0, 8, 0] S256x1x64
  slices_S16x64x1024_o8_0_0_S1x64x1024 : S16x64x1024.Slices ![8, 0, 0] S1x64x1024
  slices_S256x16_o0_8_S256x1 : S256x16.Slices ![0, 8] S256x1
  inb_S16x256x1024_S1x256x1024_8_0_0 : ∀ a, (![8, 0, 0] : Fin 3 → Nat) a + S1x256x1024.size a ≤ S16x256x1024.size a
  slices_S256x16x64_o0_9_0_S256x1x64 : S256x16x64.Slices ![0, 9, 0] S256x1x64
  slices_S16x64x1024_o9_0_0_S1x64x1024 : S16x64x1024.Slices ![9, 0, 0] S1x64x1024
  slices_S256x16_o0_9_S256x1 : S256x16.Slices ![0, 9] S256x1
  inb_S16x256x1024_S1x256x1024_9_0_0 : ∀ a, (![9, 0, 0] : Fin 3 → Nat) a + S1x256x1024.size a ≤ S16x256x1024.size a
  slices_S256x16x64_o0_10_0_S256x1x64 : S256x16x64.Slices ![0, 10, 0] S256x1x64
  slices_S16x64x1024_o10_0_0_S1x64x1024 : S16x64x1024.Slices ![10, 0, 0] S1x64x1024
  slices_S256x16_o0_10_S256x1 : S256x16.Slices ![0, 10] S256x1
  inb_S16x256x1024_S1x256x1024_10_0_0 : ∀ a, (![10, 0, 0] : Fin 3 → Nat) a + S1x256x1024.size a ≤ S16x256x1024.size a
  slices_S256x16x64_o0_11_0_S256x1x64 : S256x16x64.Slices ![0, 11, 0] S256x1x64
  slices_S16x64x1024_o11_0_0_S1x64x1024 : S16x64x1024.Slices ![11, 0, 0] S1x64x1024
  slices_S256x16_o0_11_S256x1 : S256x16.Slices ![0, 11] S256x1
  inb_S16x256x1024_S1x256x1024_11_0_0 : ∀ a, (![11, 0, 0] : Fin 3 → Nat) a + S1x256x1024.size a ≤ S16x256x1024.size a
  slices_S256x16x64_o0_12_0_S256x1x64 : S256x16x64.Slices ![0, 12, 0] S256x1x64
  slices_S16x64x1024_o12_0_0_S1x64x1024 : S16x64x1024.Slices ![12, 0, 0] S1x64x1024
  slices_S256x16_o0_12_S256x1 : S256x16.Slices ![0, 12] S256x1
  inb_S16x256x1024_S1x256x1024_12_0_0 : ∀ a, (![12, 0, 0] : Fin 3 → Nat) a + S1x256x1024.size a ≤ S16x256x1024.size a
  slices_S256x16x64_o0_13_0_S256x1x64 : S256x16x64.Slices ![0, 13, 0] S256x1x64
  slices_S16x64x1024_o13_0_0_S1x64x1024 : S16x64x1024.Slices ![13, 0, 0] S1x64x1024
  slices_S256x16_o0_13_S256x1 : S256x16.Slices ![0, 13] S256x1
  inb_S16x256x1024_S1x256x1024_13_0_0 : ∀ a, (![13, 0, 0] : Fin 3 → Nat) a + S1x256x1024.size a ≤ S16x256x1024.size a
  slices_S256x16x64_o0_14_0_S256x1x64 : S256x16x64.Slices ![0, 14, 0] S256x1x64
  slices_S16x64x1024_o14_0_0_S1x64x1024 : S16x64x1024.Slices ![14, 0, 0] S1x64x1024
  slices_S256x16_o0_14_S256x1 : S256x16.Slices ![0, 14] S256x1
  inb_S16x256x1024_S1x256x1024_14_0_0 : ∀ a, (![14, 0, 0] : Fin 3 → Nat) a + S1x256x1024.size a ≤ S16x256x1024.size a
  slices_S256x16x64_o0_15_0_S256x1x64 : S256x16x64.Slices ![0, 15, 0] S256x1x64
  slices_S16x64x1024_o15_0_0_S1x64x1024 : S16x64x1024.Slices ![15, 0, 0] S1x64x1024
  slices_S256x16_o0_15_S256x1 : S256x16.Slices ![0, 15] S256x1
  inb_S16x256x1024_S1x256x1024_15_0_0 : ∀ a, (![15, 0, 0] : Fin 3 → Nat) a + S1x256x1024.size a ≤ S16x256x1024.size a
  dot_S256x1024_S1024x1024_S256x1024_1_0_0_1_n_n_wf : DotDims.WF S256x1024 S1024x1024 S256x1024 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .bf16 = 32 ∨ (Rect.block (s := S1024x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x1024.size a ≤ S16x4096x1024.size a
  hwx0_1 : ∀ i : grid0.Coords, EltTy.bits .bf16 = 32 ∨ (Rect.block (s := S16x4096x1024) S16x64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x1024.size a ≤ S16x4096x1024.size a
  hwx0_2 : ∀ i : grid0.Coords, EltTy.bits .bf16 = 32 ∨ (Rect.block (s := S16x4096x1024) S16x64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x1024.size a
  hwx0_3 : ∀ i : grid0.Coords, EltTy.bits .f32 = 32 ∨ (Rect.block (s := S1024x1024) S256x1024.size (cc0_transform_3 i) (hinb0_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_v6) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x1024 : Shape := ⟨2, ![1024, 1024]⟩
abbrev S65536x1024 : Shape := ⟨2, ![65536, 1024]⟩
abbrev S1024x65536 : Shape := ⟨2, ![1024, 65536]⟩
abbrev S_ : Shape := ⟨0, ![]⟩
abbrev S1024x4096x16 : Shape := ⟨3, ![1024, 4096, 16]⟩
abbrev S1024x16 : Shape := ⟨2, ![1024, 16]⟩
abbrev S1024x1x16 : Shape := ⟨3, ![1024, 1, 16]⟩

abbrev nBuf : Space → Nat
  | .hbm => 28
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S65536x1024, .f32⟩
  | .hbm, ⟨2, _⟩ => ⟨S65536x1024, .f32⟩
  | .hbm, ⟨3, _⟩ => ⟨S1024x65536, .f32⟩
  | .hbm, ⟨4, _⟩ => ⟨S1024x65536, .f32⟩
  | .hbm, ⟨5, _⟩ => ⟨S_, .f32⟩
  | .hbm, ⟨6, _⟩ => ⟨S1024x65536, .f32⟩
  | .hbm, ⟨7, _⟩ => ⟨S1024x65536, .f32⟩
  | .hbm, ⟨8, _⟩ => ⟨S1024x4096x16, .f32⟩
  | .hbm, ⟨9, _⟩ => ⟨S_, .f32⟩
  | .hbm, ⟨10, _⟩ => ⟨S1024x4096x16, .f32⟩
  | .hbm, ⟨11, _⟩ => ⟨S1024x4096x16, .f32⟩
  | .hbm, ⟨12, _⟩ => ⟨S_, .f32⟩
  | .hbm, ⟨13, _⟩ => ⟨S1024x16, .f32⟩
  | .hbm, ⟨14, _⟩ => ⟨S_, .f32⟩
  | .hbm, ⟨15, _⟩ => ⟨S1024x16, .f32⟩
  | .hbm, ⟨16, _⟩ => ⟨S1024x16, .f32⟩
  | .hbm, ⟨17, _⟩ => ⟨S1024x1x16, .f32⟩
  | .hbm, ⟨18, _⟩ => ⟨S1024x4096x16, .f32⟩
  | .hbm, ⟨19, _⟩ => ⟨S1024x4096x16, .f32⟩
  | .hbm, ⟨20, _⟩ => ⟨S1024x4096x16, .f32⟩
  | .hbm, ⟨21, _⟩ => ⟨S_, .f32⟩
  | .hbm, ⟨22, _⟩ => ⟨S1024x16, .f32⟩
  | .hbm, ⟨23, _⟩ => ⟨S1024x1x16, .f32⟩
  | .hbm, ⟨24, _⟩ => ⟨S1024x4096x16, .f32⟩
  | .hbm, ⟨25, _⟩ => ⟨S1024x4096x16, .f32⟩
  | .hbm, ⟨26, _⟩ => ⟨S1024x65536, .f32⟩
  | .hbm, ⟨27, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S65536x1024_S1024x65536_1_0 : S65536x1024.Transposes [1, 0] S1024x65536
  bcast_S_S1024x65536 : S_.BroadcastsInDim S1024x65536 (![] : Fin 0 → Fin S1024x65536.rank)
  shapeCasts_S1024x65536_S1024x4096x16 : S1024x65536.ShapeCasts S1024x4096x16
  bcast_S_S1024x4096x16 : S_.BroadcastsInDim S1024x4096x16 (![] : Fin 0 → Fin S1024x4096x16.rank)
  reducesTo_S1024x4096x16_S1024x16_d1 : S1024x4096x16.ReducesTo [1] S1024x16
  h_S_ : 0 < S_.numel
  bcast_S_S1024x16 : S_.BroadcastsInDim S1024x16 (![] : Fin 0 → Fin S1024x16.rank)
  bcast_S1024x16_S1024x1x16_0_2 : S1024x16.BroadcastsInDim S1024x1x16 (![0, 2] : Fin 2 → Fin S1024x1x16.rank)
  bcast_S1024x1x16_S1024x4096x16_0_1_2 : S1024x1x16.BroadcastsInDim S1024x4096x16 (![0, 1, 2] : Fin 3 → Fin S1024x4096x16.rank)
  shapeCasts_S1024x4096x16_S1024x65536 : S1024x4096x16.ShapeCasts S1024x65536
  dot_S1024x1024_S1024x65536_S1024x65536_1_0_0_1_n_n_wf : DotDims.WF S1024x1024 S1024x65536 S1024x65536 [1] [0] [0] [1] [] []
  dot_S1024x65536_S65536x1024_S1024x1024_1_0_0_1_n_n_wf : DotDims.WF S1024x65536 S65536x1024 S1024x1024 [1] [0] [0] [1] [] []

variable [Facts₀]

def dot_S1024x1024_S1024x65536_S1024x65536_1_0_0_1_n_n : DotDims S1024x1024 S1024x65536 S1024x65536 where
  lhsContracting := [1]
  rhsContracting := [0]
  lhsNonContracting := [0]
  rhsNonContracting := [1]
  lhsBatch := []
  rhsBatch := []
  wf := dot_S1024x1024_S1024x65536_S1024x65536_1_0_0_1_n_n_wf
def dot_S1024x65536_S65536x1024_S1024x1024_1_0_0_1_n_n : DotDims S1024x65536 S65536x1024 S1024x1024 where
  lhsContracting := [1]
  rhsContracting := [0]
  lhsNonContracting := [0]
  rhsNonContracting := [1]
  lhsBatch := []
  rhsBatch := []
  wf := dot_S1024x65536_S65536x1024_S1024x1024_1_0_0_1_n_n_wf

class Facts : Prop extends Facts₀ where

variable [Facts]
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibLeadUnit.lean ====
/-
  A matrix carried with a leading axis of extent one, read at one entry, over any sizes and any element type.

  * [1, a, b] re-laid as [a, b]: the matrix at (i, j) is the array at (0, i, j).
  * [a, b] re-laid as [1, a, b]: the array at (0, i, j) is the matrix at (i, j).
  * The slab [q : q+1, 0 : a, 0 : b] sliced out of an [n, a, b] array: the slab at (0, i, j) is the array at (q, i, j).
-/
import Idealize.ShloMosaic.Lib.Pipeline.Value
import Idealize.ShloMosaic.Lib.ValueIdx

noncomputable section

namespace Cert.LeadUnit

open Idealize.ShloMosaic Idealize.ShloMosaic.ValueIdx

/-- [1, a, b] re-laid as [a, b] reads, at (i, j), the array at (0, i, j). -/
theorem dropLead_apply {α : Type} {a b : ℕ} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) := by
  refine shapeCast_apply v h (ix2 i j) (ix3 (0 : Fin 1) i j) ?_
  rw [Shape.rowMajor_val_three, Shape.rowMajor_val_two]
  show ((0 : ℕ) * a + i.val) * b + j.val = i.val * b + j.val
  rw [Nat.zero_mul, Nat.zero_add]

/-- [a, b] re-laid as [1, a, b] reads, at (0, i, j), the matrix at (i, j). -/
theorem addLead_apply {α : Type} {a b : ℕ} (v : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ v h (ix3 z i j) = v (ix2 i j) := by
  refine shapeCast_apply v h (ix3 z i j) (ix2 i j) ?_
  rw [Shape.rowMajor_val_three, Shape.rowMajor_val_two]
  show i.val * b + j.val = (z.val * a + i.val) * b + j.val
  have hz : z.val = 0 := by have := z.isLt; omega
  rw [hz, Nat.zero_mul, Nat.zero_add]

/-- The slab q of an [n, a, b] array, sliced out as [1, a, b], reads at (0, i, j) the array at (q, i, j). -/
theorem sliceLead_apply {α : Type} {n a b : ℕ} (x : (⟨3, ![n, a, b]⟩ : Shape).Idx → α) (q : Fin n)
    (h : (⟨3, ![n, a, b]⟩ : Shape).Slices ![q.val, 0, 0] ⟨3, ![1, a, b]⟩) (z : Fin 1) (i : Fin a) (j : Fin b) :
    extractStridedSlice ⟨3, ![1, a, b]⟩ ![q.val, 0, 0] x h (ix3 z i j) = x (ix3 q i j) := by
  refine extractStridedSlice_apply _ x h (ix3 z i j) (ix3 q i j) fun c => ?_
  match c with
  | ⟨0, _⟩ =>
    show q.val = q.val + z.val
    have hz : z.val = 0 := by have := z.isLt; omega
    omega
  | ⟨1, _⟩ => show i.val = 0 + i.val; omega
  | ⟨2, _⟩ => show j.val = 0 + j.val; omega

end Cert.LeadUnit

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibTrailingUnit.lean ====
/-
  A trailing unit axis: `[a, b]` re-laid as `[a, b, 1]` read at `(p, q, 0)`, and `[a, b, 1]` broadcast along the new axis to
  `[a, b, k]` read at `(p, q, j)` — the two steps by which a per-row quantity `s[:, :, None]` meets a `[a, b, k]` array.
  Over any extents and any element type.
-/
import Idealize.ShloMosaic.Lib.ValueIdx
import Idealize.ShloMosaic.Lib.Pipeline.Value

noncomputable section

namespace Cert.Lib.TrailingUnit

open Idealize.ShloMosaic Idealize.ShloMosaic.ValueIdx

variable {α : Type}

/-- `[a, b]` re-laid as `[a, b, 1]`: the entry `(p, q, u)` is the operand's `(p, q)`. -/
theorem shapeCast_addLast_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast along its last axis to `[a, b, k]`: the entry `(p, q, j)` is the operand's `(p, q, 0)`. -/
theorem broadcastTo_last_apply {a b k : ℕ} (x : (⟨3, ![a, b, 1]⟩ : Shape).Idx → α)
    (h : (⟨3, ![a, b, 1]⟩ : Shape).Broadcasts ⟨3, ![a, b, k]⟩) (p : Fin a) (q : Fin b) (j : Fin k) :
    broadcastTo ⟨3, ![a, b, k]⟩ x h (ix3 p q j) = x (ix3 p q (0 : Fin 1)) :=
  broadcastTo_apply x h _ _ (fun d => by
    match d with
    | ⟨0, _⟩ =>
      show p.val = if a = 1 then 0 else p.val
      split_ifs with h1
      · have := p.isLt; omega
      · rfl
    | ⟨1, _⟩ =>
      show q.val = if b = 1 then 0 else q.val
      split_ifs with h1
      · have := q.isLt; omega
      · rfl
    | ⟨2, _⟩ => rfl)

end Cert.Lib.TrailingUnit

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHeadBlocks.lean ====
/-
  A block of multi-head attention, its pieces read at one entry on the extended reals, over any sizes.

  A vector unit that keeps the heads on a middle axis works on arrays [a, n, k] (a rows, n heads, k keys) and picks one
  head out at a time. Read here at one entry:
  * the greatest entry and the sum along the LAST axis of an [a, n, k] array (a lane maximum from −∞, a lane sum);
  * a per-(row, head) quantity [a, n] laid as [a, n, 1] and broadcast along the keys to [a, n, k];
  * head `o`'s slab [a, 1, k] of an [a, n, k] array re-laid as the matrix [a, k];
  * column `o` of an [a, n] matrix, as a column [a, 1], broadcast along the lanes to [a, b];
  * head `o`'s slab [1, k, d] of an [n, k, d] table re-laid as the matrix [k, d];
  * an [n, k, d] table flattened to [n·k, d], transposed, and multiplied from the left by an [a, d] matrix into zeros,
    the product [a, n·k] re-laid as [a, n, k]: entry (p, h, j) is the dot product of row p with table row (h, j).
-/
import Idealize.ShloMosaic.PureOps.Ideal.Laws
import Idealize.ShloMosaic.Lib.ValueIdx
import Idealize.ShloMosaic.Lib.Pipeline.Value
import proofs.«165716_j46926812676317_2_alg».proof.Proof.LibRowSoftmax
import proofs.«165716_j46926812676317_2_alg».proof.Proof.LibLeadUnit
import proofs.«165716_j46926812676317_2_alg».proof.Proof.LibColRowBroadcast
import proofs.«165716_j46926812676317_2_alg».proof.Proof.LibTrailingUnit
import proofs.«165716_j46926812676317_2_alg».proof.Proof.LibPlainMatmul

noncomputable section

open scoped BigOperators

namespace Cert.HeadBlocks

open Idealize.ShloMosaic Idealize.ShloMosaic.ValueIdx Cert.RowSoftmax

/-! ## Along the last of three axes -/

/-- The lane maximum of an [a, n, k] array from −∞, at (p, q): the greatest entry of that row. -/
theorem lastMax_apply {a n k : ℕ} (v : FVec Ideal ⟨3, ![a, n, k]⟩ .f32) (h : Shape.Reduces ⟨3, ![a, n, k]⟩ [2] ⟨2, ![a, n]⟩)
    (hφ : FKind.Formats .f32) (hacc : (0xFF800000#32 : BitVec 32) = FKind.maximumf.neutral .f32 hφ) (p : Fin a) (q : Fin n) :
    multiReduction .maximumf [2] ⟨2, ![a, n]⟩ v 0xFF800000#32 h hφ hacc (ix2 p q) = rowMax (fun j : Fin k => v (ix3 p q j)) := by
  refine (Ideal.multiReduction_maximumf_single v _ h hφ hacc (ix2 p q)).trans ?_
  unfold rowMax
  refine congrArg (fun f => Finset.fold max _ f Finset.univ) (funext fun j => congrArg v (funext fun c => Fin.ext ?_))
  match c with
  | ⟨0, _⟩ => rfl
  | ⟨1, _⟩ => rfl
  | ⟨2, _⟩ => rfl

/-- The lane sum of an [a, n, k] array, at (p, q): the sum of that row. -/
theorem lastSum_apply {a n k : ℕ} (v : FVec Ideal ⟨3, ![a, n, k]⟩ .f32) (h : Shape.Reduces ⟨3, ![a, n, k]⟩ [2] ⟨2, ![a, n]⟩)
    (hφ : FKind.Formats .f32) (hacc : (0x00000000#32 : BitVec 32) = FKind.add.neutral .f32 hφ) (p : Fin a) (q : Fin n) :
    multiReduction .add [2] ⟨2, ![a, n]⟩ v 0x00000000#32 h hφ hacc (ix2 p q) = ∑ j : Fin k, v (ix3 p q j) := by
  refine (Ideal.multiReduction_add_single v _ h hφ hacc (ix2 p q)).trans ?_
  refine Finset.sum_congr rfl fun j _ => congrArg v (funext fun c => Fin.ext ?_)
  match c with
  | ⟨0, _⟩ => rfl
  | ⟨1, _⟩ => rfl
  | ⟨2, _⟩ => rfl

/-- A per-(row, head) quantity laid as [a, n, 1] and broadcast along the keys: entry (p, q, j) is the quantity at (p, q). -/
theorem keepLast_apply {α : Type} {a n k : ℕ} (u : (⟨2, ![a, n]⟩ : Shape).Idx → α)
    (hc : (⟨2, ![a, n]⟩ : Shape).ShapeCasts ⟨3, ![a, n, 1]⟩) (hb : (⟨3, ![a, n, 1]⟩ : Shape).Broadcasts ⟨3, ![a, n, k]⟩)
    (p : Fin a) (q : Fin n) (j : Fin k) :
    broadcastTo ⟨3, ![a, n, k]⟩ (shapeCast ⟨3, ![a, n, 1]⟩ u hc) hb (ix3 p q j) = u (ix2 p q) :=
  (Cert.Lib.TrailingUnit.broadcastTo_last_apply _ hb p q j).trans (Cert.Lib.TrailingUnit.shapeCast_addLast_apply u hc p q 0)

/-! ## One head picked out -/

/-- Head `o`'s slab of an [a, n, k] array, re-laid as the matrix [a, k]: entry (p, j) is the array at (p, o, j). -/
theorem headSlab_apply {α : Type} {a n k : ℕ} (x : (⟨3, ![a, n, k]⟩ : Shape).Idx → α) (o : ℕ) (ho : o < n)
    (h : (⟨3, ![a, n, k]⟩ : Shape).Slices ![0, o, 0] ⟨3, ![a, 1, k]⟩)
    (hc : (⟨3, ![a, 1, k]⟩ : Shape).ShapeCasts ⟨2, ![a, k]⟩) (p : Fin a) (j : Fin k) :
    shapeCast ⟨2, ![a, k]⟩ (extractStridedSlice ⟨3, ![a, 1, k]⟩ ![0, o, 0] x h) hc (ix2 p j) = x (ix3 p ⟨o, ho⟩ j) := by
  refine (shapeCast_apply _ hc (ix2 p j) (ix3 p (0 : Fin 1) j) ?_).trans ?_
  · rw [Shape.rowMajor_val_three, Shape.rowMajor_val_two]
    show (p.val * 1 + 0) * k + j.val = p.val * k + j.val
    rw [Nat.mul_one, Nat.add_zero]
  · refine extractStridedSlice_apply _ x h (ix3 p (0 : Fin 1) j) (ix3 p ⟨o, ho⟩ j) fun c => ?_
    match c with
    | ⟨0, _⟩ => show p.val = 0 + p.val; omega
    | ⟨1, _⟩ => show o = o + 0; omega
    | ⟨2, _⟩ => show j.val = 0 + j.val; omega

/-- Column `o` of an [a, n] matrix, as a column, broadcast along the lanes to [a, b]: entry (p, d) is the matrix at (p, o). -/
theorem headCol_apply {α : Type} {a n b : ℕ} (x : (⟨2, ![a, n]⟩ : Shape).Idx → α) (o : ℕ) (ho : o < n)
    (h : (⟨2, ![a, n]⟩ : Shape).Slices ![0, o] ⟨2, ![a, 1]⟩)
    (hb : (⟨2, ![a, 1]⟩ : Shape).Broadcasts ⟨2, ![a, b]⟩) (p : Fin a) (d : Fin b) :
    broadcastTo ⟨2, ![a, b]⟩ (extractStridedSlice ⟨2, ![a, 1]⟩ ![0, o] x h) hb (ix2 p d) = x (ix2 p ⟨o, ho⟩) := by
  refine (Cert.ColRowBroadcast.colBroadcast_apply _ hb p d).trans ?_
  refine extractStridedSlice_apply _ x h (ix2 p (0 : Fin 1)) (ix2 p ⟨o, ho⟩) fun c => ?_
  match c with
  | ⟨0, _⟩ => show p.val = 0 + p.val; omega
  | ⟨1, _⟩ => show o = o + 0; omega

/-- Head `o`'s slab of an [n, k, d] table, re-laid as the matrix [k, d]: entry (j, e) is the table at (o, j, e). -/
theorem headTable_apply {α : Type} {n k d : ℕ} (x : (⟨3, ![n, k, d]⟩ : Shape).Idx → α) (o : ℕ) (ho : o < n)
    (h : (⟨3, ![n, k, d]⟩ : Shape).Slices ![o, 0, 0] ⟨3, ![1, k, d]⟩)
    (hc : (⟨3, ![1, k, d]⟩ : Shape).ShapeCasts ⟨2, ![k, d]⟩) (j : Fin k) (e : Fin d) :
    shapeCast ⟨2, ![k, d]⟩ (extractStridedSlice ⟨3, ![1, k, d]⟩ ![o, 0, 0] x h) hc (ix2 j e) = x (ix3 ⟨o, ho⟩ j e) :=
  (Cert.LeadUnit.dropLead_apply _ hc j e).trans (Cert.LeadUnit.sliceLead_apply x ⟨o, ho⟩ h 0 j e)

/-! ## The scores of all heads by one product -/

/-- An [n, k, d] table flattened to [m, d] with m = n·k rows: row h·k + j is the table's row (h, j). -/
theorem flatten_apply {α : Type} {n k d m : ℕ} (hm : m = n * k) (x : (⟨3, ![n, k, d]⟩ : Shape).Idx → α)
    (hc : (⟨3, ![n, k, d]⟩ : Shape).ShapeCasts ⟨2, ![m, d]⟩) (h : Fin n) (j : Fin k) (e : Fin d)
    (r : Fin m) (hr : r.val = h.val * k + j.val) :
    shapeCast ⟨2, ![m, d]⟩ x hc (ix2 r e) = x (ix3 h j e) := by
  refine shapeCast_apply x hc (ix2 r e) (ix3 h j e) ?_
  rw [Shape.rowMajor_val_three, Shape.rowMajor_val_two]
  show (h.val * k + j.val) * d + e.val = r.val * d + e.val
  rw [hr]

/-- An [a, m] matrix with m = n·k columns re-laid as [a, n, k]: entry (p, h, j) is the matrix at (p, h·k + j). -/
theorem unflatten_apply {α : Type} {a n k m : ℕ} (hm : m = n * k) (x : (⟨2, ![a, m]⟩ : Shape).Idx → α)
    (hc : (⟨2, ![a, m]⟩ : Shape).ShapeCasts ⟨3, ![a, n, k]⟩) (p : Fin a) (h : Fin n) (j : Fin k)
    (r : Fin m) (hr : r.val = h.val * k + j.val) :
    shapeCast ⟨3, ![a, n, k]⟩ x hc (ix3 p h j) = x (ix2 p r) := by
  refine shapeCast_apply x hc (ix3 p h j) (ix2 p r) ?_
  rw [Shape.rowMajor_val_three, Shape.rowMajor_val_two]
  show p.val * m + r.val = (p.val * n + h.val) * k + j.val
  rw [hr, hm, Nat.add_mul, Nat.mul_assoc, Nat.add_assoc]

/-- A square transpose: entry (i, j) is the operand at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun c => ?_
  match c with
  | ⟨0, _⟩ => rfl
  | ⟨1, _⟩ => rfl

end Cert.HeadBlocks

end
-- ==== Proof.Step.lean ====
/-
  One grid point's arithmetic, read at one entry on the extended reals.

  At a point the body holds a block of 256 query rows `x0`, the 16 heads' 64 key rows `x1` and value rows `x2`, and the
  carried state: for every (row, head) the greatest score so far `mo` and the sum of shifted exponentials so far `lo`,
  and for every head the weighted sums of value rows so far. Read at (p, h), (p, h, j) or (h, p, d):
  * the score of row p against key j of head h is the dot product of the two rows times 1/4;
  * the new maximum is the greater of the old one and the greatest of the 64 scores;
  * the rescaling factor is exp (old maximum − new maximum), the shifted exponentials exp (score − new maximum);
  * the new sum is the factor times the old sum plus the 64 shifted exponentials;
  * head h's new weighted sum at column d is the factor times the old one plus Σ_j (shifted exponential j) · (value row j at d).
-/
import proofs.«165716_j46926812676317_2_alg».proof.Proof.Gen.KernelIdeal.Skeleton
import proofs.«165716_j46926812676317_2_alg».proof.Proof.LibHeadBlocks

noncomputable section

open scoped BigOperators

namespace Cert.Hopfield.Step

open Cert.KernelIdeal Cert.KernelIdeal.Gen Idealize.ShloMosaic Idealize.ShloMosaic.ValueIdx Cert.RowSoftmax Cert.HeadBlocks

/-- The scaled score of block row `p` against key `j` of head `h`. -/
theorem scores_apply (x0 : Vec Ideal S256x1024 .bf16) (x1 : Vec Ideal S16x64x1024 .bf16) (p : Fin 256) (h : Fin 16) (j : Fin 64) :
    k0_pay12 (F := Ideal) x0 x1 (ix3 p h j)
      = (∑ e : Fin 1024, x0 (ix2 p e) * x1 (ix3 h j e)) * Ideal.ofBits .f32 0x3E800000#32 := by
  unfold k0_pay12
  simp only [shapeCast_self]
  have hd : dot_S256x1024_S1024x1024_S256x1024_1_0_0_1_n_n = DotDims.plain 256 1024 1024 := rfl
  have hr : h.val * 64 + j.val < 1024 := by have := h.isLt; have := j.isLt; omega
  show shapeCast S256x16x64 _ _ (ix3 p h j) * Ideal.ofBits .f32 0x3E800000#32 = _
  congr 1
  refine (unflatten_apply (n := 16) (k := 64) rfl _ _ p h j ⟨_, hr⟩ rfl).trans ?_
  rw [hd]
  refine (Cert.PlainMatmul.matmul_zero_apply 256 1024 1024 none _ _ p ⟨_, hr⟩).trans ?_
  refine Finset.sum_congr rfl fun e _ => ?_
  congr 1
  refine (transpose2_apply _ _ e ⟨_, hr⟩).trans ?_
  exact flatten_apply (n := 16) (k := 64) rfl x1 _ h j e ⟨_, hr⟩ rfl

/-- The new maximum at (p, h): the greater of the old one and the greatest of the 64 scores. -/
theorem newMax_apply (x0 : Vec Ideal S256x1024 .bf16) (x1 : Vec Ideal S16x64x1024 .bf16) (mo : Vec Ideal S256x16 .f32)
    (p : Fin 256) (h : Fin 16) :
    k0_pay13 (F := Ideal) x0 x1 mo (ix2 p h)
      = max (mo (ix2 p h)) (rowMax fun j : Fin 64 => k0_pay12 (F := Ideal) x0 x1 (ix3 p h j)) := by
  unfold k0_pay13
  exact congrArg (max (mo (ix2 p h))) (lastMax_apply (k0_pay12 (F := Ideal) x0 x1) _ _ _ p h)

/-- The rescaling factor at (p, h). -/
theorem factor_apply (x0 : Vec Ideal S256x1024 .bf16) (x1 : Vec Ideal S16x64x1024 .bf16) (mo mo' : Vec Ideal S256x16 .f32)
    (p : Fin 256) (h : Fin 16) :
    k0_pay14 (F := Ideal) x0 x1 mo mo' (ix2 p h) = Ideal.exp (mo' (ix2 p h) - k0_pay13 (F := Ideal) x0 x1 mo (ix2 p h)) := rfl

/-- The shifted exponential at (p, h, j). -/
theorem shifted_apply (x0 : Vec Ideal S256x1024 .bf16) (x1 : Vec Ideal S16x64x1024 .bf16) (mo : Vec Ideal S256x16 .f32)
    (p : Fin 256) (h : Fin 16) (j : Fin 64) :
    k0_pay15 (F := Ideal) x0 x1 mo (ix3 p h j)
      = Ideal.exp (k0_pay12 (F := Ideal) x0 x1 (ix3 p h j) - k0_pay13 (F := Ideal) x0 x1 mo (ix2 p h)) := by
  unfold k0_pay15
  exact congrArg (fun t => Ideal.exp (k0_pay12 (F := Ideal) x0 x1 (ix3 p h j) - t)) (keepLast_apply (k0_pay13 (F := Ideal) x0 x1 mo) _ _ p h j)

/-- The new sum at (p, h): the factor times the old sum plus the 64 shifted exponentials. -/
theorem newSum_apply (x0 : Vec Ideal S256x1024 .bf16) (x1 : Vec Ideal S16x64x1024 .bf16) (mo mo' lo : Vec Ideal S256x16 .f32)
    (p : Fin 256) (h : Fin 16) :
    k0_pay16 (F := Ideal) x0 x1 mo mo' lo (ix2 p h)
      = k0_pay14 (F := Ideal) x0 x1 mo mo' (ix2 p h) * lo (ix2 p h) + ∑ j : Fin 64, k0_pay15 (F := Ideal) x0 x1 mo (ix3 p h j) := by
  unfold k0_pay16
  simp only [shapeCast_self]
  exact congrArg (k0_pay14 (F := Ideal) x0 x1 mo mo' (ix2 p h) * lo (ix2 p h) + ·) (lastSum_apply (k0_pay15 (F := Ideal) x0 x1 mo) _ _ _ p h)

/-- Head `o`'s weighted sums after the point, from the factors `v20`, the shifted exponentials `v24`, the value rows `v8` and
    the head's weighted sums before (`vo`, as a [1, 256, 1024] slab). -/
def headUpd (o : ℕ) (hs1 : S256x16x64.Slices ![0, o, 0] S256x1x64) (hs2 : S16x64x1024.Slices ![o, 0, 0] S1x64x1024)
    (hs3 : S256x16.Slices ![0, o] S256x1)
    (v8 : FVec Ideal S16x64x1024 .bf16) (v20 : FVec Ideal S256x16 .f32) (v24 : FVec Ideal S256x16x64 .f32)
    (vo : Vec Ideal S1x256x1024 .f32) : FVec Ideal S1x256x1024 .f32 :=
  shapeCast S1x256x1024
    (addf (mulf (broadcastTo S256x1024 (extractStridedSlice S256x1 ![0, o] v20 hs3) broadcasts_S256x1_S256x1024)
        (shapeCast S256x1024 vo shapeCasts_S1x256x1024_S256x1024))
      (matmul dot_S256x64_S64x1024_S256x1024_1_0_0_1_n_n none
        (truncf .bf16 (shapeCast S256x64 (extractStridedSlice S256x1x64 ![0, o, 0] v24 hs1) shapeCasts_S256x1x64_S256x64) bitsLt_bf16_f32)
        (shapeCast S64x1024 (extractStridedSlice S1x64x1024 ![o, 0, 0] v8 hs2) shapeCasts_S1x64x1024_S64x1024)
        (constant S256x1024 .f32 0x00000000#32)))
    shapeCasts_S256x1024_S1x256x1024

/-- … at (0, p, d): the factor at (p, o) times the old weighted sum plus Σ_j (shifted exponential (p, o, j)) · (value row (o, j) at d). -/
theorem headUpd_apply (o : ℕ) (ho : o < 16) (hs1 : S256x16x64.Slices ![0, o, 0] S256x1x64)
    (hs2 : S16x64x1024.Slices ![o, 0, 0] S1x64x1024) (hs3 : S256x16.Slices ![0, o] S256x1)
    (v8 : FVec Ideal S16x64x1024 .bf16) (v20 : FVec Ideal S256x16 .f32) (v24 : FVec Ideal S256x16x64 .f32)
    (vo : Vec Ideal S1x256x1024 .f32) (z : Fin 1) (p : Fin 256) (d : Fin 1024) :
    headUpd o hs1 hs2 hs3 v8 v20 v24 vo (ix3 z p d)
      = v20 (ix2 p ⟨o, ho⟩) * vo (ix3 (0 : Fin 1) p d) + ∑ j : Fin 64, v24 (ix3 p ⟨o, ho⟩ j) * v8 (ix3 ⟨o, ho⟩ j d) := by
  unfold headUpd
  have hd : dot_S256x64_S64x1024_S256x1024_1_0_0_1_n_n = DotDims.plain 256 64 1024 := rfl
  refine (Cert.LeadUnit.addLead_apply _ _ z p d).trans ?_
  rw [hd]
  refine congrArg₂ (· + ·) (congrArg₂ (· * ·) (headCol_apply v20 o ho hs3 _ p d) (Cert.LeadUnit.dropLead_apply vo _ p d)) ?_
  refine (Cert.PlainMatmul.matmul_zero_apply 256 64 1024 none _ _ p d).trans ?_
  refine Finset.sum_congr rfl fun j _ => ?_
  exact congrArg₂ (· * ·) (headSlab_apply v24 o ho hs1 _ p j) (headTable_apply v8 o ho hs2 _ j d)

/-- The weighted sums after a point, at (h, p, d), from the factors `v20`, the shifted exponentials `v24`, the value rows `v8`
    and the weighted sums before `ao`. -/
def accStep (v8 : FVec Ideal S16x64x1024 .bf16) (v20 : FVec Ideal S256x16 .f32) (v24 : FVec Ideal S256x16x64 .f32)
    (ao : S16x256x1024.Idx → EReal) : S16x256x1024.Idx → EReal :=
  fun y => v20 (ix2 (n0 := 256) (n1 := 16) (y 1) (y 0)) * ao y
    + ∑ j : Fin 64, v24 (ix3 (n0 := 256) (n1 := 16) (y 1) (y 0) j) * v8 (ix3 (n0 := 16) (n2 := 1024) (y 0) j (y 2))

theorem accStep_ix3 (v8 : FVec Ideal S16x64x1024 .bf16) (v20 : FVec Ideal S256x16 .f32) (v24 : FVec Ideal S256x16x64 .f32)
    (ao : S16x256x1024.Idx → EReal) (h : Fin 16) (p : Fin 256) (d : Fin 1024) :
    accStep v8 v20 v24 ao (ix3 h p d) = v20 (ix2 p h) * ao (ix3 h p d) + ∑ j : Fin 64, v24 (ix3 p h j) * v8 (ix3 h j d) := rfl

/-- The value rows pass through unchanged. -/
theorem values_self (x2 : Vec Ideal S16x64x1024 .bf16) : k0_pay11 (F := Ideal) x2 = x2 := shapeCast_self _ _

/-- The reset values: −∞ for the maxima, 0 for the sums and the weighted sums. -/
theorem resetMax_apply (y : S256x16.Idx) : k0_pay8 (F := Ideal) y = (⊥ : EReal) := by
  unfold k0_pay8; simp only [shapeCast_self]; exact negInf_eq_bot

theorem resetSum_apply (y : S256x16.Idx) : k0_pay9 (F := Ideal) y = (0 : EReal) := by
  unfold k0_pay9; simp only [shapeCast_self]; exact Ideal.ofBits_zero_f32

theorem resetAcc_apply (y : S16x256x1024.Idx) : k0_pay10 (F := Ideal) y = (0 : EReal) := by
  unfold k0_pay10; simp only [shapeCast_self]; exact Ideal.ofBits_zero_f32

end Cert.Hopfield.Step

end
-- ==== Proof.Pieces.lean ====
/-
  What one grid point leaves in the carried state, as functions of the blocks it reads.

  The body keeps, between the points of one row block, the running maxima (256 × 16), the running sums (256 × 16) and the
  sixteen heads' running weighted sums (16 × 256 × 1024). At a point it stores each of them once: the maxima and the sums
  whole, the weighted sums one head at a time. Each stored value is read here as the update it is: the maxima
  and sums as whole arrays, head h's weighted sums at (h, p, d) as factor (p, h) · old (h, p, d) + Σ_j shifted (p, h, j) · value (h, j, d).
-/
import proofs.«165716_j46926812676317_2_alg».proof.Proof.Gen.KernelIdeal.Frame
import proofs.«165716_j46926812676317_2_alg».proof.Proof.Step
import Idealize.ShloMosaic.Lib.Pipeline.Value
import Idealize.ShloMosaic.Lib.Pipeline.CanonAppend

set_option maxRecDepth 16384

noncomputable section

open scoped BigOperators

namespace Cert.Hopfield.Pieces

open Cert.KernelIdeal Cert.KernelIdeal.Gen Idealize.ShloMosaic Idealize.ShloMosaic.TcCoe Idealize.ShloMosaic.Tactic
open Idealize.ShloMosaic.ValueIdx Cert.Hopfield.Step
open Idealize.SL Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## The sixteen heads' stores are one update -/

theorem head0 (v8 : FVec Ideal S16x64x1024 .bf16) (v20 : FVec Ideal S256x16 .f32) (v24 : FVec Ideal S256x16x64 .f32) (vo : Vec Ideal S1x256x1024 .f32) :
    k0_pay18 (F := Ideal) v8 v20 v24 vo = headUpd 0 Gen.slices_S256x16x64_o0_0_0_S256x1x64 Gen.slices_S16x64x1024_o0_0_0_S1x64x1024 Gen.slices_S256x16_o0_0_S256x1 v8 v20 v24 vo := rfl
theorem head1 (v8 : FVec Ideal S16x64x1024 .bf16) (v20 : FVec Ideal S256x16 .f32) (v24 : FVec Ideal S256x16x64 .f32) (vo : Vec Ideal S1x256x1024 .f32) :
    k0_pay19 (F := Ideal) v8 v20 v24 vo = headUpd 1 Gen.slices_S256x16x64_o0_1_0_S256x1x64 Gen.slices_S16x64x1024_o1_0_0_S1x64x1024 Gen.slices_S256x16_o0_1_S256x1 v8 v20 v24 vo := rfl
theorem head2 (v8 : FVec Ideal S16x64x1024 .bf16) (v20 : FVec Ideal S256x16 .f32) (v24 : FVec Ideal S256x16x64 .f32) (vo : Vec Ideal S1x256x1024 .f32) :
    k0_pay22 (F := Ideal) (k0_pay20 v8 v24) (k0_pay21 v20) vo = headUpd 2 Gen.slices_S256x16x64_o0_2_0_S256x1x64 Gen.slices_S16x64x1024_o2_0_0_S1x64x1024 Gen.slices_S256x16_o0_2_S256x1 v8 v20 v24 vo := rfl
theorem head3 (v8 : FVec Ideal S16x64x1024 .bf16) (v20 : FVec Ideal S256x16 .f32) (v24 : FVec Ideal S256x16x64 .f32) (vo : Vec Ideal S1x256x1024 .f32) :
    k0_pay23 (F := Ideal) v8 v20 v24 vo = headUpd 3 Gen.slices_S256x16x64_o0_3_0_S256x1x64 Gen.slices_S16x64x1024_o3_0_0_S1x64x1024 Gen.slices_S256x16_o0_3_S256x1 v8 v20 v24 vo := rfl
theorem head4 (v8 : FVec Ideal S16x64x1024 .bf16) (v20 : FVec Ideal S256x16 .f32) (v24 : FVec Ideal S256x16x64 .f32) (vo : Vec Ideal S1x256x1024 .f32) :
    k0_pay24 (F := Ideal) v8 v20 v24 vo = headUpd 4 Gen.slices_S256x16x64_o0_4_0_S256x1x64 Gen.slices_S16x64x1024_o4_0_0_S1x64x1024 Gen.slices_S256x16_o0_4_S256x1 v8 v20 v24 vo := rfl
theorem head5 (v8 : FVec Ideal S16x64x1024 .bf16) (v20 : FVec Ideal S256x16 .f32) (v24 : FVec Ideal S256x16x64 .f32) (vo : Vec Ideal S1x256x1024 .f32) :
    k0_pay26 (F := Ideal) v8 v20 (k0_pay25 v24) vo = headUpd 5 Gen.slices_S256x16x64_o0_5_0_S256x1x64 Gen.slices_S16x64x1024_o5_0_0_S1x64x1024 Gen.slices_S256x16_o0_5_S256x1 v8 v20 v24 vo := rfl
theorem head6 (v8 : FVec Ideal S16x64x1024 .bf16) (v20 : FVec Ideal S256x16 .f32) (v24 : FVec Ideal S256x16x64 .f32) (vo : Vec Ideal S1x256x1024 .f32) :
    k0_pay27 (F := Ideal) v8 v20 v24 vo = headUpd 6 Gen.slices_S256x16x64_o0_6_0_S256x1x64 Gen.slices_S16x64x1024_o6_0_0_S1x64x1024 Gen.slices_S256x16_o0_6_S256x1 v8 v20 v24 vo := rfl
theorem head7 (v8 : FVec Ideal S16x64x1024 .bf16) (v20 : FVec Ideal S256x16 .f32) (v24 : FVec Ideal S256x16x64 .f32) (vo : Vec Ideal S1x256x1024 .f32) :
    k0_pay30 (F := Ideal) (k0_pay28 v8 v24) (k0_pay29 v20 vo) = headUpd 7 Gen.slices_S256x16x64_o0_7_0_S256x1x64 Gen.slices_S16x64x1024_o7_0_0_S1x64x1024 Gen.slices_S256x16_o0_7_S256x1 v8 v20 v24 vo := rfl
theorem head8 (v8 : FVec Ideal S16x64x1024 .bf16) (v20 : FVec Ideal S256x16 .f32) (v24 : FVec Ideal S256x16x64 .f32) (vo : Vec Ideal S1x256x1024 .f32) :
    k0_pay31 (F := Ideal) v8 v20 v24 vo = headUpd 8 Gen.slices_S256x16x64_o0_8_0_S256x1x64 Gen.slices_S16x64x1024_o8_0_0_S1x64x1024 Gen.slices_S256x16_o0_8_S256x1 v8 v20 v24 vo := rfl
theorem head9 (v8 : FVec Ideal S16x64x1024 .bf16) (v20 : FVec Ideal S256x16 .f32) (v24 : FVec Ideal S256x16x64 .f32) (vo : Vec Ideal S1x256x1024 .f32) :
    k0_pay32 (F := Ideal) v8 v20 v24 vo = headUpd 9 Gen.slices_S256x16x64_o0_9_0_S256x1x64 Gen.slices_S16x64x1024_o9_0_0_S1x64x1024 Gen.slices_S256x16_o0_9_S256x1 v8 v20 v24 vo := rfl
theorem head10 (v8 : FVec Ideal S16x64x1024 .bf16) (v20 : FVec Ideal S256x16 .f32) (v24 : FVec Ideal S256x16x64 .f32) (vo : Vec Ideal S1x256x1024 .f32) :
    k0_pay35 (F := Ideal) v20 (k0_pay33 v24) (k0_pay34 v8) (constant S256x1024 .f32 0x00000000#32) vo = headUpd 10 Gen.slices_S256x16x64_o0_10_0_S256x1x64 Gen.slices_S16x64x1024_o10_0_0_S1x64x1024 Gen.slices_S256x16_o0_10_S256x1 v8 v20 v24 vo := rfl
theorem head11 (v8 : FVec Ideal S16x64x1024 .bf16) (v20 : FVec Ideal S256x16 .f32) (v24 : FVec Ideal S256x16x64 .f32) (vo : Vec Ideal S1x256x1024 .f32) :
    k0_pay36 (F := Ideal) v8 v20 v24 vo = headUpd 11 Gen.slices_S256x16x64_o0_11_0_S256x1x64 Gen.slices_S16x64x1024_o11_0_0_S1x64x1024 Gen.slices_S256x16_o0_11_S256x1 v8 v20 v24 vo := rfl
theorem head12 (v8 : FVec Ideal S16x64x1024 .bf16) (v20 : FVec Ideal S256x16 .f32) (v24 : FVec Ideal S256x16x64 .f32) (vo : Vec Ideal S1x256x1024 .f32) :
    k0_pay38 (F := Ideal) (k0_pay37 v8 v20 v24 vo) = headUpd 12 Gen.slices_S256x16x64_o0_12_0_S256x1x64 Gen.slices_S16x64x1024_o12_0_0_S1x64x1024 Gen.slices_S256x16_o0_12_S256x1 v8 v20 v24 vo := rfl
theorem head13 (v8 : FVec Ideal S16x64x1024 .bf16) (v20 : FVec Ideal S256x16 .f32) (v24 : FVec Ideal S256x16x64 .f32) (vo : Vec Ideal S1x256x1024 .f32) :
    k0_pay39 (F := Ideal) v8 v20 v24 vo = headUpd 13 Gen.slices_S256x16x64_o0_13_0_S256x1x64 Gen.slices_S16x64x1024_o13_0_0_S1x64x1024 Gen.slices_S256x16_o0_13_S256x1 v8 v20 v24 vo := rfl
theorem head14 (v8 : FVec Ideal S16x64x1024 .bf16) (v20 : FVec Ideal S256x16 .f32) (v24 : FVec Ideal S256x16x64 .f32) (vo : Vec Ideal S1x256x1024 .f32) :
    k0_pay40 (F := Ideal) v8 v20 v24 vo = headUpd 14 Gen.slices_S256x16x64_o0_14_0_S256x1x64 Gen.slices_S16x64x1024_o14_0_0_S1x64x1024 Gen.slices_S256x16_o0_14_S256x1 v8 v20 v24 vo := rfl
theorem head15 (v8 : FVec Ideal S16x64x1024 .bf16) (v20 : FVec Ideal S256x16 .f32) (v24 : FVec Ideal S256x16x64 .f32) (vo : Vec Ideal S1x256x1024 .f32) :
    k0_pay1 (F := Ideal) (k0_pay41 v8 v24) (k0_pay42 v20) vo = headUpd 15 Gen.slices_S256x16x64_o0_15_0_S256x1x64 Gen.slices_S16x64x1024_o15_0_0_S1x64x1024 Gen.slices_S256x16_o0_15_S256x1 v8 v20 v24 vo := rfl

/-- Head `o`'s store, through its slab of the accumulator, holds the update's values on that slab. -/
theorem slab_ok (o : ℕ) (ho : o < 16) (hs1 : S256x16x64.Slices ![0, o, 0] S256x1x64) (hs2 : S16x64x1024.Slices ![o, 0, 0] S1x64x1024)
    (hs3 : S256x16.Slices ![0, o] S256x1)
    (inb : ∀ a, (![o, 0, 0] : Fin 3 → Nat) a + S1x256x1024.size a ≤ S16x256x1024.size a)
    (v8 : FVec Ideal S16x64x1024 .bf16) (v20 : FVec Ideal S256x16 .f32) (v24 : FVec Ideal S256x16x64 .f32)
    (ao : S16x256x1024.Idx → EReal) (x : S1x256x1024.Idx) :
    headUpd o hs1 hs2 hs3 v8 v20 v24 (View.ld ao (Rect.unit (s := S16x256x1024) ![o, 0, 0] S1x256x1024.size inb)) x
      = accStep v8 v20 v24 ao ((Rect.unit (s := S16x256x1024) ![o, 0, 0] S1x256x1024.size inb).emb x) := by
  obtain ⟨z, p, d, rfl⟩ : ∃ (z : Fin 1) (p : Fin 256) (d : Fin 1024), x = ix3 z p d := ⟨x 0, x 1, x 2, eq_ix3 x⟩
  have hz : z.val = 0 := by have := z.isLt; omega
  have he : ∀ z' : Fin 1, (Rect.unit (s := S16x256x1024) ![o, 0, 0] S1x256x1024.size inb).emb (ix3 z' p d) = ix3 (⟨o, ho⟩ : Fin 16) p d := fun z' =>
    funext fun a => Fin.ext (by
      have hz' : z'.val = 0 := by have := z'.isLt; omega
      match a with
      | ⟨0, _⟩ => show o + 1 * z'.val = o; omega
      | ⟨1, _⟩ => show 0 + 1 * p.val = p.val; omega
      | ⟨2, _⟩ => show 0 + 1 * d.val = d.val; omega)
  rw [headUpd_apply o ho, he z, accStep_ix3]
  show v20 (ix2 p ⟨o, ho⟩) * ao ((Rect.unit (s := S16x256x1024) ![o, 0, 0] S1x256x1024.size inb).emb (ix3 0 p d)) + _ = _
  rw [he 0]

/-! ## A point that neither starts nor ends a row block -/

/-- The maxima it leaves: the greater of the old ones and the block's. -/
theorem maxB (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : ¬cond0_0 i) (hc1 : ¬cond0_1 i)
    (x0 : Vec Ideal S256x1024 .bf16) (x1 : Vec Ideal S16x64x1024 .bf16) (x2 : Vec Ideal S16x64x1024 .bf16) (xs0 : Vec Ideal S256x16 .f32) (xs1 : Vec Ideal S256x16 .f32) (xs2 : Vec Ideal S16x256x1024 .f32) :
    sout0_B_0 (F := Ideal) c i arg2 harg2 arg3 harg3 arg4 harg4 arg5 harg5 arg6 harg6 arg7 harg7 arg8 harg8 hc0 hc1 x0 x1 x2 xs0 xs1 xs2 = k0_pay13 (F := Ideal) x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]
  unfold k0_pay17
  simp only [shapeCast_self]

/-- The sums it leaves. -/
theorem sumB (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : ¬cond0_0 i) (hc1 : ¬cond0_1 i)
    (x0 : Vec Ideal S256x1024 .bf16) (x1 : Vec Ideal S16x64x1024 .bf16) (x2 : Vec Ideal S16x64x1024 .bf16) (xs0 : Vec Ideal S256x16 .f32) (xs1 : Vec Ideal S256x16 .f32) (xs2 : Vec Ideal S16x256x1024 .f32) :
    sout0_B_1 (F := Ideal) c i arg2 harg2 arg3 harg3 arg4 harg4 arg5 harg5 arg6 harg6 arg7 harg7 arg8 harg8 hc0 hc1 x0 x1 x2 xs0 xs1 xs2 = k0_pay16 (F := Ideal) x0 x1 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]

/-- The weighted sums it leaves, at every entry. -/
theorem accB (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : ¬cond0_0 i) (hc1 : ¬cond0_1 i)
    (x0 : Vec Ideal S256x1024 .bf16) (x1 : Vec Ideal S16x64x1024 .bf16) (x2 : Vec Ideal S16x64x1024 .bf16) (xs0 : Vec Ideal S256x16 .f32) (xs1 : Vec Ideal S256x16 .f32) (xs2 : Vec Ideal S16x256x1024 .f32) (y : S16x256x1024.Idx) :
    sout0_B_2 (F := Ideal) c i arg2 harg2 arg3 harg3 arg4 harg4 arg5 harg5 arg6 harg6 arg7 harg7 arg8 harg8 hc0 hc1 x0 x1 x2 xs0 xs1 xs2 y
      = accStep (k0_pay11 (F := Ideal) x2) (k0_pay14 (F := Ideal) x0 x1 xs0 xs0) (k0_pay15 (F := Ideal) x0 x1 xs0) xs2 y := by
  have hcov := scover0_B_2 (F := Ideal) c i arg2 harg2 arg3 harg3 arg4 harg4 arg5 harg5 arg6 harg6 arg7 harg7 arg8 harg8 hc0 hc1 x0 x1 x2 xs0 xs1 xs2 y
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  revert hcov
  unfold kernelRun0_B
  dsimp only
  sl_unfold_words
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]
  intro hcov
  refine View.canon_apply_of_pieces (accStep (k0_pay11 (F := Ideal) x2) (k0_pay14 (F := Ideal) x0 x1 xs0 xs0) (k0_pay15 (F := Ideal) x0 x1 xs0) xs2) _ (fun q hq => ?_) y hcov
  simp only [List.mem_cons, List.not_mem_nil, or_false] at hq
  rcases hq with rfl | rfl | rfl | rfl | rfl | rfl | rfl | rfl | rfl | rfl | rfl | rfl | rfl | rfl | rfl | rfl
  · exact fun x => (congrFun (head15 _ _ _ _) x).trans (slab_ok 15 (by omega) _ _ _ _ _ _ _ xs2 x)
  · exact fun x => (congrFun (head14 _ _ _ _) x).trans (slab_ok 14 (by omega) _ _ _ _ _ _ _ xs2 x)
  · exact fun x => (congrFun (head13 _ _ _ _) x).trans (slab_ok 13 (by omega) _ _ _ _ _ _ _ xs2 x)
  · exact fun x => (congrFun (head12 _ _ _ _) x).trans (slab_ok 12 (by omega) _ _ _ _ _ _ _ xs2 x)
  · exact fun x => (congrFun (head11 _ _ _ _) x).trans (slab_ok 11 (by omega) _ _ _ _ _ _ _ xs2 x)
  · exact fun x => (congrFun (head10 _ _ _ _) x).trans (slab_ok 10 (by omega) _ _ _ _ _ _ _ xs2 x)
  · exact fun x => (congrFun (head9 _ _ _ _) x).trans (slab_ok 9 (by omega) _ _ _ _ _ _ _ xs2 x)
  · exact fun x => (congrFun (head8 _ _ _ _) x).trans (slab_ok 8 (by omega) _ _ _ _ _ _ _ xs2 x)
  · exact fun x => (congrFun (head7 _ _ _ _) x).trans (slab_ok 7 (by omega) _ _ _ _ _ _ _ xs2 x)
  · exact fun x => (congrFun (head6 _ _ _ _) x).trans (slab_ok 6 (by omega) _ _ _ _ _ _ _ xs2 x)
  · exact fun x => (congrFun (head5 _ _ _ _) x).trans (slab_ok 5 (by omega) _ _ _ _ _ _ _ xs2 x)
  · exact fun x => (congrFun (head4 _ _ _ _) x).trans (slab_ok 4 (by omega) _ _ _ _ _ _ _ xs2 x)
  · exact fun x => (congrFun (head3 _ _ _ _) x).trans (slab_ok 3 (by omega) _ _ _ _ _ _ _ xs2 x)
  · exact fun x => (congrFun (head2 _ _ _ _) x).trans (slab_ok 2 (by omega) _ _ _ _ _ _ _ xs2 x)
  · exact fun x => (congrFun (head1 _ _ _ _) x).trans (slab_ok 1 (by omega) _ _ _ _ _ _ _ xs2 x)
  · exact fun x => (congrFun (head0 _ _ _ _) x).trans (slab_ok 0 (by omega) _ _ _ _ _ _ _ xs2 x)

/-! ## The last point of a row block: the same three updates (the output is read further down) -/

/-- The maxima it leaves: the greater of the old ones and the block's. -/
theorem maxC (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : ¬cond0_0 i) (hc1 : cond0_1 i)
    (x0 : Vec Ideal S256x1024 .bf16) (x1 : Vec Ideal S16x64x1024 .bf16) (x2 : Vec Ideal S16x64x1024 .bf16) (xs0 : Vec Ideal S256x16 .f32) (xs1 : Vec Ideal S256x16 .f32) (xs2 : Vec Ideal S16x256x1024 .f32) :
    sout0_C_0 (F := Ideal) c i arg2 harg2 arg3 harg3 arg4 harg4 arg5 harg5 arg6 harg6 arg7 harg7 arg8 harg8 hc0 hc1 x0 x1 x2 xs0 xs1 xs2 = k0_pay13 (F := Ideal) x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]
  unfold k0_pay17
  simp only [shapeCast_self]

/-- The sums it leaves. -/
theorem sumC (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : ¬cond0_0 i) (hc1 : cond0_1 i)
    (x0 : Vec Ideal S256x1024 .bf16) (x1 : Vec Ideal S16x64x1024 .bf16) (x2 : Vec Ideal S16x64x1024 .bf16) (xs0 : Vec Ideal S256x16 .f32) (xs1 : Vec Ideal S256x16 .f32) (xs2 : Vec Ideal S16x256x1024 .f32) :
    sout0_C_1 (F := Ideal) c i arg2 harg2 arg3 harg3 arg4 harg4 arg5 harg5 arg6 harg6 arg7 harg7 arg8 harg8 hc0 hc1 x0 x1 x2 xs0 xs1 xs2 = k0_pay16 (F := Ideal) x0 x1 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz2]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]

/-- The weighted sums it leaves, at every entry. -/
theorem accC (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : ¬cond0_0 i) (hc1 : cond0_1 i)
    (x0 : Vec Ideal S256x1024 .bf16) (x1 : Vec Ideal S16x64x1024 .bf16) (x2 : Vec Ideal S16x64x1024 .bf16) (xs0 : Vec Ideal S256x16 .f32) (xs1 : Vec Ideal S256x16 .f32) (xs2 : Vec Ideal S16x256x1024 .f32) (y : S16x256x1024.Idx) :
    sout0_C_2 (F := Ideal) c i arg2 harg2 arg3 harg3 arg4 harg4 arg5 harg5 arg6 harg6 arg7 harg7 arg8 harg8 hc0 hc1 x0 x1 x2 xs0 xs1 xs2 y
      = accStep (k0_pay11 (F := Ideal) x2) (k0_pay14 (F := Ideal) x0 x1 xs0 xs0) (k0_pay15 (F := Ideal) x0 x1 xs0) xs2 y := by
  have hcov := scover0_C_2 (F := Ideal) c i arg2 harg2 arg3 harg3 arg4 harg4 arg5 harg5 arg6 harg6 arg7 harg7 arg8 harg8 hc0 hc1 x0 x1 x2 xs0 xs1 xs2 y
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  revert hcov
  unfold kernelRun0_C
  dsimp only
  sl_unfold_words
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]
  intro hcov
  refine View.canon_apply_of_pieces (accStep (k0_pay11 (F := Ideal) x2) (k0_pay14 (F := Ideal) x0 x1 xs0 xs0) (k0_pay15 (F := Ideal) x0 x1 xs0) xs2) _ (fun q hq => ?_) y hcov
  simp only [List.mem_cons, List.not_mem_nil, or_false] at hq
  rcases hq with rfl | rfl | rfl | rfl | rfl | rfl | rfl | rfl | rfl | rfl | rfl | rfl | rfl | rfl | rfl | rfl
  · exact fun x => (congrFun (head15 _ _ _ _) x).trans (slab_ok 15 (by omega) _ _ _ _ _ _ _ xs2 x)
  · exact fun x => (congrFun (head14 _ _ _ _) x).trans (slab_ok 14 (by omega) _ _ _ _ _ _ _ xs2 x)
  · exact fun x => (congrFun (head13 _ _ _ _) x).trans (slab_ok 13 (by omega) _ _ _ _ _ _ _ xs2 x)
  · exact fun x => (congrFun (head12 _ _ _ _) x).trans (slab_ok 12 (by omega) _ _ _ _ _ _ _ xs2 x)
  · exact fun x => (congrFun (head11 _ _ _ _) x).trans (slab_ok 11 (by omega) _ _ _ _ _ _ _ xs2 x)
  · exact fun x => (congrFun (head10 _ _ _ _) x).trans (slab_ok 10 (by omega) _ _ _ _ _ _ _ xs2 x)
  · exact fun x => (congrFun (head9 _ _ _ _) x).trans (slab_ok 9 (by omega) _ _ _ _ _ _ _ xs2 x)
  · exact fun x => (congrFun (head8 _ _ _ _) x).trans (slab_ok 8 (by omega) _ _ _ _ _ _ _ xs2 x)
  · exact fun x => (congrFun (head7 _ _ _ _) x).trans (slab_ok 7 (by omega) _ _ _ _ _ _ _ xs2 x)
  · exact fun x => (congrFun (head6 _ _ _ _) x).trans (slab_ok 6 (by omega) _ _ _ _ _ _ _ xs2 x)
  · exact fun x => (congrFun (head5 _ _ _ _) x).trans (slab_ok 5 (by omega) _ _ _ _ _ _ _ xs2 x)
  · exact fun x => (congrFun (head4 _ _ _ _) x).trans (slab_ok 4 (by omega) _ _ _ _ _ _ _ xs2 x)
  · exact fun x => (congrFun (head3 _ _ _ _) x).trans (slab_ok 3 (by omega) _ _ _ _ _ _ _ xs2 x)
  · exact fun x => (congrFun (head2 _ _ _ _) x).trans (slab_ok 2 (by omega) _ _ _ _ _ _ _ xs2 x)
  · exact fun x => (congrFun (head1 _ _ _ _) x).trans (slab_ok 1 (by omega) _ _ _ _ _ _ _ xs2 x)
  · exact fun x => (congrFun (head0 _ _ _ _) x).trans (slab_ok 0 (by omega) _ _ _ _ _ _ _ xs2 x)

/-! ## The read-out at the end of a row block -/

/-- The output at (p, d) from the final sums `l` and weighted sums `acc`: head by head, the weighted sum times the
    reciprocal of the sum, added up from zero in head order. -/
def epi (l : S256x16.Idx → EReal) (acc : S16x256x1024.Idx → EReal) (p : Fin 256) (d : Fin 1024) : EReal :=
  ((((((((((((((((Ideal.ofBits .f32 0x00000000#32 + acc (ix3 (0 : Fin 16) p d) * Ideal.div (Ideal.ofBits .f32 0x3F800000#32) (l (ix2 p (0 : Fin 16)))) + acc (ix3 (1 : Fin 16) p d) * Ideal.div (Ideal.ofBits .f32 0x3F800000#32) (l (ix2 p (1 : Fin 16)))) + acc (ix3 (2 : Fin 16) p d) * Ideal.div (Ideal.ofBits .f32 0x3F800000#32) (l (ix2 p (2 : Fin 16)))) + acc (ix3 (3 : Fin 16) p d) * Ideal.div (Ideal.ofBits .f32 0x3F800000#32) (l (ix2 p (3 : Fin 16)))) + acc (ix3 (4 : Fin 16) p d) * Ideal.div (Ideal.ofBits .f32 0x3F800000#32) (l (ix2 p (4 : Fin 16)))) + acc (ix3 (5 : Fin 16) p d) * Ideal.div (Ideal.ofBits .f32 0x3F800000#32) (l (ix2 p (5 : Fin 16)))) + acc (ix3 (6 : Fin 16) p d) * Ideal.div (Ideal.ofBits .f32 0x3F800000#32) (l (ix2 p (6 : Fin 16)))) + acc (ix3 (7 : Fin 16) p d) * Ideal.div (Ideal.ofBits .f32 0x3F800000#32) (l (ix2 p (7 : Fin 16)))) + acc (ix3 (8 : Fin 16) p d) * Ideal.div (Ideal.ofBits .f32 0x3F800000#32) (l (ix2 p (8 : Fin 16)))) + acc (ix3 (9 : Fin 16) p d) * Ideal.div (Ideal.ofBits .f32 0x3F800000#32) (l (ix2 p (9 : Fin 16)))) + acc (ix3 (10 : Fin 16) p d) * Ideal.div (Ideal.ofBits .f32 0x3F800000#32) (l (ix2 p (10 : Fin 16)))) + acc (ix3 (11 : Fin 16) p d) * Ideal.div (Ideal.ofBits .f32 0x3F800000#32) (l (ix2 p (11 : Fin 16)))) + acc (ix3 (12 : Fin 16) p d) * Ideal.div (Ideal.ofBits .f32 0x3F800000#32) (l (ix2 p (12 : Fin 16)))) + acc (ix3 (13 : Fin 16) p d) * Ideal.div (Ideal.ofBits .f32 0x3F800000#32) (l (ix2 p (13 : Fin 16)))) + acc (ix3 (14 : Fin 16) p d) * Ideal.div (Ideal.ofBits .f32 0x3F800000#32) (l (ix2 p (14 : Fin 16)))) + acc (ix3 (15 : Fin 16) p d) * Ideal.div (Ideal.ofBits .f32 0x3F800000#32) (l (ix2 p (15 : Fin 16))))

/-- The reciprocal column of head `o`, broadcast along the lanes, at (p, d). -/
theorem invCol_apply (l : Vec Ideal S256x16 .f32) (o : ℕ) (ho : o < 16) (hs : S256x16.Slices ![0, o] S256x1) (p : Fin 256) (d : Fin 1024) :
    broadcastTo S256x1024 (extractStridedSlice S256x1 ![0, o] (k0_pay3 (F := Ideal) l) hs) Gen.broadcasts_S256x1_S256x1024 (ix2 p d)
      = Ideal.div (Ideal.ofBits .f32 0x3F800000#32) (l (ix2 p ⟨o, ho⟩)) :=
  Cert.HeadBlocks.headCol_apply (k0_pay3 (F := Ideal) l) o ho hs _ p d

/-- The epilogue's sixteen multiply-adds at (p, d). -/
theorem epilogue_apply (l : Vec Ideal S256x16 .f32) (r0 : Vec Ideal S1x256x1024 .f32) (r1 : Vec Ideal S1x256x1024 .f32) (r2 : Vec Ideal S1x256x1024 .f32) (r3 : Vec Ideal S1x256x1024 .f32) (r4 : Vec Ideal S1x256x1024 .f32) (r5 : Vec Ideal S1x256x1024 .f32) (r6 : Vec Ideal S1x256x1024 .f32) (r7 : Vec Ideal S1x256x1024 .f32) (r8 : Vec Ideal S1x256x1024 .f32) (r9 : Vec Ideal S1x256x1024 .f32) (r10 : Vec Ideal S1x256x1024 .f32) (r11 : Vec Ideal S1x256x1024 .f32) (r12 : Vec Ideal S1x256x1024 .f32) (r13 : Vec Ideal S1x256x1024 .f32) (r14 : Vec Ideal S1x256x1024 .f32) (r15 : Vec Ideal S1x256x1024 .f32) (p : Fin 256) (d : Fin 1024) :
    k0_pay2 (F := Ideal) (k0_pay3 l) (k0_pay7 (k0_pay3 l) (k0_pay4 l r0 r1 r2 r3 r4) (k0_pay5 r5) (k0_pay6 l) r6 r7 r8 r9 r10 r11) r12 r13 r14 r15 (ix2 p d)
      = ((((((((((((((((Ideal.ofBits .f32 0x00000000#32 + r0 (ix3 (0 : Fin 1) p d) * Ideal.div (Ideal.ofBits .f32 0x3F800000#32) (l (ix2 p (0 : Fin 16)))) + r1 (ix3 (0 : Fin 1) p d) * Ideal.div (Ideal.ofBits .f32 0x3F800000#32) (l (ix2 p (1 : Fin 16)))) + r2 (ix3 (0 : Fin 1) p d) * Ideal.div (Ideal.ofBits .f32 0x3F800000#32) (l (ix2 p (2 : Fin 16)))) + r3 (ix3 (0 : Fin 1) p d) * Ideal.div (Ideal.ofBits .f32 0x3F800000#32) (l (ix2 p (3 : Fin 16)))) + r4 (ix3 (0 : Fin 1) p d) * Ideal.div (Ideal.ofBits .f32 0x3F800000#32) (l (ix2 p (4 : Fin 16)))) + r5 (ix3 (0 : Fin 1) p d) * Ideal.div (Ideal.ofBits .f32 0x3F800000#32) (l (ix2 p (5 : Fin 16)))) + r6 (ix3 (0 : Fin 1) p d) * Ideal.div (Ideal.ofBits .f32 0x3F800000#32) (l (ix2 p (6 : Fin 16)))) + r7 (ix3 (0 : Fin 1) p d) * Ideal.div (Ideal.ofBits .f32 0x3F800000#32) (l (ix2 p (7 : Fin 16)))) + r8 (ix3 (0 : Fin 1) p d) * Ideal.div (Ideal.ofBits .f32 0x3F800000#32) (l (ix2 p (8 : Fin 16)))) + r9 (ix3 (0 : Fin 1) p d) * Ideal.div (Ideal.ofBits .f32 0x3F800000#32) (l (ix2 p (9 : Fin 16)))) + r10 (ix3 (0 : Fin 1) p d) * Ideal.div (Ideal.ofBits .f32 0x3F800000#32) (l (ix2 p (10 : Fin 16)))) + r11 (ix3 (0 : Fin 1) p d) * Ideal.div (Ideal.ofBits .f32 0x3F800000#32) (l (ix2 p (11 : Fin 16)))) + r12 (ix3 (0 : Fin 1) p d) * Ideal.div (Ideal.ofBits .f32 0x3F800000#32) (l (ix2 p (12 : Fin 16)))) + r13 (ix3 (0 : Fin 1) p d) * Ideal.div (Ideal.ofBits .f32 0x3F800000#32) (l (ix2 p (13 : Fin 16)))) + r14 (ix3 (0 : Fin 1) p d) * Ideal.div (Ideal.ofBits .f32 0x3F800000#32) (l (ix2 p (14 : Fin 16)))) + r15 (ix3 (0 : Fin 1) p d) * Ideal.div (Ideal.ofBits .f32 0x3F800000#32) (l (ix2 p (15 : Fin 16)))) := by
  unfold k0_pay2 k0_pay7 k0_pay4 k0_pay5 k0_pay6
  refine congrArg₂ (· + ·) ?_ (congrArg₂ (· * ·) (Cert.LeadUnit.dropLead_apply r15 _ p d) (invCol_apply l 15 (by omega) _ p d))
  refine congrArg₂ (· + ·) ?_ (congrArg₂ (· * ·) (Cert.LeadUnit.dropLead_apply r14 _ p d) (invCol_apply l 14 (by omega) _ p d))
  refine congrArg₂ (· + ·) ?_ (congrArg₂ (· * ·) (Cert.LeadUnit.dropLead_apply r13 _ p d) (invCol_apply l 13 (by omega) _ p d))
  refine congrArg₂ (· + ·) ?_ (congrArg₂ (· * ·) (Cert.LeadUnit.dropLead_apply r12 _ p d) (invCol_apply l 12 (by omega) _ p d))
  refine congrArg₂ (· + ·) ?_ (congrArg₂ (· * ·) (Cert.LeadUnit.dropLead_apply r11 _ p d) (invCol_apply l 11 (by omega) _ p d))
  refine congrArg₂ (· + ·) ?_ (congrArg₂ (· * ·) (Cert.LeadUnit.dropLead_apply r10 _ p d) (invCol_apply l 10 (by omega) _ p d))
  refine congrArg₂ (· + ·) ?_ (congrArg₂ (· * ·) (Cert.LeadUnit.dropLead_apply r9 _ p d) (invCol_apply l 9 (by omega) _ p d))
  refine congrArg₂ (· + ·) ?_ (congrArg₂ (· * ·) (Cert.LeadUnit.dropLead_apply r8 _ p d) (invCol_apply l 8 (by omega) _ p d))
  refine congrArg₂ (· + ·) ?_ (congrArg₂ (· * ·) (Cert.LeadUnit.dropLead_apply r7 _ p d) (invCol_apply l 7 (by omega) _ p d))
  refine congrArg₂ (· + ·) ?_ (congrArg₂ (· * ·) (Cert.LeadUnit.dropLead_apply r6 _ p d) (invCol_apply l 6 (by omega) _ p d))
  refine congrArg₂ (· + ·) ?_ (congrArg₂ (· * ·) (Cert.LeadUnit.dropLead_apply r5 _ p d) (invCol_apply l 5 (by omega) _ p d))
  refine congrArg₂ (· + ·) ?_ (congrArg₂ (· * ·) (Cert.LeadUnit.dropLead_apply r4 _ p d) (invCol_apply l 4 (by omega) _ p d))
  refine congrArg₂ (· + ·) ?_ (congrArg₂ (· * ·) (Cert.LeadUnit.dropLead_apply r3 _ p d) (invCol_apply l 3 (by omega) _ p d))
  refine congrArg₂ (· + ·) ?_ (congrArg₂ (· * ·) (Cert.LeadUnit.dropLead_apply r2 _ p d) (invCol_apply l 2 (by omega) _ p d))
  refine congrArg₂ (· + ·) ?_ (congrArg₂ (· * ·) (Cert.LeadUnit.dropLead_apply r1 _ p d) (invCol_apply l 1 (by omega) _ p d))
  refine congrArg₂ (· + ·) ?_ (congrArg₂ (· * ·) (Cert.LeadUnit.dropLead_apply r0 _ p d) (invCol_apply l 0 (by omega) _ p d))
  rfl

/-- The slab of head `o`, as a load reads it: local index (z, p, d) is the accumulator's (o, p, d). -/
theorem slabIdx (o : ℕ) (ho : o < 16) (inb : ∀ a, (![o, 0, 0] : Fin 3 → Nat) a + S1x256x1024.size a ≤ S16x256x1024.size a)
    (z : Fin 1) (p : Fin 256) (d : Fin 1024) :
    (Rect.unit (s := S16x256x1024) ![o, 0, 0] S1x256x1024.size inb).toLoadRect.idx (ix3 z p d) = ix3 (⟨o, ho⟩ : Fin 16) p d :=
  funext fun a => Fin.ext (by
    have hz : z.val = 0 := by have := z.isLt; omega
    match a with
    | ⟨0, _⟩ => show o + 1 * z.val = o; omega
    | ⟨1, _⟩ => show 0 + 1 * p.val = p.val; omega
    | ⟨2, _⟩ => show 0 + 1 * d.val = d.val; omega)

/-- The output the last point of a row block leaves, at (p, d): the read-out of the sums and weighted sums it has just updated. -/
theorem outC (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : ¬cond0_0 i) (hc1 : cond0_1 i)
    (x0 : Vec Ideal S256x1024 .bf16) (x1 : Vec Ideal S16x64x1024 .bf16) (x2 : Vec Ideal S16x64x1024 .bf16) (xs0 : Vec Ideal S256x16 .f32) (xs1 : Vec Ideal S256x16 .f32) (xs2 : Vec Ideal S16x256x1024 .f32) (p : Fin 256) (d : Fin 1024) :
    out0_C_3 (F := Ideal) c i arg2 harg2 arg3 harg3 arg4 harg4 arg5 harg5 arg6 harg6 arg7 harg7 arg8 harg8 hc0 hc1 x0 x1 x2 xs0 xs1 xs2 (ix2 p d)
      = epi (k0_pay16 (F := Ideal) x0 x1 xs0 xs0 xs1)
          (accStep (k0_pay11 (F := Ideal) x2) (k0_pay14 (F := Ideal) x0 x1 xs0 xs0) (k0_pay15 (F := Ideal) x0 x1 xs0) xs2) p d := by
  have hcanon : View.canon (kernelRun0_C (F := Ideal) c i arg2 harg2 arg3 harg3 arg4 harg4 arg5 harg5 arg6 harg6 arg7 harg7 arg8 harg8 hc0 hc1 x0 x1 x2 xs0 xs1 xs2).2.2.2.1
      = accStep (k0_pay11 (F := Ideal) x2) (k0_pay14 (F := Ideal) x0 x1 xs0 xs0) (k0_pay15 (F := Ideal) x0 x1 xs0) xs2 := funext fun y => by
    have h := accC c i arg2 harg2 arg3 harg3 arg4 harg4 arg5 harg5 arg6 harg6 arg7 harg7 arg8 harg8 hc0 hc1 x0 x1 x2 xs0 xs1 xs2 y
    unfold sout0_C_2 at h
    rwa [View.read_writes_eq_canon _ _ _ (scover0_C_2 c i arg2 harg2 arg3 harg3 arg4 harg4 arg5 harg5 arg6 harg6 arg7 harg7 arg8 harg8 hc0 hc1 x0 x1 x2 xs0 xs1 xs2)] at h
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  revert hcanon
  unfold kernelRun0_C
  dsimp only
  sl_unfold_words
  rw [View.canon_unit_zero hz2]
  simp only [View.readCov_unit_zero (S := S256x16) _ hz2]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]
  intro hcanon
  simp only [View.readCov_eq_canon', hcanon]
  refine (epilogue_apply _ _ _ _ _ _ _ _ _ _ _ _ _ _ _ _ _ p d).trans ?_
  unfold epi
  simp only [slabIdx 0 (by decide), slabIdx 1 (by decide), slabIdx 2 (by decide), slabIdx 3 (by decide), slabIdx 4 (by decide), slabIdx 5 (by decide), slabIdx 6 (by decide), slabIdx 7 (by decide), slabIdx 8 (by decide), slabIdx 9 (by decide), slabIdx 10 (by decide), slabIdx 11 (by decide), slabIdx 12 (by decide), slabIdx 13 (by decide), slabIdx 14 (by decide), slabIdx 15 (by decide)]
  rfl

/-! ## The first point of a row block

It stores −∞, 0 and 0 into the carried state and then updates it like every other point, so every later load reads a
reset value back: the maxima and sums whole, a head's slab of weighted sums through the stores of the heads before it. -/

/-- A slab load skips the store of another head: the two slabs are disjoint. -/
theorem readCov_skip {sig : RefSig} {κ : Kind} {sp : Space} (v : View sig κ sp S16x256x1024 .f32) (o o' : ℕ) (hne : o' ≠ o)
    (inb : ∀ a, (![o, 0, 0] : Fin 3 → Nat) a + S1x256x1024.size a ≤ S16x256x1024.size a)
    (inb' : ∀ a, (![o', 0, 0] : Fin 3 → Nat) a + S1x256x1024.size a ≤ S16x256x1024.size a)
    (w : (Rect.unit (s := S16x256x1024) ![o', 0, 0] S1x256x1024.size inb').shape.Idx → Elt Ideal EltTy.f32)
    (L : List (View.Piece (Elt Ideal) S16x256x1024 .f32)) :
    v.readCov ((⟨Rect.unit (s := S16x256x1024) ![o', 0, 0] S1x256x1024.size inb', w⟩ : View.Piece (Elt Ideal) S16x256x1024 .f32) :: L)
        (Rect.unit (s := S16x256x1024) ![o, 0, 0] S1x256x1024.size inb).toLoadRect
      = v.readCov L (Rect.unit (s := S16x256x1024) ![o, 0, 0] S1x256x1024.size inb).toLoadRect :=
  View.readCov_cons_of_disjoint v _ L _ (Rect.unit_disjoint (inb := inb') (inb' := inb) 0 (by show o' + 1 ≤ o ∨ o + 1 ≤ o'; omega))

/-- A slab load of a buffer stored whole reads the slab of what was stored. -/
theorem readCov_init {sig : RefSig} {κ : Kind} {sp : Space} (v : View sig κ sp S16x256x1024 .f32) (o : ℕ)
    (inb : ∀ a, (![o, 0, 0] : Fin 3 → Nat) a + S1x256x1024.size a ≤ S16x256x1024.size a)
    (inb0 : ∀ a, (![0, 0, 0] : Fin 3 → Nat) a + S16x256x1024.size a ≤ S16x256x1024.size a)
    (w : S16x256x1024.Idx → Elt Ideal EltTy.f32) :
    v.readCov [(⟨Rect.unit (s := S16x256x1024) ![0, 0, 0] S16x256x1024.size inb0, w⟩ : View.Piece (Elt Ideal) S16x256x1024 .f32)]
        (Rect.unit (s := S16x256x1024) ![o, 0, 0] S1x256x1024.size inb).toLoadRect
      = View.ld w (Rect.unit (s := S16x256x1024) ![o, 0, 0] S1x256x1024.size inb) := by
  rw [View.readCov_eq_canon', View.canon_unit_zero hz3]

/-- Stores whose first `n` are blocks of one function, whatever was stored before them: the function wherever they cover. -/
theorem canon_take {S : Shape} {e : EltTy} (G : S.Idx → Elt Ideal e) (n : ℕ) (L : List (View.Piece (Elt Ideal) S e))
    (hL : ∀ p ∈ L.take n, ∀ x : p.1.shape.Idx, p.2 x = G (p.1.emb x)) (y : S.Idx) (hy : ∃ p ∈ L.take n, y ∈ p.1.set) :
    View.canon L y = G y := by
  rw [← List.take_append_drop n L]
  exact View.canon_append_of_pieces G (L.drop n) (L.take n) hL y hy

/-- The same as `slab_ok` for a slab value known to be the slab of `ao`. -/
theorem slab_ok' (o : ℕ) (ho : o < 16) (hs1 : S256x16x64.Slices ![0, o, 0] S256x1x64) (hs2 : S16x64x1024.Slices ![o, 0, 0] S1x64x1024)
    (hs3 : S256x16.Slices ![0, o] S256x1)
    (inb : ∀ a, (![o, 0, 0] : Fin 3 → Nat) a + S1x256x1024.size a ≤ S16x256x1024.size a)
    (v8 : FVec Ideal S16x64x1024 .bf16) (v20 : FVec Ideal S256x16 .f32) (v24 : FVec Ideal S256x16x64 .f32)
    (ao : S16x256x1024.Idx → EReal) (vo : Vec Ideal S1x256x1024 .f32)
    (hvo : vo = View.ld ao (Rect.unit (s := S16x256x1024) ![o, 0, 0] S1x256x1024.size inb)) (x : S1x256x1024.Idx) :
    headUpd o hs1 hs2 hs3 v8 v20 v24 vo x
      = accStep v8 v20 v24 ao ((Rect.unit (s := S16x256x1024) ![o, 0, 0] S1x256x1024.size inb).emb x) := by
  subst hvo
  exact slab_ok o ho hs1 hs2 hs3 inb v8 v20 v24 ao x

/-- The maxima it leaves: the block's own, the old ones being −∞. -/
theorem maxA (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : cond0_0 i) (hc1 : ¬cond0_1 i)
    (x0 : Vec Ideal S256x1024 .bf16) (x1 : Vec Ideal S16x64x1024 .bf16) (x2 : Vec Ideal S16x64x1024 .bf16) :
    sout0_A_0 (F := Ideal) c i arg2 harg2 arg3 harg3 arg4 harg4 arg5 harg5 arg6 harg6 arg7 harg7 arg8 harg8 hc0 hc1 x0 x1 x2 = k0_pay13 (F := Ideal) x0 x1 (k0_pay8 (F := Ideal)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x16) hz2]
  simp only [View.readCov_unit_zero (S := S256x16) _ hz2]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]
  unfold k0_pay17
  simp only [shapeCast_self]

/-- The sums it leaves. -/
theorem sumA (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : cond0_0 i) (hc1 : ¬cond0_1 i)
    (x0 : Vec Ideal S256x1024 .bf16) (x1 : Vec Ideal S16x64x1024 .bf16) (x2 : Vec Ideal S16x64x1024 .bf16) :
    sout0_A_1 (F := Ideal) c i arg2 harg2 arg3 harg3 arg4 harg4 arg5 harg5 arg6 harg6 arg7 harg7 arg8 harg8 hc0 hc1 x0 x1 x2 = k0_pay16 (F := Ideal) x0 x1 (k0_pay8 (F := Ideal)) (k0_pay8 (F := Ideal)) (k0_pay9 (F := Ideal)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S256x16) hz2]
  simp only [View.readCov_unit_zero (S := S256x16) _ hz2]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]

/-- The weighted sums it leaves, at every entry: the update of zeros. -/
theorem accA (c : Dev nD) (i : grid0.Coords) (arg2 : Memref sig .tc .vmem S256x1024 .bf16) (harg2 : arg2.IsWhole) (arg3 : Memref sig .tc .vmem S16x64x1024 .bf16) (harg3 : arg3.IsWhole) (arg4 : Memref sig .tc .vmem S16x64x1024 .bf16) (harg4 : arg4.IsWhole) (arg5 : Memref sig .tc .vmem S256x1024 .f32) (harg5 : arg5.IsWhole) (arg6 : Memref sig .tc .vmem S256x16 .f32) (harg6 : arg6.IsWhole) (arg7 : Memref sig .tc .vmem S256x16 .f32) (harg7 : arg7.IsWhole) (arg8 : Memref sig .tc .vmem S16x256x1024 .f32) (harg8 : arg8.IsWhole) (hc0 : cond0_0 i) (hc1 : ¬cond0_1 i)
    (x0 : Vec Ideal S256x1024 .bf16) (x1 : Vec Ideal S16x64x1024 .bf16) (x2 : Vec Ideal S16x64x1024 .bf16) (y : S16x256x1024.Idx) :
    sout0_A_2 (F := Ideal) c i arg2 harg2 arg3 harg3 arg4 harg4 arg5 harg5 arg6 harg6 arg7 harg7 arg8 harg8 hc0 hc1 x0 x1 x2 y
      = accStep (k0_pay11 (F := Ideal) x2) (k0_pay14 (F := Ideal) x0 x1 (k0_pay8 (F := Ideal)) (k0_pay8 (F := Ideal))) (k0_pay15 (F := Ideal) x0 x1 (k0_pay8 (F := Ideal))) (k0_pay10 (F := Ideal)) y := by
  have hcov := View.cover_of_tiledL (List.take 16 (kernelRun0_A (F := Ideal) c i arg2 harg2 arg3 harg3 arg4 harg4 arg5 harg5 arg6 harg6 arg7 harg7 arg8 harg8 hc0 hc1 x0 x1 x2).2.2.2.1) S1x256x1024.size (by sl_kernel_rfl) y
  unfold sout0_A_2
  rw [View.read_writes_eq_canon _ _ _ (scover0_A_2 c i arg2 harg2 arg3 harg3 arg4 harg4 arg5 harg5 arg6 harg6 arg7 harg7 arg8 harg8 hc0 hc1 x0 x1 x2)]
  revert hcov
  unfold kernelRun0_A
  dsimp only
  sl_unfold_words
  simp only [View.readCov_unit_zero (S := S256x16) _ hz2,
    readCov_skip _ 1 0 (by decide), readCov_skip _ 2 0 (by decide), readCov_skip _ 2 1 (by decide), readCov_skip _ 3 0 (by decide), readCov_skip _ 3 1 (by decide), readCov_skip _ 3 2 (by decide), readCov_skip _ 4 0 (by decide), readCov_skip _ 4 1 (by decide), readCov_skip _ 4 2 (by decide), readCov_skip _ 4 3 (by decide), readCov_skip _ 5 0 (by decide), readCov_skip _ 5 1 (by decide), readCov_skip _ 5 2 (by decide), readCov_skip _ 5 3 (by decide), readCov_skip _ 5 4 (by decide), readCov_skip _ 6 0 (by decide), readCov_skip _ 6 1 (by decide), readCov_skip _ 6 2 (by decide), readCov_skip _ 6 3 (by decide), readCov_skip _ 6 4 (by decide), readCov_skip _ 6 5 (by decide), readCov_skip _ 7 0 (by decide), readCov_skip _ 7 1 (by decide), readCov_skip _ 7 2 (by decide), readCov_skip _ 7 3 (by decide), readCov_skip _ 7 4 (by decide), readCov_skip _ 7 5 (by decide), readCov_skip _ 7 6 (by decide), readCov_skip _ 8 0 (by decide), readCov_skip _ 8 1 (by decide), readCov_skip _ 8 2 (by decide), readCov_skip _ 8 3 (by decide), readCov_skip _ 8 4 (by decide), readCov_skip _ 8 5 (by decide), readCov_skip _ 8 6 (by decide), readCov_skip _ 8 7 (by decide), readCov_skip _ 9 0 (by decide), readCov_skip _ 9 1 (by decide), readCov_skip _ 9 2 (by decide), readCov_skip _ 9 3 (by decide), readCov_skip _ 9 4 (by decide), readCov_skip _ 9 5 (by decide), readCov_skip _ 9 6 (by decide), readCov_skip _ 9 7 (by decide), readCov_skip _ 9 8 (by decide), readCov_skip _ 10 0 (by decide), readCov_skip _ 10 1 (by decide), readCov_skip _ 10 2 (by decide), readCov_skip _ 10 3 (by decide), readCov_skip _ 10 4 (by decide), readCov_skip _ 10 5 (by decide), readCov_skip _ 10 6 (by decide), readCov_skip _ 10 7 (by decide), readCov_skip _ 10 8 (by decide), readCov_skip _ 10 9 (by decide), readCov_skip _ 11 0 (by decide), readCov_skip _ 11 1 (by decide), readCov_skip _ 11 2 (by decide), readCov_skip _ 11 3 (by decide), readCov_skip _ 11 4 (by decide), readCov_skip _ 11 5 (by decide), readCov_skip _ 11 6 (by decide), readCov_skip _ 11 7 (by decide), readCov_skip _ 11 8 (by decide), readCov_skip _ 11 9 (by decide), readCov_skip _ 11 10 (by decide), readCov_skip _ 12 0 (by decide), readCov_skip _ 12 1 (by decide), readCov_skip _ 12 2 (by decide), readCov_skip _ 12 3 (by decide), readCov_skip _ 12 4 (by decide), readCov_skip _ 12 5 (by decide), readCov_skip _ 12 6 (by decide), readCov_skip _ 12 7 (by decide), readCov_skip _ 12 8 (by decide), readCov_skip _ 12 9 (by decide), readCov_skip _ 12 10 (by decide), readCov_skip _ 12 11 (by decide), readCov_skip _ 13 0 (by decide), readCov_skip _ 13 1 (by decide), readCov_skip _ 13 2 (by decide), readCov_skip _ 13 3 (by decide), readCov_skip _ 13 4 (by decide), readCov_skip _ 13 5 (by decide), readCov_skip _ 13 6 (by decide), readCov_skip _ 13 7 (by decide), readCov_skip _ 13 8 (by decide), readCov_skip _ 13 9 (by decide), readCov_skip _ 13 10 (by decide), readCov_skip _ 13 11 (by decide), readCov_skip _ 13 12 (by decide), readCov_skip _ 14 0 (by decide), readCov_skip _ 14 1 (by decide), readCov_skip _ 14 2 (by decide), readCov_skip _ 14 3 (by decide), readCov_skip _ 14 4 (by decide), readCov_skip _ 14 5 (by decide), readCov_skip _ 14 6 (by decide), readCov_skip _ 14 7 (by decide), readCov_skip _ 14 8 (by decide), readCov_skip _ 14 9 (by decide), readCov_skip _ 14 10 (by decide), readCov_skip _ 14 11 (by decide), readCov_skip _ 14 12 (by decide), readCov_skip _ 14 13 (by decide), readCov_skip _ 15 0 (by decide), readCov_skip _ 15 1 (by decide), readCov_skip _ 15 2 (by decide), readCov_skip _ 15 3 (by decide), readCov_skip _ 15 4 (by decide), readCov_skip _ 15 5 (by decide), readCov_skip _ 15 6 (by decide), readCov_skip _ 15 7 (by decide), readCov_skip _ 15 8 (by decide), readCov_skip _ 15 9 (by decide), readCov_skip _ 15 10 (by decide), readCov_skip _ 15 11 (by decide), readCov_skip _ 15 12 (by decide), readCov_skip _ 15 13 (by decide), readCov_skip _ 15 14 (by decide)]
  simp only [View.readAt_eq_ld, harg2.read_unread, harg3.read_unread, harg4.read_unread, harg6.read_unread, harg7.read_unread, harg8.read_unread, View.ld_unit_zero (S := S256x1024) hz2, View.ld_unit_zero (S := S16x64x1024) hz3, View.ld_unit_zero (S := S256x16) hz2]
  intro hcov
  refine canon_take (accStep (k0_pay11 (F := Ideal) x2) (k0_pay14 (F := Ideal) x0 x1 (k0_pay8 (F := Ideal)) (k0_pay8 (F := Ideal))) (k0_pay15 (F := Ideal) x0 x1 (k0_pay8 (F := Ideal))) (k0_pay10 (F := Ideal))) 16 _ (fun q hq => ?_) y hcov
  simp only [List.take_succ_cons, List.take_zero, List.mem_cons, List.not_mem_nil, or_false] at hq
  rcases hq with rfl | rfl | rfl | rfl | rfl | rfl | rfl | rfl | rfl | rfl | rfl | rfl | rfl | rfl | rfl | rfl
  · exact fun x => (congrFun (head15 _ _ _ _) x).trans (slab_ok' 15 (by omega) _ _ _ _ _ _ _ (k0_pay10 (F := Ideal)) _ (readCov_init _ 15 _ _ _) x)
  · exact fun x => (congrFun (head14 _ _ _ _) x).trans (slab_ok' 14 (by omega) _ _ _ _ _ _ _ (k0_pay10 (F := Ideal)) _ (readCov_init _ 14 _ _ _) x)
  · exact fun x => (congrFun (head13 _ _ _ _) x).trans (slab_ok' 13 (by omega) _ _ _ _ _ _ _ (k0_pay10 (F := Ideal)) _ (readCov_init _ 13 _ _ _) x)
  · exact fun x => (congrFun (head12 _ _ _ _) x).trans (slab_ok' 12 (by omega) _ _ _ _ _ _ _ (k0_pay10 (F := Ideal)) _ (readCov_init _ 12 _ _ _) x)
  · exact fun x => (congrFun (head11 _ _ _ _) x).trans (slab_ok' 11 (by omega) _ _ _ _ _ _ _ (k0_pay10 (F := Ideal)) _ (readCov_init _ 11 _ _ _) x)
  · exact fun x => (congrFun (head10 _ _ _ _) x).trans (slab_ok' 10 (by omega) _ _ _ _ _ _ _ (k0_pay10 (F := Ideal)) _ (readCov_init _ 10 _ _ _) x)
  · exact fun x => (congrFun (head9 _ _ _ _) x).trans (slab_ok' 9 (by omega) _ _ _ _ _ _ _ (k0_pay10 (F := Ideal)) _ (readCov_init _ 9 _ _ _) x)
  · exact fun x => (congrFun (head8 _ _ _ _) x).trans (slab_ok' 8 (by omega) _ _ _ _ _ _ _ (k0_pay10 (F := Ideal)) _ (readCov_init _ 8 _ _ _) x)
  · exact fun x => (congrFun (head7 _ _ _ _) x).trans (slab_ok' 7 (by omega) _ _ _ _ _ _ _ (k0_pay10 (F := Ideal)) _ (readCov_init _ 7 _ _ _) x)
  · exact fun x => (congrFun (head6 _ _ _ _) x).trans (slab_ok' 6 (by omega) _ _ _ _ _ _ _ (k0_pay10 (F := Ideal)) _ (readCov_init _ 6 _ _ _) x)
  · exact fun x => (congrFun (head5 _ _ _ _) x).trans (slab_ok' 5 (by omega) _ _ _ _ _ _ _ (k0_pay10 (F := Ideal)) _ (readCov_init _ 5 _ _ _) x)
  · exact fun x => (congrFun (head4 _ _ _ _) x).trans (slab_ok' 4 (by omega) _ _ _ _ _ _ _ (k0_pay10 (F := Ideal)) _ (readCov_init _ 4 _ _ _) x)
  · exact fun x => (congrFun (head3 _ _ _ _) x).trans (slab_ok' 3 (by omega) _ _ _ _ _ _ _ (k0_pay10 (F := Ideal)) _ (readCov_init _ 3 _ _ _) x)
  · exact fun x => (congrFun (head2 _ _ _ _) x).trans (slab_ok' 2 (by omega) _ _ _ _ _ _ _ (k0_pay10 (F := Ideal)) _ (readCov_init _ 2 _ _ _) x)
  · exact fun x => (congrFun (head1 _ _ _ _) x).trans (slab_ok' 1 (by omega) _ _ _ _ _ _ _ (k0_pay10 (F := Ideal)) _ (readCov_init _ 1 _ _ _) x)
  · exact fun x => (congrFun (head0 _ _ _ _) x).trans (slab_ok' 0 (by omega) _ _ _ _ _ _ _ (k0_pay10 (F := Ideal)) _ (readCov_init _ 0 _ _ _) x)

end Cert.Hopfield.Pieces

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibOnlineSoftmax.lean ====
/-
  The running ("online") softmax, on the extended reals.

  A row of scores is met block by block. After each block one keeps the greatest score so far `m`, the sum `l` of the
  exponentials of the scores so far shifted by `m`, and for every output column `c` the sum `acc c` of those exponentials
  times the value rows. When a new block raises the maximum, the old sums are rescaled by `exp (m_old − m_new)`;
  since `exp a · exp b = exp (a + b)` on the reals, the rescaled sums are the sums shifted by the new maximum. After the
  last block `acc c / l` is the softmax-weighted sum of the value rows: `∑ J, softmax(r) J · X J c`.

  Before the first block `m = −∞`, `l = 0`, `acc = 0`; the first rescaling factor is `exp (−∞) = 0`.
-/
import Idealize.ShloMosaic.PureOps.Ideal
import proofs.«165716_j46926812676317_2_alg».proof.Proof.LibRowSoftmax
import proofs.«165716_j46926812676317_2_alg».proof.Proof.LibRealEntries

noncomputable section

open scoped BigOperators

namespace Cert.Online

open Idealize.ShloMosaic Cert.RowSoftmax Cert.LibRealEntries

variable {B : ℕ} {C : Type}

/-! ## Real sums and the two constants -/

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The f32 pattern `0x3D000000` denotes 1/32. -/
theorem ofBits_inv32 : Ideal.ofBits .f32 0x3D000000#32 = ((1 / 32 : ℝ) : EReal) := by
  simp [Ideal.ofBits, Ideal.ieee, -EReal.coe_mul]; norm_num

/-- The f32 pattern `0x44800000` denotes 1024. -/
theorem ofBits_1024 : Ideal.ofBits .f32 0x44800000#32 = ((1024 : ℝ) : EReal) := by
  simp [Ideal.ofBits, Ideal.ieee, -EReal.coe_mul]; norm_num

/-- √1024 = 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- The greatest score after the first `k` blocks (−∞ before the first). -/
def runMax (s : ℕ → Fin B → EReal) : ℕ → EReal
  | 0 => ⊥
  | k + 1 => max (runMax s k) (rowMax (s k))

/-- The running sum of shifted exponentials after the first `k` blocks. -/
def runSum (s : ℕ → Fin B → EReal) : ℕ → EReal
  | 0 => 0
  | k + 1 => Ideal.exp (runMax s k - runMax s (k + 1)) * runSum s k + ∑ j : Fin B, Ideal.exp (s k j - runMax s (k + 1))

/-- The running weighted sum of the value rows, at column `c`, after the first `k` blocks. -/
def runAcc (s : ℕ → Fin B → EReal) (x : ℕ → Fin B → C → EReal) (c : C) : ℕ → EReal
  | 0 => 0
  | k + 1 => Ideal.exp (runMax s k - runMax s (k + 1)) * runAcc s x c k
      + ∑ j : Fin B, Ideal.exp (s k j - runMax s (k + 1)) * x k j c

/-! ## The greatest entry of a row, and of the blocks met so far -/

theorem le_rowMax {m : ℕ} (r : Fin m → EReal) (j : Fin m) : r j ≤ rowMax r :=
  (Finset.le_fold_max _).mpr (Or.inr ⟨j, Finset.mem_univ j, le_rfl⟩)

theorem rowMax_le {m : ℕ} (r : Fin m → EReal) (c : EReal) (h : ∀ j, r j ≤ c) : rowMax r ≤ c := by
  unfold rowMax
  rw [negInf_eq_bot]
  exact (Finset.fold_max_le _).mpr ⟨bot_le, fun j _ => h j⟩

/-- The greatest entry of a nonempty row of real entries is real. -/
theorem isReal_rowMax {m : ℕ} (hm : 0 < m) (r : Fin m → EReal) (h : ∀ j, IsReal (r j)) : IsReal (rowMax r) := by
  unfold rowMax
  rw [negInf_eq_bot]
  exact isReal_fold_max _ _ ⟨⟨0, hm⟩, Finset.mem_univ _⟩ fun j _ => h j

/-- Every score of an earlier block is at most the running maximum. -/
theorem le_runMax (s : ℕ → Fin B → EReal) {k' k : ℕ} (h : k' < k) (j : Fin B) : s k' j ≤ runMax s k := by
  induction k with
  | zero => exact absurd h (Nat.not_lt_zero _)
  | succ k ih =>
    show s k' j ≤ max (runMax s k) (rowMax (s k))
    rcases Nat.lt_succ_iff_lt_or_eq.mp h with h' | h'
    · exact le_max_of_le_left (ih h')
    · subst h'; exact le_max_of_le_right (le_rowMax _ j)

/-- A bound of every score of the earlier blocks bounds the running maximum. -/
theorem runMax_le (s : ℕ → Fin B → EReal) (c : EReal) (k : ℕ) (h : ∀ k', k' < k → ∀ j, s k' j ≤ c) : runMax s k ≤ c := by
  induction k with
  | zero => exact bot_le
  | succ k ih =>
    show max (runMax s k) (rowMax (s k)) ≤ c
    exact max_le (ih fun k' hk' j => h k' (Nat.lt_succ_of_lt hk') j) (rowMax_le _ _ fun j => h k (Nat.lt_succ_self k) j)

/-! ## The running values only look at the blocks met so far -/

theorem runMax_congr {s s' : ℕ → Fin B → EReal} (k : ℕ) (h : ∀ k', k' < k → ∀ j, s k' j = s' k' j) :
    runMax s k = runMax s' k := by
  induction k with
  | zero => rfl
  | succ k ih =>
    show max (runMax s k) (rowMax (s k)) = max (runMax s' k) (rowMax (s' k))
    rw [ih fun k' hk' j => h k' (Nat.lt_succ_of_lt hk') j, show s k = s' k from funext (h k (Nat.lt_succ_self k))]

theorem runSum_congr {s s' : ℕ → Fin B → EReal} (k : ℕ) (h : ∀ k', k' < k → ∀ j, s k' j = s' k' j) :
    runSum s k = runSum s' k := by
  induction k with
  | zero => rfl
  | succ k ih =>
    have h0 : ∀ k', k' < k → ∀ j, s k' j = s' k' j := fun k' hk' j => h k' (Nat.lt_succ_of_lt hk') j
    show Ideal.exp (runMax s k - runMax s (k + 1)) * runSum s k + ∑ j : Fin B, Ideal.exp (s k j - runMax s (k + 1))
      = Ideal.exp (runMax s' k - runMax s' (k + 1)) * runSum s' k + ∑ j : Fin B, Ideal.exp (s' k j - runMax s' (k + 1))
    rw [ih h0, runMax_congr k h0, runMax_congr (k + 1) h, show s k = s' k from funext (h k (Nat.lt_succ_self k))]

theorem runAcc_congr {s s' : ℕ → Fin B → EReal} {x x' : ℕ → Fin B → C → EReal} (c : C) (k : ℕ)
    (h : ∀ k', k' < k → ∀ j, s k' j = s' k' j) (hx : ∀ k', k' < k → ∀ j, x k' j c = x' k' j c) :
    runAcc s x c k = runAcc s' x' c k := by
  induction k with
  | zero => rfl
  | succ k ih =>
    have h0 : ∀ k', k' < k → ∀ j, s k' j = s' k' j := fun k' hk' j => h k' (Nat.lt_succ_of_lt hk') j
    have hx0 : ∀ k', k' < k → ∀ j, x k' j c = x' k' j c := fun k' hk' j => hx k' (Nat.lt_succ_of_lt hk') j
    show Ideal.exp (runMax s k - runMax s (k + 1)) * runAcc s x c k
        + ∑ j : Fin B, Ideal.exp (s k j - runMax s (k + 1)) * x k j c
      = Ideal.exp (runMax s' k - runMax s' (k + 1)) * runAcc s' x' c k
        + ∑ j : Fin B, Ideal.exp (s' k j - runMax s' (k + 1)) * x' k j c
    rw [ih h0 hx0, runMax_congr k h0, runMax_congr (k + 1) h, show s k = s' k from funext (h k (Nat.lt_succ_self k))]
    exact congrArg _ (Finset.sum_congr rfl fun j _ => by rw [hx k (Nat.lt_succ_self k) j])

/-! ## Blocks of real scores: the running sums are the sums shifted by the running maximum -/

/-- Rescaling sums shifted by `μ` by `exp (μ − μ')` gives the sums shifted by `μ'`: `exp a · exp b = exp (a + b)`. -/
theorem rescale (μ μ' : ℝ) (k : ℕ) (σ χ : ℕ → Fin B → ℝ) :
    Ideal.exp ((μ : EReal) - μ') * ∑ k' ∈ Finset.range k, ∑ j : Fin B, Ideal.exp ((σ k' j : EReal) - μ) * (χ k' j : EReal)
      = ∑ k' ∈ Finset.range k, ∑ j : Fin B, Ideal.exp ((σ k' j : EReal) - μ') * (χ k' j : EReal) := by
  simp only [← EReal.coe_sub, Ideal.exp_coe, ← EReal.coe_mul, ← coe_sum]
  rw [EReal.coe_eq_coe_iff, Finset.mul_sum]
  refine Finset.sum_congr rfl fun k' _ => ?_
  rw [Finset.mul_sum]
  refine Finset.sum_congr rfl fun j _ => ?_
  rw [← mul_assoc, ← Real.exp_add]
  congr 2
  ring

/-- The same without weights. -/
theorem rescale_one (μ μ' : ℝ) (k : ℕ) (σ : ℕ → Fin B → ℝ) :
    Ideal.exp ((μ : EReal) - μ') * ∑ k' ∈ Finset.range k, ∑ j : Fin B, Ideal.exp ((σ k' j : EReal) - μ)
      = ∑ k' ∈ Finset.range k, ∑ j : Fin B, Ideal.exp ((σ k' j : EReal) - μ') := by
  simp only [← EReal.coe_sub, Ideal.exp_coe, ← EReal.coe_mul, ← coe_sum]
  rw [EReal.coe_eq_coe_iff, Finset.mul_sum]
  refine Finset.sum_congr rfl fun k' _ => ?_
  rw [Finset.mul_sum]
  refine Finset.sum_congr rfl fun j _ => ?_
  rw [← Real.exp_add]
  congr 1
  ring

section RealBlocks

variable (s : ℕ → Fin B → EReal) (x : ℕ → Fin B → C → EReal) (c : C) (σ χ : ℕ → Fin B → ℝ)
  (hσ : ∀ k j, s k j = (σ k j : EReal)) (hχ : ∀ k j, x k j c = (χ k j : EReal))

include hσ in
/-- After at least one block of `B ≥ 1` real scores the running maximum is real. -/
theorem isReal_runMax (hB : 0 < B) (k : ℕ) (hk : 0 < k) : IsReal (runMax s k) := by
  induction k with
  | zero => exact absurd hk (lt_irrefl 0)
  | succ k ih =>
    have hrow : IsReal (rowMax (s k)) := isReal_rowMax hB _ fun j => ⟨_, hσ k j⟩
    show IsReal (max (runMax s k) (rowMax (s k)))
    rcases Nat.eq_zero_or_pos k with h0 | hpos
    · subst h0
      show IsReal (max ⊥ (rowMax (s 0)))
      rw [max_eq_right bot_le]; exact hrow
    · exact (ih hpos).max hrow

include hσ in
/-- The running sum is the sum of the exponentials of the scores met so far, shifted by the running maximum. -/
theorem runSum_real (hB : 0 < B) (k : ℕ) :
    runSum s k = ∑ k' ∈ Finset.range k, ∑ j : Fin B, Ideal.exp (s k' j - runMax s k) := by
  induction k with
  | zero => show (0 : EReal) = _; rw [Finset.range_zero, Finset.sum_empty]
  | succ k ih =>
    show Ideal.exp (runMax s k - runMax s (k + 1)) * runSum s k + ∑ j : Fin B, Ideal.exp (s k j - runMax s (k + 1)) = _
    rw [Finset.sum_range_succ, ih]
    congr 1
    rcases Nat.eq_zero_or_pos k with h0 | hpos
    · subst h0; simp
    · obtain ⟨μ, hμ⟩ := isReal_runMax s σ hσ hB k hpos
      obtain ⟨μ', hμ'⟩ := isReal_runMax s σ hσ hB (k + 1) (Nat.succ_pos k)
      rw [hμ, hμ']
      simp only [hσ]
      exact rescale_one μ μ' k σ

include hσ hχ in
/-- The running weighted sum is the weighted sum of those shifted exponentials. -/
theorem runAcc_real (hB : 0 < B) (k : ℕ) :
    runAcc s x c k = ∑ k' ∈ Finset.range k, ∑ j : Fin B, Ideal.exp (s k' j - runMax s k) * x k' j c := by
  induction k with
  | zero => show (0 : EReal) = _; rw [Finset.range_zero, Finset.sum_empty]
  | succ k ih =>
    show Ideal.exp (runMax s k - runMax s (k + 1)) * runAcc s x c k
      + ∑ j : Fin B, Ideal.exp (s k j - runMax s (k + 1)) * x k j c = _
    rw [Finset.sum_range_succ, ih]
    congr 1
    rcases Nat.eq_zero_or_pos k with h0 | hpos
    · subst h0; simp
    · obtain ⟨μ, hμ⟩ := isReal_runMax s σ hσ hB k hpos
      obtain ⟨μ', hμ'⟩ := isReal_runMax s σ hσ hB (k + 1) (Nat.succ_pos k)
      rw [hμ, hμ']
      simp only [hσ, hχ]
      exact rescale μ μ' k σ χ

include hσ hχ in
/-- After `n ≥ 1` blocks the quotient of the two running sums is the sum of the quotients, term by term: every
    term is real and the running sum is positive. -/
theorem div_real (hB : 0 < B) (n : ℕ) (hn : 0 < n) :
    Ideal.div (runAcc s x c n) (runSum s n)
      = ∑ k ∈ Finset.range n, ∑ j : Fin B, Ideal.div (Ideal.exp (s k j - runMax s n)) (runSum s n) * x k j c := by
  obtain ⟨μ, hμ⟩ := isReal_runMax s σ hσ hB n hn
  have hL : (0 : ℝ) < ∑ k ∈ Finset.range n, ∑ j : Fin B, Real.exp (σ k j - μ) :=
    Finset.sum_pos (fun k _ => Finset.sum_pos (fun j _ => Real.exp_pos _) ⟨⟨0, hB⟩, Finset.mem_univ _⟩)
      ⟨0, Finset.mem_range.mpr hn⟩
  rw [runAcc_real s x c σ χ hσ hχ hB n, runSum_real s σ hσ hB n, hμ]
  simp only [hσ, hχ, ← EReal.coe_sub, Ideal.exp_coe, ← EReal.coe_mul, ← coe_sum, Ideal.div_coe hL.ne']
  rw [EReal.coe_eq_coe_iff, Finset.sum_mul]
  refine Finset.sum_congr rfl fun k _ => ?_
  rw [Finset.sum_mul]
  refine Finset.sum_congr rfl fun j _ => ?_
  ring

end RealBlocks

/-! ## A row of `n·B` entries, block by block -/

/-- A sum over a row of `n·B` entries is the sum over the blocks of the sums within each block. -/
theorem sum_blocks (n : ℕ) (f : Fin (n * B) → EReal) (F : ℕ → Fin B → EReal)
    (h : ∀ (k : Fin n) (j : Fin B), f (finProdFinEquiv (k, j)) = F k j) :
    ∑ J : Fin (n * B), f J = ∑ k ∈ Finset.range n, ∑ j : Fin B, F k j :=
  calc ∑ J : Fin (n * B), f J = ∑ p : Fin n × Fin B, f (finProdFinEquiv p) := (Equiv.sum_comp finProdFinEquiv f).symm
    _ = ∑ k : Fin n, ∑ j : Fin B, f (finProdFinEquiv (k, j)) := Fintype.sum_prod_type _
    _ = ∑ k : Fin n, ∑ j : Fin B, F k j := Finset.sum_congr rfl fun k _ => Finset.sum_congr rfl fun j _ => h k j
    _ = ∑ k ∈ Finset.range n, ∑ j : Fin B, F k j := Fin.sum_univ_eq_sum_range (fun k => ∑ j : Fin B, F k j) n

/-- The greatest entry of the whole row is the running maximum after the last block. -/
theorem rowMax_eq_runMax (n : ℕ) (r : Fin (n * B) → EReal) (s : ℕ → Fin B → EReal)
    (h : ∀ (k : Fin n) (j : Fin B), r (finProdFinEquiv (k, j)) = s k j) : rowMax r = runMax s n := by
  apply le_antisymm
  · refine rowMax_le _ _ fun J => ?_
    have e := h (finProdFinEquiv.symm J).1 (finProdFinEquiv.symm J).2
    rw [Prod.mk.eta, Equiv.apply_symm_apply] at e
    rw [e]
    exact le_runMax s (finProdFinEquiv.symm J).1.isLt _
  · refine runMax_le s _ n fun k hk j => ?_
    rw [← h ⟨k, hk⟩ j]
    exact le_rowMax r _

/-- THE LAW. For a row `r` of `N = n·B` real scores and real value rows `X`, met in `n ≥ 1` blocks of `B ≥ 1`:
    the running weighted sum over the running sum is the softmax-weighted sum of the value rows. -/
theorem online_eq_softmax (n N : ℕ) (hn : 0 < n) (hB : 0 < B) (hN : N = n * B)
    (r : Fin N → EReal) (X : Fin N → C → EReal) (hr : ∀ J, IsReal (r J)) (hX : ∀ J c, IsReal (X J c))
    (s : ℕ → Fin B → EReal) (x : ℕ → Fin B → C → EReal)
    (hs : ∀ k (hk : k < n) (j : Fin B), s k j = r ⟨k * B + j.val, by subst hN; exact (Nat.add_lt_add_left j.isLt _).trans_le (by rw [← Nat.succ_mul]; exact Nat.mul_le_mul_right _ hk)⟩)
    (hx : ∀ k (hk : k < n) (j : Fin B) c, x k j c = X ⟨k * B + j.val, by subst hN; exact (Nat.add_lt_add_left j.isLt _).trans_le (by rw [← Nat.succ_mul]; exact Nat.mul_le_mul_right _ hk)⟩ c)
    (c : C) :
    Ideal.div (runAcc s x c n) (runSum s n) = ∑ J : Fin N, rowSoftmax r J * X J c := by
  subst hN
  have hsr : ∀ k, k < n → ∀ j, IsReal (s k j) := fun k hk j => by rw [hs k hk j]; exact hr _
  have hxr : ∀ k, k < n → ∀ j, IsReal (x k j c) := fun k hk j => by rw [hx k hk j c]; exact hX _ _
  -- real sequences that agree with the blocks on the first `n` blocks
  let σ : ℕ → Fin B → ℝ := fun k j => (s k j).toReal
  let χ : ℕ → Fin B → ℝ := fun k j => (x k j c).toReal
  let S : ℕ → Fin B → EReal := fun k j => (σ k j : EReal)
  let Y : ℕ → Fin B → C → EReal := fun k j _ => (χ k j : EReal)
  have hS : ∀ k, k < n → ∀ j, s k j = S k j := fun k hk j => by
    obtain ⟨t, ht⟩ := hsr k hk j
    show s k j = (((s k j).toReal : ℝ) : EReal)
    rw [ht, EReal.toReal_coe]
  have hY : ∀ k, k < n → ∀ j, x k j c = Y k j c := fun k hk j => by
    obtain ⟨t, ht⟩ := hxr k hk j
    show x k j c = (((x k j c).toReal : ℝ) : EReal)
    rw [ht, EReal.toReal_coe]
  have hSum : runSum s n = runSum S n := runSum_congr n hS
  have hAcc : runAcc s x c n = runAcc S Y c n := runAcc_congr c n hS hY
  -- the row, read block by block
  have hrS : ∀ (k : Fin n) (j : Fin B), r (finProdFinEquiv (k, j)) = S k j := fun k j => by
    rw [← hS k k.isLt j, hs k k.isLt j]
    refine congrArg r (Fin.ext ?_)
    show (j : ℕ) + B * (k : ℕ) = (k : ℕ) * B + (j : ℕ)
    rw [Nat.add_comm, Nat.mul_comm]
  have hXY : ∀ (k : Fin n) (j : Fin B), X (finProdFinEquiv (k, j)) c = Y k j c := fun k j => by
    rw [← hY k k.isLt j, hx k k.isLt j c]
    refine congrArg (fun J => X J c) (Fin.ext ?_)
    show (j : ℕ) + B * (k : ℕ) = (k : ℕ) * B + (j : ℕ)
    rw [Nat.add_comm, Nat.mul_comm]
  have hrow : rowMax r = runMax S n := rowMax_eq_runMax n r S hrS
  have hden : ∑ K : Fin (n * B), Ideal.exp (r K - rowMax r) = runSum S n := by
    rw [runSum_real S σ (fun _ _ => rfl) hB n, hrow]
    exact sum_blocks n _ _ fun k j => by rw [hrS k j]
  rw [hAcc, hSum, div_real S Y c σ χ (fun _ _ => rfl) (fun _ _ => rfl) hB n hn]
  symm
  refine sum_blocks n _ _ fun k j => ?_
  show rowSoftmax r (finProdFinEquiv (k, j)) * X (finProdFinEquiv (k, j)) c = _
  unfold rowSoftmax
  rw [hden, hrow, hrS k j, hXY k j]

/-- The scale 1/32 folded into one factor of a dot product of reals is the dot product divided by √1024. -/
theorem scaled_dot {D : ℕ} (q k : Fin D → EReal) (hq : ∀ d, IsReal (q d)) (hk : ∀ d, IsReal (k d)) :
    ∑ d : Fin D, (q d * Ideal.ofBits .f32 0x3D000000#32) * k d
      = Ideal.div (∑ d : Fin D, q d * k d) (Ideal.sqrt (Ideal.ofBits .f32 0x44800000#32)) := by
  choose a ha using hq
  choose b hb using hk
  rw [ofBits_inv32, ofBits_1024, sqrt_1024, Ideal.div_coe (by norm_num : (32 : ℝ) ≠ 0)]
  simp only [ha, hb, ← EReal.coe_mul, ← coe_sum]
  congr 1
  rw [Finset.sum_mul]
  exact Finset.sum_congr rfl fun d _ => by ring

end Cert.Online

end
-- ==== Proof.Recur.lean ====
/-
  One point's updates are one step of the running softmax.

  Fix a query row p and a head h. Let `s k j` be the score of the row against key j of the k-th key block and `x k j d` the
  value row of that key at column d. If before a point the carried maxima, sums and weighted sums hold the running
  maximum, sum and weighted sum after k blocks, then after it they hold them after k + 1 blocks. The reset values
  (−∞, 0, 0) are the running values after 0 blocks.
-/
import proofs.«165716_j46926812676317_2_alg».proof.Proof.Step
import proofs.«165716_j46926812676317_2_alg».proof.Proof.LibOnlineSoftmax

noncomputable section

open scoped BigOperators

namespace Cert.Hopfield.Recur

open Cert.KernelIdeal Cert.KernelIdeal.Gen Idealize.ShloMosaic Idealize.ShloMosaic.ValueIdx Cert.RowSoftmax Cert.Online Cert.Hopfield.Step

variable (x0 : Vec Ideal S256x1024 .bf16) (x1 x2 : Vec Ideal S16x64x1024 .bf16)

theorem step_max (mo : Vec Ideal S256x16 .f32) (s : ℕ → Fin 64 → EReal) (k : ℕ) (p : Fin 256) (h : Fin 16)
    (hmo : mo (ix2 p h) = runMax s k) (hs : ∀ j, k0_pay12 (F := Ideal) x0 x1 (ix3 p h j) = s k j) :
    k0_pay13 (F := Ideal) x0 x1 mo (ix2 p h) = runMax s (k + 1) := by
  rw [newMax_apply, hmo, funext hs]
  rfl

theorem step_sum (mo lo : Vec Ideal S256x16 .f32) (s : ℕ → Fin 64 → EReal) (k : ℕ) (p : Fin 256) (h : Fin 16)
    (hmo : mo (ix2 p h) = runMax s k) (hlo : lo (ix2 p h) = runSum s k)
    (hs : ∀ j, k0_pay12 (F := Ideal) x0 x1 (ix3 p h j) = s k j) :
    k0_pay16 (F := Ideal) x0 x1 mo mo lo (ix2 p h) = runSum s (k + 1) := by
  have hM := step_max x0 x1 mo s k p h hmo hs
  have hj : ∀ j, k0_pay15 (F := Ideal) x0 x1 mo (ix3 p h j) = Ideal.exp (s k j - runMax s (k + 1)) := fun j => by
    rw [shifted_apply, hs j, hM]
  rw [newSum_apply, factor_apply, hM, hmo, hlo, Finset.sum_congr rfl fun j _ => hj j]
  rfl

theorem step_acc (mo : Vec Ideal S256x16 .f32) (ao : S16x256x1024.Idx → EReal) (s : ℕ → Fin 64 → EReal)
    (x : ℕ → Fin 64 → Fin 1024 → EReal) (k : ℕ) (p : Fin 256) (h : Fin 16) (d : Fin 1024)
    (hmo : mo (ix2 p h) = runMax s k) (hao : ao (ix3 h p d) = runAcc s x d k)
    (hs : ∀ j, k0_pay12 (F := Ideal) x0 x1 (ix3 p h j) = s k j) (hx : ∀ j, x2 (ix3 h j d) = x k j d) :
    accStep (k0_pay11 (F := Ideal) x2) (k0_pay14 (F := Ideal) x0 x1 mo mo) (k0_pay15 (F := Ideal) x0 x1 mo) ao (ix3 h p d)
      = runAcc s x d (k + 1) := by
  have hM := step_max x0 x1 mo s k p h hmo hs
  have hj : ∀ j, k0_pay15 (F := Ideal) x0 x1 mo (ix3 p h j) * k0_pay11 (F := Ideal) x2 (ix3 h j d)
      = Ideal.exp (s k j - runMax s (k + 1)) * x k j d := fun j => by
    rw [shifted_apply, hs j, hM, values_self, hx j]
  rw [accStep_ix3, factor_apply, hM, hmo, hao, Finset.sum_congr rfl fun j _ => hj j]
  rfl

end Cert.Hopfield.Recur

end
-- ==== Proof.Carry.lean ====
/-
  The carried state after each point of a row block.

  The 64 points of a row block meet the 64 key blocks in order. For a query row p and a head h let `sRow k j` be the score
  against key j of block k and `vRow k j d` that key's value row at d, read off the blocks the points are given. After the
  k-th point (counting from 0) the carried maxima, sums and weighted sums are the running maximum, sum and weighted sum
  after k + 1 blocks: by induction on k, the first point resetting the state, every later one updating it.
-/
import proofs.«165716_j46926812676317_2_alg».proof.Proof.Pieces
import proofs.«165716_j46926812676317_2_alg».proof.Proof.Recur

set_option maxRecDepth 16384
set_option maxHeartbeats 1000000

noncomputable section

open scoped BigOperators

namespace Cert.Hopfield.Carry

open Cert.KernelIdeal Cert.KernelIdeal.Gen Idealize.ShloMosaic Idealize.ShloMosaic.ValueIdx
open Cert.Online Cert.Hopfield.Step Cert.Hopfield.Pieces Cert.Hopfield.Recur
open Idealize.SL.Sem

variable (m : (ℓ : Loc nD τ sig) → Buf (Elt Ideal) ℓ) (c : Dev nD)

/-- The block of 256 query rows, the 16 heads' 64 key rows and their 64 value rows that the point `t` is given. -/
def qBlk (t : Fin cfg0.N) : Vec Ideal S256x1024 .bf16 := iblk (F := Ideal) m c 0 t
def kBlk (t : Fin cfg0.N) : Vec Ideal S16x64x1024 .bf16 := iblk (F := Ideal) m c 1 t
def vBlk (t : Fin cfg0.N) : Vec Ideal S16x64x1024 .bf16 := iblk (F := Ideal) m c 2 t

/-- What the buffers hold after a first point of a row block, … -/
theorem outs_A (t : Fin cfg0.N) (h0 : t.val % 64 = 0) (h1 : ¬t.val % 64 = 63) :
    outsAt0 (F := Ideal) m c t.val t.isLt
      = (out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun hh => h1 ((hcond0_1 t).mp hh)) (qBlk m c t) (kBlk m c t) (vBlk m c t),
        sout0_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun hh => h1 ((hcond0_1 t).mp hh)) (qBlk m c t) (kBlk m c t) (vBlk m c t),
        sout0_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun hh => h1 ((hcond0_1 t).mp hh)) (qBlk m c t) (kBlk m c t) (vBlk m c t),
        sout0_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun hh => h1 ((hcond0_1 t).mp hh)) (qBlk m c t) (kBlk m c t) (vBlk m c t)) :=
  outsAt0_A m c t h0 h1

/-- … after a point in the middle of a row block, over what the point before left, … -/
theorem outs_B (t : Fin cfg0.N) (h0 : ¬t.val % 64 = 0) (h1 : ¬t.val % 64 = 63) :
    outsAt0 (F := Ideal) m c t.val t.isLt
      = (out0_B_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) (fun hh => h1 ((hcond0_1 t).mp hh)) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
        sout0_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) (fun hh => h1 ((hcond0_1 t).mp hh)) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
        sout0_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) (fun hh => h1 ((hcond0_1 t).mp hh)) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
        sout0_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) (fun hh => h1 ((hcond0_1 t).mp hh)) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) :=
  outsAt0_B m c t h0 h1

/-- … and after the last point of a row block. -/
theorem outs_C (t : Fin cfg0.N) (h0 : ¬t.val % 64 = 0) (h1 : t.val % 64 = 63) :
    outsAt0 (F := Ideal) m c t.val t.isLt
      = (out0_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) ((hcond0_1 t).mpr h1) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
        sout0_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) ((hcond0_1 t).mpr h1) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
        sout0_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) ((hcond0_1 t).mpr h1) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2,
        sout0_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) ((hcond0_1 t).mpr h1) (qBlk m c t) (kBlk m c t) (vBlk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) :=
  outsAt0_C m c t h0 h1

/-- The scores of row p against the keys of head h, block by block from the point `t0` on. -/
def sRow (t0 : ℕ) (p : Fin 256) (h : Fin 16) : ℕ → Fin 64 → EReal := fun k j =>
  if hk : t0 + k < cfg0.N then
    k0_pay12 (F := Ideal) (qBlk m c (⟨t0 + k, hk⟩ : Fin cfg0.N)) (kBlk m c (⟨t0 + k, hk⟩ : Fin cfg0.N)) (ix3 p h j)
  else 0

/-- The value rows of head h, block by block from the point `t0` on. -/
def vRow (t0 : ℕ) (h : Fin 16) : ℕ → Fin 64 → Fin 1024 → EReal := fun k j d =>
  if hk : t0 + k < cfg0.N then vBlk m c (⟨t0 + k, hk⟩ : Fin cfg0.N) (ix3 h j d) else 0

theorem outsAt0_congr (n n' : ℕ) (e : n = n') (h : n < cfg0.N) (h' : n' < cfg0.N) :
    outsAt0 (F := Ideal) m c n h = outsAt0 (F := Ideal) m c n' h' := by
  subst e; rfl

/-- After the first point of the row block that starts at `t0`: the running values after one key block. -/
theorem carried_zero (t0 : ℕ) (ht0 : t0 % 64 = 0) (p : Fin 256) (h : Fin 16) (d : Fin 1024) (hn : t0 + 0 < cfg0.N) :
    (outsAt0 (F := Ideal) m c (t0 + 0) hn).2.1 (ix2 p h) = runMax (sRow m c t0 p h) (0 + 1)
      ∧ (outsAt0 (F := Ideal) m c (t0 + 0) hn).2.2.1 (ix2 p h) = runSum (sRow m c t0 p h) (0 + 1)
      ∧ (outsAt0 (F := Ideal) m c (t0 + 0) hn).2.2.2 (ix3 h p d) = runAcc (sRow m c t0 p h) (vRow m c t0 h) d (0 + 1) := by
  have hN : cfg0.N = 256 := N_0
  have h0 : (⟨t0 + 0, hn⟩ : Fin cfg0.N).val % 64 = 0 := by show (t0 + 0) % 64 = 0; omega
  have h1 : ¬(⟨t0 + 0, hn⟩ : Fin cfg0.N).val % 64 = 63 := by show ¬(t0 + 0) % 64 = 63; omega
  have hs : ∀ j, k0_pay12 (F := Ideal) (qBlk m c (⟨t0 + 0, hn⟩ : Fin cfg0.N)) (kBlk m c (⟨t0 + 0, hn⟩ : Fin cfg0.N)) (ix3 p h j) = sRow m c t0 p h 0 j := fun j => by
    unfold sRow; rw [dif_pos hn]
  have hx : ∀ j, vBlk m c (⟨t0 + 0, hn⟩ : Fin cfg0.N) (ix3 h j d) = vRow m c t0 h 0 j d := fun j => by
    unfold vRow; rw [dif_pos hn]
  have e := outs_A m c (⟨t0 + 0, hn⟩ : Fin cfg0.N) h0 h1
  have eM := congrArg (fun z => z.2.1) e
  have eL := congrArg (fun z => z.2.2.1) e
  have eA := congrArg (fun z => z.2.2.2) e
  dsimp only at eM eL eA
  have kM := maxA c (grid0.coords (⟨t0 + 0, hn⟩ : Fin cfg0.N)) (ms0_0 (⟨t0 + 0, hn⟩ : Fin cfg0.N)) (hs0_0 (⟨t0 + 0, hn⟩ : Fin cfg0.N)) (ms0_1 (⟨t0 + 0, hn⟩ : Fin cfg0.N)) (hs0_1 (⟨t0 + 0, hn⟩ : Fin cfg0.N)) (ms0_2 (⟨t0 + 0, hn⟩ : Fin cfg0.N)) (hs0_2 (⟨t0 + 0, hn⟩ : Fin cfg0.N)) (ms0_3 (⟨t0 + 0, hn⟩ : Fin cfg0.N)) (hs0_3 (⟨t0 + 0, hn⟩ : Fin cfg0.N)) scM0_0 (Memref.isWhole_whole _) scM0_1 (Memref.isWhole_whole _) scM0_2 (Memref.isWhole_whole _) ((hcond0_0 (⟨t0 + 0, hn⟩ : Fin cfg0.N)).mpr h0) (fun hh => h1 ((hcond0_1 (⟨t0 + 0, hn⟩ : Fin cfg0.N)).mp hh)) (qBlk m c (⟨t0 + 0, hn⟩ : Fin cfg0.N)) (kBlk m c (⟨t0 + 0, hn⟩ : Fin cfg0.N)) (vBlk m c (⟨t0 + 0, hn⟩ : Fin cfg0.N))
  have kL := sumA c (grid0.coords (⟨t0 + 0, hn⟩ : Fin cfg0.N)) (ms0_0 (⟨t0 + 0, hn⟩ : Fin cfg0.N)) (hs0_0 (⟨t0 + 0, hn⟩ : Fin cfg0.N)) (ms0_1 (⟨t0 + 0, hn⟩ : Fin cfg0.N)) (hs0_1 (⟨t0 + 0, hn⟩ : Fin cfg0.N)) (ms0_2 (⟨t0 + 0, hn⟩ : Fin cfg0.N)) (hs0_2 (⟨t0 + 0, hn⟩ : Fin cfg0.N)) (ms0_3 (⟨t0 + 0, hn⟩ : Fin cfg0.N)) (hs0_3 (⟨t0 + 0, hn⟩ : Fin cfg0.N)) scM0_0 (Memref.isWhole_whole _) scM0_1 (Memref.isWhole_whole _) scM0_2 (Memref.isWhole_whole _) ((hcond0_0 (⟨t0 + 0, hn⟩ : Fin cfg0.N)).mpr h0) (fun hh => h1 ((hcond0_1 (⟨t0 + 0, hn⟩ : Fin cfg0.N)).mp hh)) (qBlk m c (⟨t0 + 0, hn⟩ : Fin cfg0.N)) (kBlk m c (⟨t0 + 0, hn⟩ : Fin cfg0.N)) (vBlk m c (⟨t0 + 0, hn⟩ : Fin cfg0.N))
  have kA := accA c (grid0.coords (⟨t0 + 0, hn⟩ : Fin cfg0.N)) (ms0_0 (⟨t0 + 0, hn⟩ : Fin cfg0.N)) (hs0_0 (⟨t0 + 0, hn⟩ : Fin cfg0.N)) (ms0_1 (⟨t0 + 0, hn⟩ : Fin cfg0.N)) (hs0_1 (⟨t0 + 0, hn⟩ : Fin cfg0.N)) (ms0_2 (⟨t0 + 0, hn⟩ : Fin cfg0.N)) (hs0_2 (⟨t0 + 0, hn⟩ : Fin cfg0.N)) (ms0_3 (⟨t0 + 0, hn⟩ : Fin cfg0.N)) (hs0_3 (⟨t0 + 0, hn⟩ : Fin cfg0.N)) scM0_0 (Memref.isWhole_whole _) scM0_1 (Memref.isWhole_whole _) scM0_2 (Memref.isWhole_whole _) ((hcond0_0 (⟨t0 + 0, hn⟩ : Fin cfg0.N)).mpr h0) (fun hh => h1 ((hcond0_1 (⟨t0 + 0, hn⟩ : Fin cfg0.N)).mp hh)) (qBlk m c (⟨t0 + 0, hn⟩ : Fin cfg0.N)) (kBlk m c (⟨t0 + 0, hn⟩ : Fin cfg0.N)) (vBlk m c (⟨t0 + 0, hn⟩ : Fin cfg0.N)) (ix3 h p d)
  refine ⟨?_, ?_, ?_⟩
  · rw [eM, kM]
    exact step_max (qBlk m c (⟨t0 + 0, hn⟩ : Fin cfg0.N)) (kBlk m c (⟨t0 + 0, hn⟩ : Fin cfg0.N)) (k0_pay8 (F := Ideal)) (sRow m c t0 p h) (0) p h (resetMax_apply _) hs
  · rw [eL, kL]
    exact step_sum (qBlk m c (⟨t0 + 0, hn⟩ : Fin cfg0.N)) (kBlk m c (⟨t0 + 0, hn⟩ : Fin cfg0.N)) (k0_pay8 (F := Ideal)) (k0_pay9 (F := Ideal)) (sRow m c t0 p h) (0) p h (resetMax_apply _) (resetSum_apply _) hs
  · rw [eA, kA]
    exact step_acc (qBlk m c (⟨t0 + 0, hn⟩ : Fin cfg0.N)) (kBlk m c (⟨t0 + 0, hn⟩ : Fin cfg0.N)) (vBlk m c (⟨t0 + 0, hn⟩ : Fin cfg0.N)) (k0_pay8 (F := Ideal)) (k0_pay10 (F := Ideal)) (sRow m c t0 p h) (vRow m c t0 h) (0) p h d (resetMax_apply _) (resetAcc_apply _) hs hx

/-- One more point: the running values after one more key block. -/
theorem carried_succ (t0 : ℕ) (ht0 : t0 % 64 = 0) (p : Fin 256) (h : Fin 16) (d : Fin 1024) (k : ℕ) (hk : k + 1 < 64)
    (hn : t0 + (k + 1) < cfg0.N)
    (ih : ∀ hn : t0 + k < cfg0.N, (outsAt0 (F := Ideal) m c (t0 + k) hn).2.1 (ix2 p h) = runMax (sRow m c t0 p h) (k + 1)
        ∧ (outsAt0 (F := Ideal) m c (t0 + k) hn).2.2.1 (ix2 p h) = runSum (sRow m c t0 p h) (k + 1)
        ∧ (outsAt0 (F := Ideal) m c (t0 + k) hn).2.2.2 (ix3 h p d) = runAcc (sRow m c t0 p h) (vRow m c t0 h) d (k + 1)) :
    (outsAt0 (F := Ideal) m c (t0 + (k + 1)) hn).2.1 (ix2 p h) = runMax (sRow m c t0 p h) ((k + 1) + 1)
      ∧ (outsAt0 (F := Ideal) m c (t0 + (k + 1)) hn).2.2.1 (ix2 p h) = runSum (sRow m c t0 p h) ((k + 1) + 1)
      ∧ (outsAt0 (F := Ideal) m c (t0 + (k + 1)) hn).2.2.2 (ix3 h p d) = runAcc (sRow m c t0 p h) (vRow m c t0 h) d ((k + 1) + 1) := by
  have hN : cfg0.N = 256 := N_0
  have hnk : t0 + k < cfg0.N := by omega
  obtain ⟨ihM, ihL, ihA⟩ := ih hnk
  have h0 : ¬(⟨t0 + (k + 1), hn⟩ : Fin cfg0.N).val % 64 = 0 := by show ¬(t0 + (k + 1)) % 64 = 0; omega
  have hs : ∀ j, k0_pay12 (F := Ideal) (qBlk m c (⟨t0 + (k + 1), hn⟩ : Fin cfg0.N)) (kBlk m c (⟨t0 + (k + 1), hn⟩ : Fin cfg0.N)) (ix3 p h j) = sRow m c t0 p h (k + 1) j := fun j => by
    unfold sRow; rw [dif_pos hn]
  have hx : ∀ j, vBlk m c (⟨t0 + (k + 1), hn⟩ : Fin cfg0.N) (ix3 h j d) = vRow m c t0 h (k + 1) j d := fun j => by
    unfold vRow; rw [dif_pos hn]
  have hp : outsAt0 (F := Ideal) m c ((⟨t0 + (k + 1), hn⟩ : Fin cfg0.N).val - 1) (Nat.lt_of_le_of_lt (Nat.sub_le _ _) (⟨t0 + (k + 1), hn⟩ : Fin cfg0.N).isLt)
      = outsAt0 (F := Ideal) m c (t0 + k) hnk :=
    outsAt0_congr m c _ _ (by show t0 + (k + 1) - 1 = t0 + k; omega) _ _
  generalize hP : outsAt0 (F := Ideal) m c (t0 + k) hnk = P at hp ihM ihL ihA
  by_cases h1 : (⟨t0 + (k + 1), hn⟩ : Fin cfg0.N).val % 64 = 63
  · have e := outs_C m c (⟨t0 + (k + 1), hn⟩ : Fin cfg0.N) h0 h1
    rw [hp] at e
    have eM := congrArg (fun z => z.2.1) e
    have eL := congrArg (fun z => z.2.2.1) e
    have eA := congrArg (fun z => z.2.2.2) e
    dsimp only at eM eL eA
    have kM := maxC c (grid0.coords (⟨t0 + (k + 1), hn⟩ : Fin cfg0.N)) (ms0_0 (⟨t0 + (k + 1), hn⟩ : Fin cfg0.N)) (hs0_0 (⟨t0 + (k + 1), hn⟩ : Fin cfg0.N)) (ms0_1 (⟨t0 + (k + 1), hn⟩ : Fin cfg0.N)) (hs0_1 (⟨t0 + (k + 1), hn⟩ : Fin cfg0.N)) (ms0_2 (⟨t0 + (k + 1), hn⟩ : Fin cfg0.N)) (hs0_2 (⟨t0 + (k + 1), hn⟩ : Fin cfg0.N)) (ms0_3 (⟨t0 + (k + 1), hn⟩ : Fin cfg0.N)) (hs0_3 (⟨t0 + (k + 1), hn⟩ : Fin cfg0.N)) scM0_0 (Memref.isWhole_whole _) scM0_1 (Memref.isWhole_whole _) scM0_2 (Memref.isWhole_whole _) (fun hh => h0 ((hcond0_0 (⟨t0 + (k + 1), hn⟩ : Fin cfg0.N)).mp hh)) ((hcond0_1 (⟨t0 + (k + 1), hn⟩ : Fin cfg0.N)).mpr h1) (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.1 P.2.2.2
    have kL := sumC c (grid0.coords (⟨t0 + (k + 1), hn⟩ : Fin cfg0.N)) (ms0_0 (⟨t0 + (k + 1), hn⟩ : Fin cfg0.N)) (hs0_0 (⟨t0 + (k + 1), hn⟩ : Fin cfg0.N)) (ms0_1 (⟨t0 + (k + 1), hn⟩ : Fin cfg0.N)) (hs0_1 (⟨t0 + (k + 1), hn⟩ : Fin cfg0.N)) (ms0_2 (⟨t0 + (k + 1), hn⟩ : Fin cfg0.N)) (hs0_2 (⟨t0 + (k + 1), hn⟩ : Fin cfg0.N)) (ms0_3 (⟨t0 + (k + 1), hn⟩ : Fin cfg0.N)) (hs0_3 (⟨t0 + (k + 1), hn⟩ : Fin cfg0.N)) scM0_0 (Memref.isWhole_whole _) scM0_1 (Memref.isWhole_whole _) scM0_2 (Memref.isWhole_whole _) (fun hh => h0 ((hcond0_0 (⟨t0 + (k + 1), hn⟩ : Fin cfg0.N)).mp hh)) ((hcond0_1 (⟨t0 + (k + 1), hn⟩ : Fin cfg0.N)).mpr h1) (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.1 P.2.2.2
    have kA := accC c (grid0.coords (⟨t0 + (k + 1), hn⟩ : Fin cfg0.N)) (ms0_0 (⟨t0 + (k + 1), hn⟩ : Fin cfg0.N)) (hs0_0 (⟨t0 + (k + 1), hn⟩ : Fin cfg0.N)) (ms0_1 (⟨t0 + (k + 1), hn⟩ : Fin cfg0.N)) (hs0_1 (⟨t0 + (k + 1), hn⟩ : Fin cfg0.N)) (ms0_2 (⟨t0 + (k + 1), hn⟩ : Fin cfg0.N)) (hs0_2 (⟨t0 + (k + 1), hn⟩ : Fin cfg0.N)) (ms0_3 (⟨t0 + (k + 1), hn⟩ : Fin cfg0.N)) (hs0_3 (⟨t0 + (k + 1), hn⟩ : Fin cfg0.N)) scM0_0 (Memref.isWhole_whole _) scM0_1 (Memref.isWhole_whole _) scM0_2 (Memref.isWhole_whole _) (fun hh => h0 ((hcond0_0 (⟨t0 + (k + 1), hn⟩ : Fin cfg0.N)).mp hh)) ((hcond0_1 (⟨t0 + (k + 1), hn⟩ : Fin cfg0.N)).mpr h1) (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.1 P.2.2.2 (ix3 h p d)
    refine ⟨?_, ?_, ?_⟩
    · rw [eM, kM]
      exact step_max (qBlk m c (⟨t0 + (k + 1), hn⟩ : Fin cfg0.N)) (kBlk m c (⟨t0 + (k + 1), hn⟩ : Fin cfg0.N)) P.2.1 (sRow m c t0 p h) (k + 1) p h ihM hs
    · rw [eL, kL]
      exact step_sum (qBlk m c (⟨t0 + (k + 1), hn⟩ : Fin cfg0.N)) (kBlk m c (⟨t0 + (k + 1), hn⟩ : Fin cfg0.N)) P.2.1 P.2.2.1 (sRow m c t0 p h) (k + 1) p h ihM ihL hs
    · rw [eA, kA]
      exact step_acc (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.2 (sRow m c t0 p h) (vRow m c t0 h) (k + 1) p h d ihM ihA hs hx
  · have e := outs_B m c (⟨t0 + (k + 1), hn⟩ : Fin cfg0.N) h0 h1
    rw [hp] at e
    have eM := congrArg (fun z => z.2.1) e
    have eL := congrArg (fun z => z.2.2.1) e
    have eA := congrArg (fun z => z.2.2.2) e
    dsimp only at eM eL eA
    have kM := maxB c (grid0.coords (⟨t0 + (k + 1), hn⟩ : Fin cfg0.N)) (ms0_0 (⟨t0 + (k + 1), hn⟩ : Fin cfg0.N)) (hs0_0 (⟨t0 + (k + 1), hn⟩ : Fin cfg0.N)) (ms0_1 (⟨t0 + (k + 1), hn⟩ : Fin cfg0.N)) (hs0_1 (⟨t0 + (k + 1), hn⟩ : Fin cfg0.N)) (ms0_2 (⟨t0 + (k + 1), hn⟩ : Fin cfg0.N)) (hs0_2 (⟨t0 + (k + 1), hn⟩ : Fin cfg0.N)) (ms0_3 (⟨t0 + (k + 1), hn⟩ : Fin cfg0.N)) (hs0_3 (⟨t0 + (k + 1), hn⟩ : Fin cfg0.N)) scM0_0 (Memref.isWhole_whole _) scM0_1 (Memref.isWhole_whole _) scM0_2 (Memref.isWhole_whole _) (fun hh => h0 ((hcond0_0 (⟨t0 + (k + 1), hn⟩ : Fin cfg0.N)).mp hh)) (fun hh => h1 ((hcond0_1 (⟨t0 + (k + 1), hn⟩ : Fin cfg0.N)).mp hh)) (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.1 P.2.2.2
    have kL := sumB c (grid0.coords (⟨t0 + (k + 1), hn⟩ : Fin cfg0.N)) (ms0_0 (⟨t0 + (k + 1), hn⟩ : Fin cfg0.N)) (hs0_0 (⟨t0 + (k + 1), hn⟩ : Fin cfg0.N)) (ms0_1 (⟨t0 + (k + 1), hn⟩ : Fin cfg0.N)) (hs0_1 (⟨t0 + (k + 1), hn⟩ : Fin cfg0.N)) (ms0_2 (⟨t0 + (k + 1), hn⟩ : Fin cfg0.N)) (hs0_2 (⟨t0 + (k + 1), hn⟩ : Fin cfg0.N)) (ms0_3 (⟨t0 + (k + 1), hn⟩ : Fin cfg0.N)) (hs0_3 (⟨t0 + (k + 1), hn⟩ : Fin cfg0.N)) scM0_0 (Memref.isWhole_whole _) scM0_1 (Memref.isWhole_whole _) scM0_2 (Memref.isWhole_whole _) (fun hh => h0 ((hcond0_0 (⟨t0 + (k + 1), hn⟩ : Fin cfg0.N)).mp hh)) (fun hh => h1 ((hcond0_1 (⟨t0 + (k + 1), hn⟩ : Fin cfg0.N)).mp hh)) (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.1 P.2.2.2
    have kA := accB c (grid0.coords (⟨t0 + (k + 1), hn⟩ : Fin cfg0.N)) (ms0_0 (⟨t0 + (k + 1), hn⟩ : Fin cfg0.N)) (hs0_0 (⟨t0 + (k + 1), hn⟩ : Fin cfg0.N)) (ms0_1 (⟨t0 + (k + 1), hn⟩ : Fin cfg0.N)) (hs0_1 (⟨t0 + (k + 1), hn⟩ : Fin cfg0.N)) (ms0_2 (⟨t0 + (k + 1), hn⟩ : Fin cfg0.N)) (hs0_2 (⟨t0 + (k + 1), hn⟩ : Fin cfg0.N)) (ms0_3 (⟨t0 + (k + 1), hn⟩ : Fin cfg0.N)) (hs0_3 (⟨t0 + (k + 1), hn⟩ : Fin cfg0.N)) scM0_0 (Memref.isWhole_whole _) scM0_1 (Memref.isWhole_whole _) scM0_2 (Memref.isWhole_whole _) (fun hh => h0 ((hcond0_0 (⟨t0 + (k + 1), hn⟩ : Fin cfg0.N)).mp hh)) (fun hh => h1 ((hcond0_1 (⟨t0 + (k + 1), hn⟩ : Fin cfg0.N)).mp hh)) (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.1 P.2.2.2 (ix3 h p d)
    refine ⟨?_, ?_, ?_⟩
    · rw [eM, kM]
      exact step_max (qBlk m c (⟨t0 + (k + 1), hn⟩ : Fin cfg0.N)) (kBlk m c (⟨t0 + (k + 1), hn⟩ : Fin cfg0.N)) P.2.1 (sRow m c t0 p h) (k + 1) p h ihM hs
    · rw [eL, kL]
      exact step_sum (qBlk m c (⟨t0 + (k + 1), hn⟩ : Fin cfg0.N)) (kBlk m c (⟨t0 + (k + 1), hn⟩ : Fin cfg0.N)) P.2.1 P.2.2.1 (sRow m c t0 p h) (k + 1) p h ihM ihL hs
    · rw [eA, kA]
      exact step_acc (qBlk m c (⟨t0 + (k + 1), hn⟩ : Fin cfg0.N)) (kBlk m c (⟨t0 + (k + 1), hn⟩ : Fin cfg0.N)) (vBlk m c (⟨t0 + (k + 1), hn⟩ : Fin cfg0.N)) P.2.1 P.2.2.2 (sRow m c t0 p h) (vRow m c t0 h) (k + 1) p h d ihM ihA hs hx

/-- After the point `t0 + k` of the row block that starts at `t0`: the running values after k + 1 key blocks. -/
theorem carried (t0 : ℕ) (ht0 : t0 % 64 = 0) (p : Fin 256) (h : Fin 16) (d : Fin 1024) :
    ∀ (k : ℕ) (hk : k < 64) (hn : t0 + k < cfg0.N),
      (outsAt0 (F := Ideal) m c (t0 + k) hn).2.1 (ix2 p h) = runMax (sRow m c t0 p h) (k + 1)
      ∧ (outsAt0 (F := Ideal) m c (t0 + k) hn).2.2.1 (ix2 p h) = runSum (sRow m c t0 p h) (k + 1)
      ∧ (outsAt0 (F := Ideal) m c (t0 + k) hn).2.2.2 (ix3 h p d) = runAcc (sRow m c t0 p h) (vRow m c t0 h) d (k + 1) := by
  intro k
  induction k with
  | zero => exact fun _ hn => carried_zero m c t0 ht0 p h d hn
  | succ k ih => exact fun hk hn => carried_succ m c t0 ht0 p h d k hk hn (fun hn' => ih (by omega) hn')

end Cert.Hopfield.Carry

end
-- ==== Proof.Spec.lean ====
/-
  The associative-memory read-out, as one function of the three argument arrays.

  The key table and the value table hold 65536 = 4096 · 16 rows: row `n · 16 + h` belongs to key `n` of head `h`.
  For a query row `b` and a head `h` the score of key `n` is the dot product of the query row with that key row, times 1/4
  (the inverse temperature 8 over the square root 32 of the row length). The head's output at column `d` is the
  softmax over the 4096 keys of those scores, weighted sum of the head's value rows at `d`; the result is the sum of the
  sixteen heads' outputs.
-/
import Idealize.ShloMosaic.PureOps.Ideal
import Idealize.ShloMosaic.Lib.ValueIdx
import proofs.«165716_j46926812676317_2_alg».proof.Proof.LibRowSoftmax

noncomputable section

open scoped BigOperators

namespace Cert.Hopfield

open Idealize.ShloMosaic Idealize.ShloMosaic.ValueIdx Cert.RowSoftmax

/-- The query array and the result: 1024 rows of 1024 entries. -/
abbrev SQ : Shape := ⟨2, ![1024, 1024]⟩
/-- The key table and the value table: 65536 rows of 1024 entries. -/
abbrev ST : Shape := ⟨2, ![65536, 1024]⟩

/-- The table row of key `n` of head `h`. -/
def flatRow (n : Fin 4096) (h : Fin 16) : Fin 65536 := ⟨n.val * 16 + h.val, by omega⟩

theorem flatRow_val (n : Fin 4096) (h : Fin 16) : (flatRow n h).val = n.val * 16 + h.val := rfl

/-- The scaled score of query row `b` against key `n` of head `h`. -/
def score (X : SQ.Idx → EReal) (K : ST.Idx → EReal) (b : Fin 1024) (h : Fin 16) (n : Fin 4096) : EReal :=
  (∑ e : Fin 1024, X (ix2 b e) * K (ix2 (flatRow n h) e)) * Ideal.ofBits .f32 0x3E800000#32

/-- Head `h`'s output for query row `b` at column `d`: the softmax-weighted sum of the head's value rows. -/
def headOut (X : SQ.Idx → EReal) (K V : ST.Idx → EReal) (b : Fin 1024) (h : Fin 16) (d : Fin 1024) : EReal :=
  ∑ n : Fin 4096, rowSoftmax (score X K b h) n * V (ix2 (flatRow n h) d)

/-- The read-out: the sum of the sixteen heads' outputs. -/
def readout (X : SQ.Idx → EReal) (K V : ST.Idx → EReal) : SQ.Idx → EReal :=
  fun y => ∑ h : Fin 16, headOut X K V (y 0) h (y 1)

theorem readout_ix2 (X : SQ.Idx → EReal) (K V : ST.Idx → EReal) (b d : Fin 1024) :
    readout X K V (ix2 b d) = ∑ h : Fin 16, headOut X K V b h d := rfl

end Cert.Hopfield

end
-- ==== Proof.Law.lean ====
/-
  The law that joins the two sides, for one query row and one head.

  Met in 64 blocks of 64 keys, the running weighted sum times the reciprocal of the running sum is the softmax-weighted
  sum of the 4096 value rows — for REAL scores and value rows: the running sum is then a positive real, so multiplying by
  its reciprocal is dividing by it, and the running recursion telescopes (exp a · exp b = exp (a + b) on the reals).
  Also here: the sixteen heads' terms added up from zero in head order are their sum, and the two float words 1 and 1/4.
-/
import proofs.«165716_j46926812676317_2_alg».proof.Proof.Spec
import proofs.«165716_j46926812676317_2_alg».proof.Proof.LibOnlineSoftmax
import proofs.«165716_j46926812676317_2_alg».proof.Proof.LibRealEntries

noncomputable section

open scoped BigOperators

namespace Cert.Hopfield.Law

open Idealize.ShloMosaic Cert.Online Cert.RowSoftmax Cert.LibRealEntries

/-- The f32 pattern `0x3F800000` denotes 1. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- The f32 pattern `0x3E800000` denotes the real 1/4. -/
theorem isReal_quarter : IsReal (Ideal.ofBits .f32 0x3E800000#32) :=
  ⟨1 / 4, by simp [Ideal.ofBits, Ideal.ieee, -EReal.coe_mul]; norm_num⟩

/-- After at least one block of real scores the running sum is a nonzero real: a sum of exponentials. -/
theorem runSum_ne_zero {B : ℕ} (s : ℕ → Fin B → EReal) (hs : ∀ k j, IsReal (s k j)) (hB : 0 < B) (n : ℕ) (hn : 0 < n) :
    ∃ L : ℝ, L ≠ 0 ∧ runSum s n = (L : EReal) := by
  choose σ hσ using hs
  obtain ⟨μ, hμ⟩ := isReal_runMax s σ hσ hB n hn
  refine ⟨∑ k ∈ Finset.range n, ∑ j : Fin B, Real.exp (σ k j - μ), ?_, ?_⟩
  · exact (Finset.sum_pos (fun k _ => Finset.sum_pos (fun j _ => Real.exp_pos _) ⟨⟨0, hB⟩, Finset.mem_univ _⟩)
      ⟨0, Finset.mem_range.mpr hn⟩).ne'
  · rw [runSum_real s σ hσ hB n, hμ]
    simp only [hσ, ← EReal.coe_sub, Ideal.exp_coe, ← coe_sum]

/-- Multiplying by the reciprocal of a nonzero real is dividing by it, whatever is multiplied. -/
theorem mul_recip (a L : EReal) (Lr : ℝ) (h0 : Lr ≠ 0) (hL : L = (Lr : EReal)) : a * Ideal.div 1 L = Ideal.div a L := by
  subst hL
  rw [Ideal.div_coe h0, Ideal.div_coe h0, one_mul]

/-- One head: the running weighted sum after 64 blocks times the reciprocal of the running sum is the softmax-weighted
    sum of the value rows. -/
theorem head_law (r : Fin 4096 → EReal) (X : Fin 4096 → Fin 1024 → EReal) (hr : ∀ J, IsReal (r J)) (hX : ∀ J c, IsReal (X J c))
    (s : ℕ → Fin 64 → EReal) (x : ℕ → Fin 64 → Fin 1024 → EReal) (hsr : ∀ k j, IsReal (s k j))
    (hs : ∀ k (hk : k < 64) (j : Fin 64), s k j = r ⟨k * 64 + j.val, by have := j.isLt; omega⟩)
    (hx : ∀ k (hk : k < 64) (j : Fin 64) c, x k j c = X ⟨k * 64 + j.val, by have := j.isLt; omega⟩ c) (d : Fin 1024) :
    runAcc s x d 64 * Ideal.div (Ideal.ofBits .f32 0x3F800000#32) (runSum s 64) = ∑ J : Fin 4096, rowSoftmax r J * X J d := by
  obtain ⟨L, h0, hL⟩ := runSum_ne_zero s hsr (by norm_num) 64 (by norm_num)
  rw [ofBits_one, mul_recip _ _ L h0 hL]
  exact online_eq_softmax 64 4096 (by norm_num) (by norm_num) (by norm_num) r X hr hX s x hs hx d

/-- Sixteen terms added up from zero, one after the other, are their sum. -/
theorem sum16 (f : Fin 16 → EReal) :
    ((((((((((((((((0 + f 0) + f 1) + f 2) + f 3) + f 4) + f 5) + f 6) + f 7) + f 8) + f 9) + f 10) + f 11) + f 12) + f 13) + f 14) + f 15)
      = ∑ h : Fin 16, f h := by
  simp only [Fin.sum_univ_castSucc, Fin.sum_univ_zero]
  rfl

end Cert.Hopfield.Law

end
-- ==== Proof.HostPrefix.lean ====
/-
  What the region finds in its three operand arrays: the arguments, re-indexed.

  Before its one region the program casts each table of 65536 = 4096 · 16 rows to [4096, 16, 1024] (row n · 16 + h
  becomes (n, h)), exchanges the first two axes to [16, 4096, 1024], and changes the float format; it changes the format
  of the query array too. At the ideal values a change of float format is the identity, so the region's key array holds
  at (h, n, e) the key table's row n · 16 + h at e, its value array the value table's likewise, and its query array is
  the query argument.
-/
import proofs.«165716_j46926812676317_2_alg».proof.Proof.Gen.KernelIdeal.Frame
import proofs.«165716_j46926812676317_2_alg».proof.Proof.Spec
import Idealize.ShloMosaic.Lib.StableHlo.Run
import Idealize.ShloMosaic.Lib.Pipeline.Value
import Idealize.ShloMosaic.Lib.ValueIdx

noncomputable section

namespace Cert.Hopfield.HostPrefix

open Cert.KernelIdeal Cert.KernelIdeal.Gen Idealize.ShloMosaic Idealize.ShloMosaic.TcCoe Idealize.ShloMosaic.ValueIdx
open Idealize.ShloMosaic.StableHlo Idealize.SL.Sem

/-- A table of 65536 rows cast to [4096, 16, 1024] and then transposed to [16, 4096, 1024] holds at (h, n, e) the
    table's row n · 16 + h at e: the transpose reads (n, h, e), whose row-major position (n · 16 + h) · 1024 + e is that
    of (n · 16 + h, e) in the table. -/
theorem headRows_apply (x : S65536x1024.Idx → EReal) (hc : S65536x1024.ShapeCasts S4096x16x1024)
    (ht : S4096x16x1024.Transposes [1, 0, 2] S16x4096x1024) (h : Fin 16) (n : Fin 4096) (e : Fin 1024) :
    transpose S16x4096x1024 [1, 0, 2] (shapeCast S4096x16x1024 x hc) ht (ix3 h n e) = x (ix2 (flatRow n h) e) := by
  refine (transpose_apply [1, 0, 2] _ ht (ix3 h n e) (ix3 n h e) (fun b => ?_)).trans ?_
  · match b with
    | ⟨0, _⟩ => rfl
    | ⟨1, _⟩ => rfl
    | ⟨2, _⟩ => rfl
  · refine shapeCast_apply x hc (ix3 n h e) (ix2 (flatRow n h) e) ?_
    rw [Shape.rowMajor_val_two, Shape.rowMajor_val_three]
    rfl

variable (m : (ℓ : Loc nD τ sig) → Buf (Elt Ideal) ℓ) (c : Dev nD)

/-- The region's query array is the query argument. -/
theorem queries_apply (b e : Fin 1024) :
    (V (F := Ideal) m c main_v6 : S1024x1024.Idx → EReal) (ix2 b e)
      = (m ((c : Thread nD τ).loc main_arg0) : S1024x1024.Idx → EReal) (ix2 b e) := by
  have ev : @Eq (S1024x1024.Idx → EReal) (V (F := Ideal) m c main_v6)
      (truncf (F := Ideal) .bf16 (m ((c : Thread nD τ).loc main_arg0) : FVec Ideal S1024x1024 .f32) bitsLt_bf16_f32) := by
    dsimp only [Gen.V, Gen.hostOps0]; after_results
  rw [ev]
  rfl

/-- The region's key array at (h, n, e) is the key table's row n · 16 + h at e. -/
theorem keys_apply (h : Fin 16) (n : Fin 4096) (e : Fin 1024) :
    (V (F := Ideal) m c main_v2 : S16x4096x1024.Idx → EReal) (ix3 h n e)
      = (m ((c : Thread nD τ).loc main_arg1) : S65536x1024.Idx → EReal) (ix2 (flatRow n h) e) := by
  have ev : @Eq (S16x4096x1024.Idx → EReal) (V (F := Ideal) m c main_v2)
      (truncf (F := Ideal) .bf16 (transpose S16x4096x1024 [1, 0, 2]
          (shapeCast S4096x16x1024 (m ((c : Thread nD τ).loc main_arg1) : FVec Ideal S65536x1024 .f32) shapeCasts_S65536x1024_S4096x16x1024)
          transposes_S4096x16x1024_S16x4096x1024_1_0_2) bitsLt_bf16_f32) := by
    dsimp only [Gen.V, Gen.hostOps0]; after_results; rfl
  rw [ev]
  exact headRows_apply _ _ _ h n e

/-- The region's value array at (h, n, e) is the value table's row n · 16 + h at e. -/
theorem values_apply (h : Fin 16) (n : Fin 4096) (e : Fin 1024) :
    (V (F := Ideal) m c main_v5 : S16x4096x1024.Idx → EReal) (ix3 h n e)
      = (m ((c : Thread nD τ).loc main_arg2) : S65536x1024.Idx → EReal) (ix2 (flatRow n h) e) := by
  have ev : @Eq (S16x4096x1024.Idx → EReal) (V (F := Ideal) m c main_v5)
      (truncf (F := Ideal) .bf16 (transpose S16x4096x1024 [1, 0, 2]
          (shapeCast S4096x16x1024 (m ((c : Thread nD τ).loc main_arg2) : FVec Ideal S65536x1024 .f32) shapeCasts_S65536x1024_S4096x16x1024)
          transposes_S4096x16x1024_S16x4096x1024_1_0_2) bitsLt_bf16_f32) := by
    dsimp only [Gen.V, Gen.hostOps0]; after_results; rfl
  rw [ev]
  exact headRows_apply _ _ _ h n e

end Cert.Hopfield.HostPrefix

end
-- ==== Proof.BlockReads.lean ====
/-
  What the three input windows' blocks hold, entry by entry.

  The grid has 256 = 4 · 64 points: point t works on row block t / 64 of the queries and key block t % 64. The query
  window's block at point t is rows (t / 64) · 256 … + 255 of the query array, all 1024 columns; the key window's and the
  value window's blocks are, for all 16 heads, keys (t % 64) · 64 … + 63 of the head-major key and value arrays, all
  1024 columns. A block's coordinate in its array is always the block's index times the block's size plus the
  coordinate inside the block. The arrays the region finds are the arguments re-indexed, so the query block holds at
  (p, e) the query argument at ((t / 64) · 256 + p, e), and the key and value blocks hold at (h, j, e) the tables' row
  n · 16 + h at e for the key n = (t % 64) · 64 + j.
-/
import proofs.«165716_j46926812676317_2_alg».proof.Proof.Gen.KernelIdeal.Frame
import proofs.«165716_j46926812676317_2_alg».proof.Proof.HostPrefix
import proofs.«165716_j46926812676317_2_alg».proof.Proof.Spec
import Idealize.ShloMosaic.Lib.Pipeline.Value
import Idealize.ShloMosaic.Lib.ValueIdx

noncomputable section

namespace Cert.Hopfield.BlockReads

open Cert.KernelIdeal Cert.KernelIdeal.Gen Idealize.ShloMosaic Idealize.ShloMosaic.TcCoe Idealize.ShloMosaic.ValueIdx
open Idealize.SL.Sem

/-- The query window's block index at point `t`, decided over the grid: row block `t / 64`, column block 0. -/
theorem idx_facts0 : ∀ t : Fin cfg0.N, win0_0.index t (0 : Fin 2) = t.val / 64 ∧ win0_0.index t (1 : Fin 2) = 0 :=
  (by decide +kernel : ∀ t : Fin grid0.N, _)

/-- The key window's block index at point `t`, decided over the grid: all heads, key block `t % 64`, column block 0. -/
theorem idx_facts1 : ∀ t : Fin cfg0.N, win0_1.index t (0 : Fin 3) = 0 ∧ win0_1.index t (1 : Fin 3) = t.val % 64
    ∧ win0_1.index t (2 : Fin 3) = 0 :=
  (by decide +kernel : ∀ t : Fin grid0.N, _)

/-- The value window's block index at point `t`, decided over the grid: all heads, key block `t % 64`, column block 0. -/
theorem idx_facts2 : ∀ t : Fin cfg0.N, win0_2.index t (0 : Fin 3) = 0 ∧ win0_2.index t (1 : Fin 3) = t.val % 64
    ∧ win0_2.index t (2 : Fin 3) = 0 :=
  (by decide +kernel : ∀ t : Fin grid0.N, _)

variable (m : (ℓ : Loc nD τ sig) → Buf (Elt Ideal) ℓ) (c : Dev nD) (t : Fin cfg0.N)

/-- The query block at point `t` holds at (p, e) the query argument at row `(t / 64) · 256 + p`, column `e`. -/
theorem queryBlock_apply (p : Fin 256) (e : Fin 1024) (b : Fin 1024) (hb : b.val = (t.val / 64) * 256 + p.val) :
    (iblk (F := Ideal) m c 0 t : S256x1024.Idx → EReal) (ix2 p e)
      = (m ((c : Thread nD τ).loc main_arg0) : S1024x1024.Idx → EReal) (ix2 b e) := by
  obtain ⟨e0, e1⟩ := idx_facts0 t
  refine Eq.trans ?_ (Cert.Hopfield.HostPrefix.queries_apply m c b e)
  unfold iblk
  show V (F := Ideal) m c main_v6 (((cfg0.win 0).blk t).view.emb (ix2 p e)) = V (F := Ideal) m c main_v6 (ix2 b e)
  refine congrArg _ (funext fun a => Fin.ext ?_)
  match a with
  | ⟨0, _⟩ => show win0_0.index t (0 : Fin 2) * 256 + 1 * p.val = b.val; rw [e0]; omega
  | ⟨1, _⟩ => show win0_0.index t (1 : Fin 2) * 1024 + 1 * e.val = e.val; rw [e1]; omega

/-- The key block at point `t` holds at (h, j, e) the key table's row `n · 16 + h` at `e`, for the key
    `n = (t % 64) · 64 + j`. -/
theorem keyBlock_apply (h : Fin 16) (j : Fin 64) (e : Fin 1024) (n : Fin 4096) (hn : n.val = (t.val % 64) * 64 + j.val) :
    (iblk (F := Ideal) m c 1 t : S16x64x1024.Idx → EReal) (ix3 h j e)
      = (m ((c : Thread nD τ).loc main_arg1) : S65536x1024.Idx → EReal) (ix2 (Cert.Hopfield.flatRow n h) e) := by
  obtain ⟨e0, e1, e2⟩ := idx_facts1 t
  refine Eq.trans ?_ (Cert.Hopfield.HostPrefix.keys_apply m c h n e)
  unfold iblk
  show V (F := Ideal) m c main_v2 (((cfg0.win 1).blk t).view.emb (ix3 h j e)) = V (F := Ideal) m c main_v2 (ix3 h n e)
  refine congrArg _ (funext fun a => Fin.ext ?_)
  match a with
  | ⟨0, _⟩ => show win0_1.index t (0 : Fin 3) * 16 + 1 * h.val = h.val; rw [e0]; omega
  | ⟨1, _⟩ => show win0_1.index t (1 : Fin 3) * 64 + 1 * j.val = n.val; rw [e1]; omega
  | ⟨2, _⟩ => show win0_1.index t (2 : Fin 3) * 1024 + 1 * e.val = e.val; rw [e2]; omega

/-- The value block at point `t` holds at (h, j, e) the value table's row `n · 16 + h` at `e`, for the key
    `n = (t % 64) · 64 + j`. -/
theorem valueBlock_apply (h : Fin 16) (j : Fin 64) (e : Fin 1024) (n : Fin 4096) (hn : n.val = (t.val % 64) * 64 + j.val) :
    (iblk (F := Ideal) m c 2 t : S16x64x1024.Idx → EReal) (ix3 h j e)
      = (m ((c : Thread nD τ).loc main_arg2) : S65536x1024.Idx → EReal) (ix2 (Cert.Hopfield.flatRow n h) e) := by
  obtain ⟨e0, e1, e2⟩ := idx_facts2 t
  refine Eq.trans ?_ (Cert.Hopfield.HostPrefix.values_apply m c h n e)
  unfold iblk
  show V (F := Ideal) m c main_v5 (((cfg0.win 2).blk t).view.emb (ix3 h j e)) = V (F := Ideal) m c main_v5 (ix3 h n e)
  refine congrArg _ (funext fun a => Fin.ext ?_)
  match a with
  | ⟨0, _⟩ => show win0_2.index t (0 : Fin 3) * 16 + 1 * h.val = h.val; rw [e0]; omega
  | ⟨1, _⟩ => show win0_2.index t (1 : Fin 3) * 64 + 1 * j.val = n.val; rw [e1]; omega
  | ⟨2, _⟩ => show win0_2.index t (2 : Fin 3) * 1024 + 1 * e.val = e.val; rw [e2]; omega

end Cert.Hopfield.BlockReads

end
-- ==== Proof.BlocksToArray.lean ====
/-
  From what the last point of each row block leaves in the output's staging buffer to the whole result array.

  The grid has 256 = 4 · 64 points: point t works on row block t / 64 (256 rows of the 1024) and key block t % 64. The
  output's staging buffer is written back to rows (t / 64) · 256 … (t / 64) · 256 + 255 of the result, all 1024 columns,
  and only at the last point of each row block, t % 64 = 63. So if at each of those four points the buffer holds the
  corresponding rows of one function G of the result's indices, the result array ends holding G: row r is covered by the
  write-back at point (r / 256) · 64 + 63, and every write-back writes G's values.
-/
import proofs.«165716_j46926812676317_2_alg».proof.Proof.Gen.KernelIdeal.Value
import Idealize.ShloMosaic.Lib.Pipeline.Value
import Idealize.ShloMosaic.Lib.ValueIdx

noncomputable section

namespace Cert.Hopfield.Blocks

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

/-- The output window's block index at point `t`, decided over the grid: row block `t / 64`, column block 0. -/
theorem idx_facts : ∀ t : Fin cfg0.N, win0_3.index t (0 : Fin 2) = t.val / 64 ∧ win0_3.index t (1 : Fin 2) = 0 :=
  (by decide +kernel : ∀ t : Fin grid0.N, _)

/-- An index of the result is in point `t`'s block iff each coordinate is in the block's range on its axis. -/
theorem mem_blk (t : Fin cfg0.N) (i : S1024x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v7).slice (win0_3.rect t)).set ↔ _
  rw [View.set_slice_whole, Rect.mem_set_unit]
  exact Iff.rfl

/-- Every index of the result is in the block of a point that writes back: row `r` in that of the last point of row
    block `r / 256`. -/
theorem cover (i : S1024x1024.Idx) :
    ∃ t : Fin cfg0.N, (cfg0.win 3).flush t = true ∧ i ∈ ((cfg0.win 3).blk t).view.set := by
  have hN : cfg0.N = 256 := N_0
  have hi0 : (i 0).val < 1024 := (i 0).isLt
  have hi1 : (i 1).val < 1024 := (i 1).isLt
  have ht : (i 0).val / 256 * 64 + 63 < cfg0.N := by rw [hN]; omega
  refine ⟨⟨(i 0).val / 256 * 64 + 63, ht⟩, (flush0_3 _).mpr (by show ((i 0).val / 256 * 64 + 63) % 64 = 63; omega), ?_⟩
  obtain ⟨e0, e1⟩ := idx_facts ⟨(i 0).val / 256 * 64 + 63, ht⟩
  rw [mem_blk]
  intro a
  match a with
  | ⟨0, _⟩ =>
    show win0_3.index ⟨(i 0).val / 256 * 64 + 63, ht⟩ (0 : Fin 2) * 256 ≤ (i 0).val ∧ (i 0).val < win0_3.index ⟨(i 0).val / 256 * 64 + 63, ht⟩ (0 : Fin 2) * 256 + 256
    rw [e0]
    show ((i 0).val / 256 * 64 + 63) / 64 * 256 ≤ (i 0).val ∧ (i 0).val < ((i 0).val / 256 * 64 + 63) / 64 * 256 + 256
    omega
  | ⟨1, _⟩ =>
    show win0_3.index ⟨(i 0).val / 256 * 64 + 63, ht⟩ (1 : Fin 2) * 1024 ≤ (i 1).val ∧ (i 1).val < win0_3.index ⟨(i 0).val / 256 * 64 + 63, ht⟩ (1 : Fin 2) * 1024 + 1024
    rw [e1]
    omega

variable (m : (ℓ : Loc nD τ sig) → Buf (Elt Ideal) ℓ) (ρ : Dev nD → PrngReg) (c : Dev nD)

/-- What a point that writes back writes is its block of `G`, when the staging buffer holds there the block's rows of
    `G`: the block's index (p, d) is the result's index ((t / 64) · 256 + p, d). -/
theorem flushed_eq (G : S1024x1024.Idx → EReal)
    (hout : ∀ (t : Fin cfg0.N), t.val % 64 = 63 → ∀ (p : Fin 256) (d : Fin 1024) (r : Fin 1024), r.val = (t.val / 64) * 256 + p.val →
      (outsAt0 (F := Ideal) m c t.val t.isLt).1 (ix2 p d) = G (ix2 r d))
    (t : Fin cfg0.N) (hf : (cfg0.win 3).flush t = true) :
    (dats (F := Ideal) m 0 c).flushed 3 t = ((cfg0.win 3).blk t).view.read (Elt Ideal) G := by
  have hN : cfg0.N = 256 := N_0
  have htN : t.val < 256 := lt_of_lt_of_eq t.isLt hN
  have h63 : t.val % 64 = 63 := (flush0_3 t).mp hf
  obtain ⟨e0, e1⟩ := idx_facts t
  rw [flushed3]
  funext y
  have hy0 : (y 0).val < 256 := (y 0).isLt
  have hy1 : (y 1).val < 1024 := (y 1).isLt
  have hr : t.val / 64 * 256 + (y 0).val < 1024 := by omega
  have hp := hout t h63 ⟨(y 0).val, hy0⟩ ⟨(y 1).val, hy1⟩ ⟨t.val / 64 * 256 + (y 0).val, hr⟩ rfl
  rw [View.read_apply]
  show (outsAt0 (F := Ideal) m c t.val t.isLt).1 ((cfg0.win 3).xinj (grid0.coords t) y) = G (((cfg0.win 3).blk t).view.emb y)
  have ex : (cfg0.win 3).xinj (grid0.coords t) y = ix2 (⟨(y 0).val, hy0⟩ : Fin 256) (⟨(y 1).val, hy1⟩ : Fin 1024) := by
    funext a
    match a with
    | ⟨0, _⟩ => rfl
    | ⟨1, _⟩ => rfl
  have ee : ((cfg0.win 3).blk t).view.emb y = ix2 (⟨t.val / 64 * 256 + (y 0).val, hr⟩ : Fin 1024) (⟨(y 1).val, hy1⟩ : Fin 1024) := by
    funext a
    apply Fin.ext
    match a with
    | ⟨0, _⟩ => show win0_3.index t (0 : Fin 2) * 256 + 1 * (y 0).val = t.val / 64 * 256 + (y 0).val; rw [e0]; omega
    | ⟨1, _⟩ => show win0_3.index t (1 : Fin 2) * 1024 + 1 * (y 1).val = (y 1).val; rw [e1]; omega
  rw [ex, ee]
  exact hp

/-- The result array after the run is `G`, when the staging buffer holds at the last point of each row block that
    block's rows of `G`. -/
theorem final_of (G : S1024x1024.Idx → EReal)
    (hout : ∀ (t : Fin cfg0.N), t.val % 64 = 63 → ∀ (p : Fin 256) (d : Fin 1024) (r : Fin 1024), r.val = (t.val / 64) * 256 + p.val →
      (outsAt0 (F := Ideal) m c t.val t.isLt).1 (ix2 p d) = G (ix2 r d)) :
    (dats (F := Ideal) m 0 c).arrAt 3 cfg0.N = G :=
  (dats (F := Ideal) m 0 c).arrAt_eq_of_cover 3 G (fun t hf => flushed_eq m c G hout t hf) cover

/-- The run, read: the result array at `G`, the arguments unchanged. -/
theorem run_of (G : Dev nD → S1024x1024.Idx → EReal)
    (hout : ∀ (c : Dev nD) (t : Fin cfg0.N), t.val % 64 = 63 → ∀ (p : Fin 256) (d : Fin 1024) (r : Fin 1024), r.val = (t.val / 64) * 256 + p.val →
      (outsAt0 (F := Ideal) m c t.val t.isLt).1 (ix2 p d) = G c (ix2 r d)) :
    θ_run defs (onTc (τ := τ) (main (F := Ideal))) ⟨m, fun _ => 0, ρ⟩ fun r => ∀ c : Dev nD,
      r.2.mem ((c : Thread nD τ).loc main_v7) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_of m c (G c) (hout c)), (h c).2⟩) (run_blocks (F := Ideal) m ρ)

end Cert.Hopfield.Blocks

end
-- ==== Proof.FiniteInputs.lean ====
/-
  From the precondition to "every entry of the three argument arrays is a real number".

  The precondition says that a printed predicate evaluates to 1: the conjunction, over the three argument arrays, of
  "every entry x has |x| < +∞". A conjunction of one-bit words is 1 only when both are; a conjunction over all the
  entries of an array, started at 1, is 1 only when every entry's word is 1; and the word of |x| < +∞ is 1 only when x
  is neither −∞ nor +∞ (for both, |x| = +∞), that is, when x is a real number.
-/
import proofs.«165716_j46926812676317_2_alg».proof.Defs
import proofs.«165716_j46926812676317_2_alg».proof.Proof.Gen.Pre_finite_inputs
import proofs.«165716_j46926812676317_2_alg».proof.Proof.Gen.KernelIdeal
import proofs.«165716_j46926812676317_2_alg».proof.Proof.LibRealEntries
import Idealize.ShloMosaic.Lib.ReduceAll
import Idealize.ShloMosaic.Lib.ValueIdx

noncomputable section

namespace Cert.Hopfield.Finite

open Idealize.ShloMosaic Idealize.SL.Sem Cert.LibRealEntries

/-- The shape with no axes has one index. -/
instance : Subsingleton Cert.Pre_finite_inputs.S_.Idx := ⟨fun _ _ => funext fun d => d.elim0⟩

/-- The f32 pattern `0x7F800000` denotes +∞, the greatest extended real. -/
theorem posInf_eq_top : Ideal.ofBits .f32 0x7F800000#32 = (⊤ : EReal) := by simp [Ideal.ofBits, Ideal.ieee]

/-- An extended real whose absolute value compares below +∞ is a real number: the absolute value of −∞ and of +∞ is +∞,
    which is not below itself. -/
theorem isReal_of_abs_lt (x : EReal)
    (h : Ideal.cmp .olt (max x (-x)) (Ideal.ofBits .f32 0x7F800000#32) = 1#1) : IsReal x := by
  rw [posInf_eq_top] at h
  induction x using EReal.rec with
  | bot => exact absurd h (by simp [Ideal.cmp])
  | coe r => exact ⟨r, rfl⟩
  | top => exact absurd h (by simp [Ideal.cmp])

/-- One array's part of the predicate: if the conjunction over all entries of "|x| < +∞", started at 1, is 1, then
    every entry is a real number. -/
theorem all_real {s : Shape} {axes : List (Fin s.rank)} (x : FVec Ideal s .f32)
    (bc : Cert.Pre_finite_inputs.S_.BroadcastsInDim s (![] : Fin 0 → Fin s.rank))
    (h' : s.ReducesTo axes Cert.Pre_finite_inputs.S_) (hu : 0 < Cert.Pre_finite_inputs.S_.numel)
    (e : Host.reduce IntOp.andi
        (cmpf .olt (Host.absf x) (broadcastInDim s ![] bc (constant (F := Ideal) Cert.Pre_finite_inputs.S_ .f32 0x7F800000#32)))
        (constantI Cert.Pre_finite_inputs.S_ 1 1#1) h' hu ValueIdx.ix0 = 1#1) (i : s.Idx) : IsReal (x i) := by
  have hi := Host.reduce_andi_all _ _ h' hu ValueIdx.ix0 e i
  exact isReal_of_abs_lt (x i) hi

/-- Under the precondition every entry of the three argument arrays is a real number, on every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i)) := by
  have e := congrFun (h c) ValueIdx.ix0
  dsimp only [Cert.Pre_finite_inputs.fn] at e
  obtain ⟨e01, e2⟩ := IntOp.andi_eq_one.1 e
  obtain ⟨e0, e1⟩ := IntOp.andi_eq_one.1 e01
  exact ⟨fun i => all_real _ _ _ _ e0 i, fun i => all_real _ _ _ _ e1 i, fun i => all_real _ _ _ _ e2 i⟩

end Cert.Hopfield.Finite

end
-- ==== Proof.KernelReadout.lean ====
/-
  The kernel's result is the read-out.

  The last point of a row block leaves, at (p, d), the sixteen heads' weighted sums times the reciprocals of their sums,
  added up in head order; by the carried-state invariant those are the running values after all 64 key blocks. The blocks
  the points are given are blocks of the argument arrays (the key and value tables re-laid head-major), so the block rows
  are the rows of scores and values of the specification, and for REAL inputs each head's term is its softmax-weighted sum
  of value rows: the block is a block of the read-out. The write-backs of the four row blocks cover the result array.
-/
import proofs.«165716_j46926812676317_2_alg».proof.Proof.Carry
import proofs.«165716_j46926812676317_2_alg».proof.Proof.Law
import proofs.«165716_j46926812676317_2_alg».proof.Proof.BlockReads
import proofs.«165716_j46926812676317_2_alg».proof.Proof.BlocksToArray
import proofs.«165716_j46926812676317_2_alg».proof.Proof.FiniteInputs

set_option maxRecDepth 16384
set_option maxHeartbeats 1000000

noncomputable section

open scoped BigOperators

namespace Cert.Hopfield.KernelSide

open Cert.KernelIdeal Cert.KernelIdeal.Gen Idealize.ShloMosaic Idealize.ShloMosaic.TcCoe Idealize.ShloMosaic.ValueIdx
open Cert.Online Cert.RowSoftmax Cert.LibRealEntries
open Cert.Hopfield Cert.Hopfield.Step Cert.Hopfield.Pieces Cert.Hopfield.Carry Cert.Hopfield.Law Cert.Hopfield.BlockReads
open Idealize.SL.Sem

variable (m : (ℓ : Loc nD τ sig) → Buf (Elt Ideal) ℓ) (c : Dev nD)

/-- The three argument arrays on device `c`. -/
abbrev argQ : S1024x1024.Idx → EReal := m ((c : Thread nD τ).loc main_arg0)
abbrev argK : S65536x1024.Idx → EReal := m ((c : Thread nD τ).loc main_arg1)
abbrev argV : S65536x1024.Idx → EReal := m ((c : Thread nD τ).loc main_arg2)

/-- The blocks a point is given are blocks of the argument arrays: query rows (t / 64) · 256 + p, and for each head the keys
    and values (t % 64) · 64 + j. -/
theorem qBlk_apply (t : Fin cfg0.N) (p : Fin 256) (e : Fin 1024) (b : Fin 1024) (hb : b.val = t.val / 64 * 256 + p.val) :
    qBlk m c t (ix2 p e) = argQ m c (ix2 b e) := queryBlock_apply m c t p e b hb

theorem kBlk_apply (t : Fin cfg0.N) (h : Fin 16) (j : Fin 64) (e : Fin 1024) (n : Fin 4096) (hn : n.val = t.val % 64 * 64 + j.val) :
    kBlk m c t (ix3 h j e) = argK m c (ix2 (flatRow n h) e) := keyBlock_apply m c t h j e n hn

theorem vBlk_apply (t : Fin cfg0.N) (h : Fin 16) (j : Fin 64) (e : Fin 1024) (n : Fin 4096) (hn : n.val = t.val % 64 * 64 + j.val) :
    vBlk m c t (ix3 h j e) = argV m c (ix2 (flatRow n h) e) := valueBlock_apply m c t h j e n hn

/-- The read-out's sixteen multiply-adds are the sum over the heads. -/
theorem epi_eq (l : S256x16.Idx → EReal) (acc : S16x256x1024.Idx → EReal) (p : Fin 256) (d : Fin 1024) :
    epi l acc p d = ∑ h : Fin 16, acc (ix3 h p d) * Ideal.div (Ideal.ofBits .f32 0x3F800000#32) (l (ix2 p h)) := by
  unfold epi
  rw [Ideal.ofBits_zero_f32]
  exact sum16 (fun h => acc (ix3 h p d) * Ideal.div (Ideal.ofBits .f32 0x3F800000#32) (l (ix2 p h)))

/-- What the last point of a row block leaves in the output block, at (p, d). -/
theorem lastOut (t : Fin cfg0.N) (h63 : t.val % 64 = 63) (p : Fin 256) (d : Fin 1024) :
    (outsAt0 (F := Ideal) m c t.val t.isLt).1 (ix2 p d)
      = ∑ h : Fin 16, runAcc (sRow m c (t.val - 63) p h) (vRow m c (t.val - 63) h) d 64
          * Ideal.div (Ideal.ofBits .f32 0x3F800000#32) (runSum (sRow m c (t.val - 63) p h) 64) := by
  have hN : cfg0.N = 256 := N_0
  have htl := t.isLt
  have h0 : ¬t.val % 64 = 0 := by omega
  have ht0 : (t.val - 63) % 64 = 0 := by omega
  have hn : (t.val - 63) + 63 < cfg0.N := by omega
  have hq : outsAt0 (F := Ideal) m c t.val t.isLt = outsAt0 (F := Ideal) m c ((t.val - 63) + 63) hn :=
    outsAt0_congr m c _ _ (by omega) _ _
  have e := outs_C m c t h0 h63
  generalize hP : outsAt0 (F := Ideal) m c (t.val - 1) (Nat.lt_of_le_of_lt (Nat.sub_le _ _) t.isLt) = P at e
  have eO := congrArg (fun z => z.1) e
  have eL := congrArg (fun z => z.2.2.1) e
  have eA := congrArg (fun z => z.2.2.2) e
  dsimp only at eO eL eA
  have kL := sumC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) ((hcond0_1 t).mpr h63) (qBlk m c t) (kBlk m c t) (vBlk m c t) P.2.1 P.2.2.1 P.2.2.2
  rw [eO, outC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) ((hcond0_1 t).mpr h63) (qBlk m c t) (kBlk m c t) (vBlk m c t) P.2.1 P.2.2.1 P.2.2.2 p d, epi_eq]
  refine Finset.sum_congr rfl fun h _ => ?_
  obtain ⟨_, cL, cA⟩ := carried m c (t.val - 63) ht0 p h d 63 (by norm_num) hn
  rw [← hq] at cL cA
  have kA := accC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun hh => h0 ((hcond0_0 t).mp hh)) ((hcond0_1 t).mpr h63) (qBlk m c t) (kBlk m c t) (vBlk m c t) P.2.1 P.2.2.1 P.2.2.2 (ix3 h p d)
  rw [← kA, ← eA, cA, ← kL, ← eL, cL]

/-- With real inputs, the block the last point of a row block leaves is a block of the read-out. -/
theorem block_eq (hQ : ∀ i, IsReal (argQ m c i)) (hK : ∀ i, IsReal (argK m c i)) (hV : ∀ i, IsReal (argV m c i))
    (t : Fin cfg0.N) (h63 : t.val % 64 = 63) (p : Fin 256) (d : Fin 1024) (r : Fin 1024) (hr : r.val = t.val / 64 * 256 + p.val) :
    (outsAt0 (F := Ideal) m c t.val t.isLt).1 (ix2 p d) = readout (argQ m c) (argK m c) (argV m c) (ix2 r d) := by
  have hN : cfg0.N = 256 := N_0
  have htl := t.isLt
  have hqr : ∀ (t' : Fin cfg0.N) (p' : Fin 256) (e : Fin 1024), IsReal (qBlk m c t' (ix2 p' e)) := fun t' p' e => by
    rw [qBlk_apply m c t' p' e ⟨t'.val / 64 * 256 + p'.val, by have := t'.isLt; have := p'.isLt; omega⟩ rfl]
    exact hQ _
  have hkr : ∀ (t' : Fin cfg0.N) (h' : Fin 16) (j : Fin 64) (e : Fin 1024), IsReal (kBlk m c t' (ix3 h' j e)) := fun t' h' j e => by
    rw [kBlk_apply m c t' h' j e ⟨t'.val % 64 * 64 + j.val, by have := j.isLt; omega⟩ rfl]
    exact hK _
  rw [lastOut m c t h63 p d, readout_ix2]
  refine Finset.sum_congr rfl fun h _ => ?_
  unfold headOut
  have hsk : ∀ k (hk : k < 64) (j : Fin 64), sRow m c (t.val - 63) p h k j
      = score (argQ m c) (argK m c) r h ⟨k * 64 + j.val, by have := j.isLt; omega⟩ := fun k hk j => by
    have hlt : (t.val - 63) + k < cfg0.N := by omega
    unfold sRow
    rw [dif_pos hlt, scores_apply]
    unfold score
    congr 1
    refine Finset.sum_congr rfl fun e _ => ?_
    rw [qBlk_apply m c ⟨_, hlt⟩ p e r (by show r.val = (t.val - 63 + k) / 64 * 256 + p.val; omega),
      kBlk_apply m c ⟨_, hlt⟩ h j e ⟨k * 64 + j.val, by have := j.isLt; omega⟩
        (by show k * 64 + j.val = (t.val - 63 + k) % 64 * 64 + j.val; omega)]
  have hxk : ∀ k (hk : k < 64) (j : Fin 64) (d' : Fin 1024), vRow m c (t.val - 63) h k j d'
      = argV m c (ix2 (flatRow ⟨k * 64 + j.val, by have := j.isLt; omega⟩ h) d') := fun k hk j d' => by
    have hlt : (t.val - 63) + k < cfg0.N := by omega
    unfold vRow
    rw [dif_pos hlt]
    exact vBlk_apply m c ⟨_, hlt⟩ h j d' ⟨k * 64 + j.val, by have := j.isLt; omega⟩
      (by show k * 64 + j.val = (t.val - 63 + k) % 64 * 64 + j.val; omega)
  have hsr : ∀ k j, IsReal (sRow m c (t.val - 63) p h k j) := fun k j => by
    unfold sRow
    split
    · rw [scores_apply]
      exact (isReal_sum _ _ fun e _ => (hqr _ p e).mul (hkr _ h j e)).mul isReal_quarter
    · exact isReal_zero
  have hrr : ∀ J, IsReal (score (argQ m c) (argK m c) r h J) := fun J => by
    unfold score
    exact (isReal_sum _ _ fun e _ => (hQ _).mul (hK _)).mul isReal_quarter
  exact head_law (score (argQ m c) (argK m c) r h) (fun J d' => argV m c (ix2 (flatRow J h) d')) hrr (fun J d' => hV _)
    (sRow m c (t.val - 63) p h) (vRow m c (t.val - 63) h) hsr hsk hxk d

/-- The kernel's run: under the precondition the result array ends holding the read-out of the arguments, which are unchanged. -/
theorem run (ρ : Dev nD → PrngReg) (hpre : Cert.Pre_KernelIdeal (hPre_finite_inputs := Cert.Pre_finite_inputs.Gen.facts) m) :
    θ_run defs (onTc (τ := τ) (main (F := Ideal))) ⟨m, fun _ => 0, ρ⟩ fun r => ∀ c : Dev nD,
      r.2.mem ((c : Thread nD τ).loc main_v7) = readout (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Cert.Hopfield.Blocks.run_of m ρ (fun c => readout (argQ m c) (argK m c) (argV m c)) fun c t h63 p d r hr =>
    block_eq m c (Cert.Hopfield.Finite.real_of_pre m hpre c).1 (Cert.Hopfield.Finite.real_of_pre m hpre c).2.1
      (Cert.Hopfield.Finite.real_of_pre m hpre c).2.2 t h63 p d r hr

end Cert.Hopfield.KernelSide

end
-- ==== Proof.RefReadout.lean ====
/-
  The reference program's result is the associative-memory read-out of the specification.

  Index by index at (b, d) the reference computes ∑ f, probs(b, f) · V(f, d) over the 65536 table rows, where for the
  row f = n · 16 + h of key n of head h

    probs(b, f) = exp (z b n h − M b h) / (0 + ∑ n', exp (z b n' h − M b h)),
    z b n h = 8 · ((∑ e, X(b, e) · K(n · 16 + h, e)) / 32),
    M b h = max (−∞) (the greatest of z b n h over the 4096 keys n).

  (1) Dividing any extended real by 32 is multiplying it by 1/32, and multiplication of extended reals is commutative
      and associative, so z b n h is the dot product times 8 · (1/32) = 1/4: the specification's score.
  (2) Zero is neutral for the sum and −∞ for the maximum, so probs(b, n · 16 + h) is the row softmax of head h's
      scores at key n.
  (3) The 65536 rows are the pairs (n, h), so the sum over f is the double sum over n and h; exchanging the two sums
      (addition of extended reals is a commutative monoid) gives the sum over the heads of each head's output.

  No finiteness is assumed anywhere: every step holds on all extended reals.
-/
import proofs.«165716_j46926812676317_2_alg».proof.Proof.Gen.ReferenceIdeal.Read
import proofs.«165716_j46926812676317_2_alg».proof.Proof.Spec
import Idealize.ShloMosaic.Lib.ValueIdx
import Idealize.ShloMosaic.PureOps.Ideal.Laws
import Idealize.ShloMosaic.PureOps.Reduce

noncomputable section

open scoped BigOperators

namespace Cert.Hopfield.RefSide

open Idealize.ShloMosaic Idealize.ShloMosaic.ValueIdx Cert.RowSoftmax Cert.ReferenceIdeal Cert.ReferenceIdeal.Gen Cert.ReferenceIdeal.Read

/-- The query array's contents at the ideal values. -/
abbrev QArr := (⟨S1024x1024, .f32⟩ : BufTy).Contents (Elt Ideal)
/-- A table's contents at the ideal values. -/
abbrev TArr := (⟨S65536x1024, .f32⟩ : BufTy).Contents (Elt Ideal)

/-! ## The three constants and the scale -/

/-- The f32 pattern `0x42000000` denotes 32. -/
theorem ofBits_32 : Ideal.ofBits .f32 0x42000000#32 = ((32 : ℝ) : EReal) := by
  simp [Ideal.ofBits, Ideal.ieee, -EReal.coe_mul]; norm_num

/-- The f32 pattern `0x41000000` denotes 8. -/
theorem ofBits_8 : Ideal.ofBits .f32 0x41000000#32 = ((8 : ℝ) : EReal) := by
  simp [Ideal.ofBits, Ideal.ieee, -EReal.coe_mul]; norm_num

/-- The f32 pattern `0x3E800000` denotes 1/4. -/
theorem ofBits_quarter : Ideal.ofBits .f32 0x3E800000#32 = ((1 / 4 : ℝ) : EReal) := by
  simp [Ideal.ofBits, Ideal.ieee, -EReal.coe_mul]; norm_num

/-- Eight times the quotient by 32 is the product with 1/4, for every extended real: the quotient by the real 32 is
    the product with 1/32, and the product of extended reals is commutative and associative. -/
theorem scale_eq (s : EReal) :
    Ideal.ofBits .f32 0x41000000#32 * Ideal.div s (Ideal.ofBits .f32 0x42000000#32) = s * Ideal.ofBits .f32 0x3E800000#32 := by
  rw [ofBits_8, ofBits_32, ofBits_quarter, Ideal.div_coe (by norm_num : (32 : ℝ) ≠ 0),
    mul_comm ((8 : ℝ) : EReal) _, mul_assoc, ← EReal.coe_mul]
  norm_num

/-! ## The stages, each at one index -/

/-- The scaled scores: at (b, n, h) the reference holds the specification's score of key `n` of head `h`. -/
theorem scores_apply (x0 : QArr) (x1 : TArr) (b : Fin 1024) (n : Fin 4096) (h : Fin 16) :
    val_main_v6 (F := Ideal) x0 x1 (ix3 b n h) = score x0 x1 b h n := by
  have hb : b.val < 1024 := b.isLt
  have hn : n.val < 4096 := n.isLt
  have hh : h.val < 16 := h.isLt
  have e4 : idx_main_v4 (ix3 b n h) = ix2 b (flatRow n h) := funext fun a => Fin.ext (by
    match a with
    | ⟨0, _⟩ => show ((b.val * 4096 + n.val) * 16 + h.val) / 65536 = b.val; omega
    | ⟨1, _⟩ => show ((b.val * 4096 + n.val) * 16 + h.val) % 65536 = n.val * 16 + h.val; omega)
  have el : ∀ k : Fin 1024, lidx_main_v1 (ix2 b (flatRow n h)) k = ix2 b k := fun k =>
    funext fun a => Fin.ext (by match a with | ⟨0, _⟩ => rfl | ⟨1, _⟩ => rfl)
  have er : ∀ k : Fin 1024, idx_main_v0 (ridx_main_v1 (ix2 b (flatRow n h)) k) = ix2 (flatRow n h) k := fun k =>
    funext fun a => Fin.ext (by match a with | ⟨0, _⟩ => rfl | ⟨1, _⟩ => rfl)
  rw [val_main_v6_apply, val_main_v5_apply, val_main_cst_0_apply, val_main_v4_apply, e4, val_main_v3_apply,
    val_main_v2_apply, val_main_cst_apply, val_main_v1_apply]
  simp only [val_main_v0_apply, el, er, Ideal.ofBits_def, Ideal.mulf_def, Ideal.hostDivf_def]
  exact scale_eq _

/-- The maximum over the middle axis, from −∞, of a [1024, 4096, 16] array at (b, h): the greatest entry of the row
    `n ↦ x (b, n, h)`. -/
theorem midMax_apply (x : (⟨S1024x4096x16, .f32⟩ : BufTy).Contents (Elt Ideal)) (b : Fin 1024) (h : Fin 16) :
    Host.reduce (FloatOps.maximumf (F := Ideal) (φ := .f32)) x (val_main_cst_1 (F := Ideal)) reducesTo_S1024x4096x16_S1024x16_d1 h_S_ (ix2 b h)
      = rowMax (fun n : Fin 4096 => x (ix3 b n h)) := by
  have hr : S1024x4096x16.Reduces [1] S1024x16 := by decide
  refine (Host.reduce_eq_fold_single (FloatOps.maximumf (F := Ideal) (φ := .f32)) x _ reducesTo_S1024x4096x16_S1024x16_d1 hr h_S_ (ix2 b h)).trans ?_
  unfold rowMax
  refine congrArg (fun f => Finset.fold max _ f Finset.univ) (funext fun n => congrArg x (funext fun e => Fin.ext ?_))
  match e with
  | ⟨0, _⟩ => rfl
  | ⟨1, _⟩ => rfl
  | ⟨2, _⟩ => rfl

/-- The row maximum the reference subtracts: at (b, h), the greatest score of head `h`. -/
theorem rowMax_apply (x0 : QArr) (x1 : TArr) (b : Fin 1024) (h : Fin 16) :
    val_main_v9 (F := Ideal) x0 x1 (ix2 b h) = rowMax (score x0 x1 b h) := by
  rw [val_main_v9_apply, val_main_v8_apply, val_main_cst_2_apply]
  unfold val_main_v7
  rw [midMax_apply]
  simp only [Ideal.ofBits_def, Ideal.maximumf_def, max_negInf, scores_apply]

/-- The shifted exponentials: at (b, n, h), the exponential of the score less the head's greatest score. -/
theorem exps_apply (x0 : QArr) (x1 : TArr) (b : Fin 1024) (n : Fin 4096) (h : Fin 16) :
    val_main_v13 (F := Ideal) x0 x1 (ix3 b n h) = Ideal.exp (score x0 x1 b h n - rowMax (score x0 x1 b h)) := by
  have e : idx_main_v10 (idx_main_v11 (ix3 b n h)) = ix2 b h :=
    funext fun a => Fin.ext (by match a with | ⟨0, _⟩ => rfl | ⟨1, _⟩ => rfl)
  rw [val_main_v13_apply, val_main_v12_apply, val_main_v11_apply, val_main_v10_apply, e, scores_apply, rowMax_apply]
  simp only [Ideal.hostUnary_exp_def, Ideal.subf_def]

/-- The row sums: at (b, h), the sum over the keys of the shifted exponentials. -/
theorem rowSum_apply (x0 : QArr) (x1 : TArr) (b : Fin 1024) (h : Fin 16) :
    val_main_v14 (F := Ideal) x0 x1 (ix2 b h)
      = ∑ k : Fin 4096, Ideal.exp (score x0 x1 b h k - rowMax (score x0 x1 b h)) := by
  have e : ∀ k : Fin 4096, idx_main_v14 (ix2 b h) k = ix3 b k h := fun k =>
    funext fun a => Fin.ext (by match a with | ⟨0, _⟩ => rfl | ⟨1, _⟩ => rfl | ⟨2, _⟩ => rfl)
  rw [val_main_v14_apply, val_main_cst_3_apply]
  simp only [e, exps_apply, Ideal.ofBits_def, Ideal.ofBits_zero_f32, zero_add]

/-- The probabilities: at (b, n · 16 + h), the softmax of head `h`'s scores at key `n`. -/
theorem probs_apply (x0 : QArr) (x1 : TArr) (b : Fin 1024) (n : Fin 4096) (h : Fin 16) :
    val_main_v18 (F := Ideal) x0 x1 (ix2 b (flatRow n h)) = rowSoftmax (score x0 x1 b h) n := by
  have hb : b.val < 1024 := b.isLt
  have hn : n.val < 4096 := n.isLt
  have hh : h.val < 16 := h.isLt
  have e18 : idx_main_v18 (ix2 b (flatRow n h)) = ix3 b n h := funext fun a => Fin.ext (by
    match a with
    | ⟨0, _⟩ => show (b.val * 65536 + (n.val * 16 + h.val)) / 65536 = b.val; omega
    | ⟨1, _⟩ => show (b.val * 65536 + (n.val * 16 + h.val)) / 16 % 4096 = n.val; omega
    | ⟨2, _⟩ => show (b.val * 65536 + (n.val * 16 + h.val)) % 16 = h.val; omega)
  have e : idx_main_v15 (idx_main_v16 (ix3 b n h)) = ix2 b h :=
    funext fun a => Fin.ext (by match a with | ⟨0, _⟩ => rfl | ⟨1, _⟩ => rfl)
  rw [val_main_v18_apply, e18, val_main_v17_apply, val_main_v16_apply, val_main_v15_apply, e, exps_apply, rowSum_apply]
  simp only [Ideal.hostDivf_def]
  rfl

/-! ## The sum over the table rows -/

/-- A sum over the 65536 table rows is the double sum over the keys and the heads, row `n · 16 + h` at (n, h). -/
theorem sum_flat (f : Fin 65536 → EReal) :
    ∑ J : Fin 65536, f J = ∑ n : Fin 4096, ∑ h : Fin 16, f (flatRow n h) := by
  have e : ∀ (n : Fin 4096) (h : Fin 16), (finProdFinEquiv (n, h) : Fin (4096 * 16)) = flatRow n h := fun n h =>
    Fin.ext (by rw [finProdFinEquiv_apply_val, flatRow_val]; show h.val + 16 * n.val = n.val * 16 + h.val; omega)
  calc ∑ J : Fin 65536, f J = ∑ p : Fin 4096 × Fin 16, f (finProdFinEquiv p) :=
        (Equiv.sum_comp (finProdFinEquiv (m := 4096) (n := 16)) f).symm
    _ = ∑ n : Fin 4096, ∑ h : Fin 16, f (finProdFinEquiv (n, h)) := Fintype.sum_prod_type _
    _ = ∑ n : Fin 4096, ∑ h : Fin 16, f (flatRow n h) :=
        Finset.sum_congr rfl fun n _ => Finset.sum_congr rfl fun h _ => by rw [e]

/-- The result at (b, d): the sum over the heads of each head's output. -/
theorem ref_apply (x0 : QArr) (x1 x2 : TArr) (b d : Fin 1024) :
    val_main_v19 (F := Ideal) x0 x1 x2 (ix2 b d) = ∑ h : Fin 16, headOut x0 x1 x2 b h d := by
  have el : ∀ k : Fin 65536, lidx_main_v19 (ix2 b d) k = ix2 b k := fun k =>
    funext fun a => Fin.ext (by match a with | ⟨0, _⟩ => rfl | ⟨1, _⟩ => rfl)
  have er : ∀ k : Fin 65536, ridx_main_v19 (ix2 b d) k = ix2 k d := fun k =>
    funext fun a => Fin.ext (by match a with | ⟨0, _⟩ => rfl | ⟨1, _⟩ => rfl)
  rw [val_main_v19_apply]
  simp only [el, er]
  rw [sum_flat, Finset.sum_comm]
  unfold headOut
  exact Finset.sum_congr rfl fun h _ => Finset.sum_congr rfl fun n _ => by rw [probs_apply]

/-- The reference program's result is the read-out, on all extended reals. -/
theorem ref_eq_readout (x0 : (⟨Cert.ReferenceIdeal.S1024x1024, .f32⟩ : BufTy).Contents (Elt Ideal))
    (x1 x2 : (⟨Cert.ReferenceIdeal.S65536x1024, .f32⟩ : BufTy).Contents (Elt Ideal)) :
    Cert.ReferenceIdeal.Read.val_main_v19 (F := Ideal) x0 x1 x2 = Cert.Hopfield.readout x0 x1 x2 := by
  funext y
  obtain ⟨b, d, rfl⟩ : ∃ b d : Fin 1024, y = ix2 b d := ⟨y 0, y 1, eq_ix2 (n0 := 1024) (n1 := 1024) y⟩
  exact (ref_apply x0 x1 x2 b d).trans (readout_ix2 x0 x1 x2 b d).symm

end Cert.Hopfield.RefSide

end
-- ==== Proof.lean ====
/-
  The kernel and its reference compute one function: the multi-head associative-memory read-out.

  Both take a query array X (1024 × 1024) and two tables of 65536 = 4096 · 16 rows, keys K and values V, row n · 16 + h
  belonging to key n of head h. For a query row b and a head h the score of key n is (X_b · K_{n,h}) / 4; the head's output
  is the softmax over its 4096 keys of those scores, weighted sum of its value rows; the result is the sum of the sixteen
  heads' outputs (`Cert.Hopfield.readout`).

  The reference forms all scores by one matrix product, divides by 32 and multiplies by 8, takes the softmax along the key
  axis and multiplies by the value table; index by index that is the read-out on all extended reals (8 · (s / 32) = s / 4,
  −∞ and 0 are neutral, the 65536 rows are the pairs (n, h)).

  The kernel re-lays the tables head-major and walks, for each block of 256 query rows, over 64 blocks of 64 keys, keeping
  per (row, head) the greatest score so far, the sum of exponentials shifted by it, and the correspondingly weighted sum of
  value rows, rescaling the sums by exp (old maximum − new maximum) when the maximum grows; after the last key block it
  adds up, head by head, the weighted sum times the reciprocal of the sum. For REAL inputs (the precondition: every input
  finite) the scores are real, the rescaled sums are the sums shifted by the new maximum (exp a · exp b = exp (a + b)),
  the final sum is a positive real, so multiplying by its reciprocal is dividing by it, and each head's term is its
  softmax-weighted sum. The idealization rewrote nothing, so the kernel's idealized text is its own text.
-/
import proofs.«165716_j46926812676317_2_alg».proof.Defs
import proofs.«165716_j46926812676317_2_alg».proof.Proof.Gen.Kernel
import proofs.«165716_j46926812676317_2_alg».proof.Proof.Gen.Kernel.Skeleton
import proofs.«165716_j46926812676317_2_alg».proof.Proof.Gen.Kernel.Launch
import proofs.«165716_j46926812676317_2_alg».proof.Proof.Gen.Kernel.Points
import proofs.«165716_j46926812676317_2_alg».proof.Proof.Gen.Kernel.Frame
import proofs.«165716_j46926812676317_2_alg».proof.Proof.Gen.KernelIdeal
import proofs.«165716_j46926812676317_2_alg».proof.Proof.Gen.KernelIdeal.Skeleton
import proofs.«165716_j46926812676317_2_alg».proof.Proof.Gen.KernelIdeal.Launch
import proofs.«165716_j46926812676317_2_alg».proof.Proof.Gen.KernelIdeal.Points
import proofs.«165716_j46926812676317_2_alg».proof.Proof.Gen.KernelIdeal.Frame
import proofs.«165716_j46926812676317_2_alg».proof.Proof.Gen.KernelIdeal.Value
import proofs.«165716_j46926812676317_2_alg».proof.Proof.Gen.ReferenceIdeal
import proofs.«165716_j46926812676317_2_alg».proof.Proof.Gen.ReferenceIdeal.Run
import proofs.«165716_j46926812676317_2_alg».proof.Proof.Gen.ReferenceIdeal.Read
import proofs.«165716_j46926812676317_2_alg».proof.Proof.Gen.Pre_finite_inputs
import proofs.«165716_j46926812676317_2_alg».proof.Proof.KernelReadout
import proofs.«165716_j46926812676317_2_alg».proof.Proof.RefReadout
import Idealize.ShloMosaic.Adequacy
import Idealize.ShloMosaic.Init

noncomputable section

namespace Cert.Proof

open Idealize.ShloMosaic Idealize.SL.Sem

/-- The three programs run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories agreeing on the arguments, both runs end with the read-out of the arguments in their result arrays. -/
theorem algebraic : Cert.algebraic_KernelIdeal_ReferenceIdeal := by
  intro m ρ m' ρ' hpre hagree
  refine ⟨_, Cert.Hopfield.KernelSide.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.Hopfield.RefSide.ref_eq_readout,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
